-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4x2048x512 .f32) (main_arg1 : FVec F S1536x512 .f32) (main_arg2 : FVec F S1536 .f32) (main_arg3 : FVec F S512x512 .f32) (main_arg4 : FVec F S512 .f32) (main_arg5 : FVec F S512 .f32) (main_arg6 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4x2048x512 : Shape := ⟨3, ![4, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S8192x512 : Shape := ⟨2, ![8192, 512]⟩
abbrev S512x1536 : Shape := ⟨2, ![512, 1536]⟩
abbrev S1x1536 : Shape := ⟨2, ![1, 1536]⟩
abbrev S8192x1536 : Shape := ⟨2, ![8192, 1536]⟩
abbrev S1024x512 : Shape := ⟨2, ![1024, 512]⟩
abbrev S1024x1536 : Shape := ⟨2, ![1024, 1536]⟩
abbrev S4x2048x1536 : Shape := ⟨3, ![4, 2048, 1536]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512x1 : Shape := ⟨2, ![512, 1]⟩
abbrev S1x512 : Shape := ⟨2, ![1, 512]⟩
abbrev S1024 : Shape := ⟨1, ![1024]⟩
abbrev S1024x1 : Shape := ⟨2, ![1024, 1]⟩

abbrev nBuf : Space → Nat
  | .hbm => 22
  | .vmem => 24
  | .smem => 0
  | _ => 0

abbrev bufTy : (tb : Table) → Fin (tcTables nBuf tb) → BufTy
  | .hbm, ⟨0, _⟩ => ⟨S4x2048x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S8192x512, .f32⟩
  | .hbm, ⟨8, _⟩ => ⟨S512x1536, .f32⟩
  | .hbm, ⟨9, _⟩ => ⟨S512x1536, .bf16⟩
  | .hbm, ⟨10, _⟩ => ⟨S1x1536, .f32⟩
  | .hbm, ⟨11, _⟩ => ⟨S8192x1536, .bf16⟩
  | .hbm, ⟨12, _⟩ => ⟨S4x2048x1536, .bf16⟩
  | .hbm, ⟨13, _⟩ => ⟨S4x2048x512, .bf16⟩
  | .hbm, ⟨14, _⟩ => ⟨S8192x512, .bf16⟩
  | .hbm, ⟨15, _⟩ => ⟨S512x512, .f32⟩
  | .hbm, ⟨16, _⟩ => ⟨S512x512, .bf16⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S8192x512, .f32⟩
  | .hbm, ⟨21, _⟩ => ⟨S4x2048x512, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1x1536, .f32⟩
  | .local _ .vmem, ⟨4, _⟩ => ⟨S1024x1536, .bf16⟩
  | .local _ .vmem, ⟨5, _⟩ => ⟨S1024x1536, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x512x128, .bf16⟩
  | .local _ .vmem, ⟨13, _⟩ => ⟨S1x512x128, .bf16⟩
  | .local _ .vmem, ⟨14, _⟩ => ⟨S1024x512, .bf16⟩
  | .local _ .vmem, ⟨15, _⟩ => ⟨S1024x512, .bf16⟩
  | .local _ .vmem, ⟨16, _⟩ => ⟨S512x512, .bf16⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | .local _ .vmem, ⟨20, _⟩ => ⟨S1x512, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S4x2048x512_S8192x512 : S4x2048x512.ShapeCasts S8192x512
  transposes_S1536x512_S512x1536_1_0 : S1536x512.Transposes [1, 0] S512x1536
  bitsLt_bf16_f32 : FTy.bits .bf16 < FTy.bits .f32
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S8192x1536_S4x2048x1536 : S8192x1536.ShapeCasts S4x2048x1536
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  transposes_S512x512_S512x512_1_0 : S512x512.Transposes [1, 0] S512x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  shapeCasts_S8192x512_S4x2048x512 : S8192x512.ShapeCasts S4x2048x512
  dot_S1024x512_S512x1536_S1024x1536_1_0_0_1_n_n_wf : DotDims.WF S1024x512 S512x1536 S1024x1536 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S8192x1536.size a
  hwx0_3 : ∀ i : grid0.Coords, EltTy.bits .bf16 = 32 ∨ (Rect.block (s := S8192x1536) S1024x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1536.size a
  hwx1_0 : ∀ i : grid1.Coords, EltTy.bits .bf16 = 32 ∨ (Rect.block (s := S4x2048x1536) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1536.size a
  hwx1_1 : ∀ i : grid1.Coords, EltTy.bits .bf16 = 32 ∨ (Rect.block (s := S4x2048x1536) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1536.size a
  hwx1_2 : ∀ i : grid1.Coords, EltTy.bits .bf16 = 32 ∨ (Rect.block (s := S4x2048x1536) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x512.size a
  hwx1_3 : ∀ i : grid1.Coords, EltTy.bits .bf16 = 32 ∨ (Rect.block (s := S4x2048x512) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .f32 = 32 ∨ (Rect.block (s := S8192x512) S1024x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S8192x512.size a
  hwx2_6 : ∀ i : grid2.Coords, EltTy.bits .f32 = 32 ∨ (Rect.block (s := S8192x512) S1024x512.size (cc2_transform_6 i) (hinb2_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1024x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x2048x512 : Shape := ⟨3, ![4, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4x2048x1536 : Shape := ⟨3, ![4, 2048, 1536]⟩
abbrev S1x1x1536 : Shape := ⟨3, ![1, 1, 1536]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S1x1x512 : Shape := ⟨3, ![1, 1, 512]⟩
abbrev S4x2048 : Shape := ⟨2, ![4, 2048]⟩
abbrev S4x2048x1 : Shape := ⟨3, ![4, 2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4x2048x1536, .f32⟩
  | .hbm, ⟨8, _⟩ => ⟨S1x1x1536, .f32⟩
  | .hbm, ⟨9, _⟩ => ⟨S4x2048x1536, .f32⟩
  | .hbm, ⟨10, _⟩ => ⟨S4x2048x1536, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S4x2048x8x64, .f32⟩
  | .hbm, ⟨15, _⟩ => ⟨S4x8x2048x64, .f32⟩
  | .hbm, ⟨16, _⟩ => ⟨S4x2048x8x64, .f32⟩
  | .hbm, ⟨17, _⟩ => ⟨S4x8x2048x64, .f32⟩
  | .hbm, ⟨18, _⟩ => ⟨S4x2048x8x64, .f32⟩
  | .hbm, ⟨19, _⟩ => ⟨S4x8x2048x64, .f32⟩
  | .hbm, ⟨20, _⟩ => ⟨S4x8x2048x2048, .f32⟩
  | .hbm, ⟨21, _⟩ => ⟨S_, .f32⟩
  | .hbm, ⟨22, _⟩ => ⟨S_, .f32⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S_, .f32⟩
  | .hbm, ⟨28, _⟩ => ⟨S4x8x2048, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x2048x64, .f32⟩
  | .hbm, ⟨40, _⟩ => ⟨S4x2048x8x64, .f32⟩
  | .hbm, ⟨41, _⟩ => ⟨S4x2048x512, .f32⟩
  | .hbm, ⟨42, _⟩ => ⟨S4x2048x512, .f32⟩
  | .hbm, ⟨43, _⟩ => ⟨S1x1x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x512, .f32⟩
  | .hbm, ⟨54, _⟩ => ⟨S4x2048x512, .f32⟩
  | .hbm, ⟨55, _⟩ => ⟨S4x2048x512, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x512, .f32⟩
  | .hbm, ⟨63, _⟩ => ⟨S4x2048x512, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S4x2048x1, .f32⟩
  | .hbm, ⟨68, _⟩ => ⟨S4x2048x512, .f32⟩
  | .hbm, ⟨69, _⟩ => ⟨S4x2048x512, .f32⟩
  | .hbm, ⟨70, _⟩ => ⟨S1x1x512, .f32⟩
  | .hbm, ⟨71, _⟩ => ⟨S4x2048x512, .f32⟩
  | .hbm, ⟨72, _⟩ => ⟨S4x2048x512, .f32⟩
  | .hbm, ⟨73, _⟩ => ⟨S1x1x512, .f32⟩
  | .hbm, ⟨74, _⟩ => ⟨S4x2048x512, .f32⟩
  | .hbm, ⟨75, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S4x2048x1536_0_1_2 : S1x1x1536.BroadcastsInDim S4x2048x1536 (![0, 1, 2] : Fin 3 → Fin S4x2048x1536.rank)
  slices_S4x2048x1536_S4x2048x512_0_0_0 : S4x2048x1536.Slices ![0, 0, 0] S4x2048x512
  slices_S4x2048x1536_S4x2048x512_0_0_512 : S4x2048x1536.Slices ![0, 0, 512] S4x2048x512
  slices_S4x2048x1536_S4x2048x512_0_0_1024 : S4x2048x1536.Slices ![0, 0, 1024] S4x2048x512
  shapeCasts_S4x2048x512_S4x2048x8x64 : S4x2048x512.ShapeCasts S4x2048x8x64
  transposes_S4x2048x8x64_S4x8x2048x64_0_2_1_3 : S4x2048x8x64.Transposes [0, 2, 1, 3] S4x8x2048x64
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  reducesTo_S4x2048x512_S4x2048_d2 : S4x2048x512.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  dot_S4x2048x512_S1536x512_S4x2048x1536_2_1_01_0_n_n_wf : DotDims.WF S4x2048x512 S1536x512 S4x2048x1536 [2] [1] [0, 1] [0] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]
  dot_S4x2048x512_S512x512_S4x2048x512_2_1_01_0_n_n_wf : DotDims.WF S4x2048x512 S512x512 S4x2048x512 [2] [1] [0, 1] [0] [] []

variable [Facts₀]

def dot_S4x2048x512_S1536x512_S4x2048x1536_2_1_01_0_n_n : DotDims S4x2048x512 S1536x512 S4x2048x1536 where
  lhsContracting := [2]
  rhsContracting := [1]
  lhsNonContracting := [0, 1]
  rhsNonContracting := [0]
  lhsBatch := []
  rhsBatch := []
  wf := dot_S4x2048x512_S1536x512_S4x2048x1536_2_1_01_0_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf
def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf

class Facts : Prop extends Facts₀ where

variable [Facts]
-- ==== Proof.K.Data0.lean ====
/-
  Region 0 (the projection x2 · wct + bc2, eight row blocks of 1024 rows): what each window's staging buffer holds
  after the body at a grid point, as a function of the blocks the point reads, and the pipeline's proof data built
  from it. `V` is what the core's buffers hold when the region is entered.
-/
import proofs.«140616_j7722351198230_2_alg».proof.Proof.Gen.Kernel.Launch
import proofs.«140616_j7722351198230_2_alg».proof.Proof.Gen.Kernel.Skeleton
import proofs.«140616_j7722351198230_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_x : Rect S1024x512 := Rect.unit (s := S1024x512) ![0, 0] S1024x512.size inb_S1024x512_S1024x512_0_0
abbrev r0_w : Rect S512x1536 := Rect.unit (s := S512x1536) ![0, 0] S512x1536.size inb_S512x1536_S512x1536_0_0
abbrev r0_b : Rect S1x1536 := Rect.unit (s := S1x1536) ![0, 0] S1x1536.size inb_S1x1536_S1x1536_0_0
abbrev r0_o : Rect S1024x1536 := Rect.unit (s := S1024x1536) ![0, 0] S1024x1536.size inb_S1024x1536_S1024x1536_0_0

/-- The output block after the body: its one store, of the payload of the three loaded blocks. -/
def out0_3 (x0 : Vec F S1024x512 .f32) (x1 : Vec F S512x1536 .bf16) (x2 : Vec F S1x1536 .f32) : Vec F S1024x1536 .bf16 :=
  View.canon [⟨r0_o, k0_pay1 (View.ld x0 r0_x) (View.ld x1 r0_w) (View.ld x2 r0_b)⟩]

/-- The proof data of pipeline 0 on core `c`: the arrays as the region finds them; after the body each input's buffer
    at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.Body0.lean ====
/-
  Region 0's body at a grid point: from staging buffers holding the point's blocks it runs to the end without a fault,
  leaves the input buffers as they were and the output buffer at the stored payload; hence the pipeline's body obligation.
-/
import proofs.«140616_j7722351198230_2_alg».proof.Proof.K.Data0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output's one store covers its buffer. -/
theorem cover0_3 (p0 : Vec F S1024x1536 .bf16) (y : S1024x1536.Idx) :
    ∃ pc ∈ ([⟨r0_o, p0⟩] : List (View.Piece (Elt F) S1024x1536 .bf16)), y ∈ pc.1.set :=
  View.cover_of_tiled [⟨r0_o, p0⟩] S1024x1536.size (by rfl) y

set_option maxHeartbeats 4000000 in
/-- The kernel body on whole staging memrefs, the inputs' at contents `x` and the output's at anything, runs to the
    continuation holding the inputs' as they were and the output's at `out0_3` of the inputs'. -/
theorem sound_kernel0 (c : Dev nD) (E : Set ℕ) (i : grid0.Coords) (a0 : Memref sig .tc .vmem S1024x512 .f32) (ha0 : a0.IsWhole) (a1 : Memref sig .tc .vmem S512x1536 .bf16) (ha1 : a1.IsWhole) (a2 : Memref sig .tc .vmem S1x1536 .f32) (ha2 : a2.IsWhole) (a3 : Memref sig .tc .vmem S1024x1536 .bf16) (ha3 : a3.IsWhole)
    (x0 : Vec F S1024x512 .f32) (x1 : Vec F S512x1536 .bf16) (x2 : Vec F S1x1536 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2)) -∗ K ⟨⟩))
      ⊢ wp frame (wpE (defs₀ (F := F)) Variants.none c none) E (cc0__proj_kernel i a0 ha0 a1 ha1 a2 ha2 a3 ha3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Data1.lean ====
/-
  Region 1 (attention, one grid point per batch, head pair and query tile): what each window's staging buffer holds
  after the body at a grid point, as a function of the blocks the point reads, and the pipeline's proof data built
  from it. The three input windows read one array (the projected rows), so each holds it at a part of the full share.
  `V` is what the core's buffers hold when the region is entered.
-/
import proofs.«140616_j7722351198230_2_alg».proof.Proof.Gen.Kernel.Launch
import proofs.«140616_j7722351198230_2_alg».proof.Proof.Gen.Kernel.Skeleton
import proofs.«140616_j7722351198230_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0

/-- The output block after the body: its one store, of the payload of the three loaded blocks (queries, keys, values). -/
def out1_3 (x0 : Vec F S1x512x128 .bf16) (x1 : Vec F S1x2048x128 .bf16) (x2 : Vec F S1x2048x128 .bf16) : Vec F S1x512x128 .bf16 :=
  View.canon [⟨r1_q, k1_pay1 (k1_pay5 (View.ld x0 r1_q) (View.ld x1 r1_k) (View.ld x2 r1_k)) (k1_pay6 (View.ld x2 r1_k))
    (k1_pay7 (View.ld x0 r1_q) (View.ld x1 r1_k)) (k1_pay8 (View.ld x0 r1_q) (View.ld x1 r1_k))⟩]

/-- The parts of the full share the three readers of the projected rows hold; the output's array is held whole. -/
def q1 : Fin cfg1.W → PosShare TreeShare
  | ⟨0, _⟩ => fullShare.left
  | ⟨1, _⟩ => fullShare.right.left
  | ⟨2, _⟩ => fullShare.right.right
  | ⟨3, _⟩ => fullShare

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.Body1.lean ====
/-
  Region 1's body at a grid point: from staging buffers holding the point's blocks it runs to the end without a fault,
  leaves the input buffers as they were and the output buffer at the stored payload; hence the pipeline's body obligation.
-/
import proofs.«140616_j7722351198230_2_alg».proof.Proof.K.Data1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output's one store covers its buffer. -/
theorem cover1_3 (p0 : Vec F S1x512x128 .bf16) (y : S1x512x128.Idx) :
    ∃ pc ∈ ([⟨r1_q, p0⟩] : List (View.Piece (Elt F) S1x512x128 .bf16)), y ∈ pc.1.set :=
  View.cover_of_tiled [⟨r1_q, p0⟩] S1x512x128.size (by rfl) y

set_option maxHeartbeats 4000000 in
/-- The kernel body on whole staging memrefs, the inputs' at contents `x` and the output's at anything, runs to the
    continuation holding the inputs' as they were and the output's at `out1_3` of the inputs'. -/
theorem sound_kernel1 (c : Dev nD) (E : Set ℕ) (i : grid1.Coords) (a0 : Memref sig .tc .vmem S1x512x128 .bf16) (ha0 : a0.IsWhole) (a1 : Memref sig .tc .vmem S1x2048x128 .bf16) (ha1 : a1.IsWhole) (a2 : Memref sig .tc .vmem S1x2048x128 .bf16) (ha2 : a2.IsWhole) (a3 : Memref sig .tc .vmem S1x512x128 .bf16) (ha3 : a3.IsWhole)
    (x0 : Vec F S1x512x128 .bf16) (x1 : Vec F S1x2048x128 .bf16) (x2 : Vec F S1x2048x128 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Data2.lean ====
/-
  Region 2 (output projection, residual and row normalisation, eight row blocks of 1024 rows): what each window's
  staging buffer holds after the body at a grid point, as a function of the blocks the point reads, and the pipeline's
  proof data built from it. `V` is what the core's buffers hold when the region is entered.
-/
import proofs.«140616_j7722351198230_2_alg».proof.Proof.Gen.Kernel.Launch
import proofs.«140616_j7722351198230_2_alg».proof.Proof.Gen.Kernel.Skeleton
import proofs.«140616_j7722351198230_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_x : Rect S1024x512 := Rect.unit (s := S1024x512) ![0, 0] S1024x512.size inb_S1024x512_S1024x512_0_0
abbrev r2_w : Rect S512x512 := Rect.unit (s := S512x512) ![0, 0] S512x512.size inb_S512x512_S512x512_0_0
abbrev r2_b : Rect S1x512 := Rect.unit (s := S1x512) ![0, 0] S1x512.size inb_S1x512_S1x512_0_0

/-- The output block after the body: its one store, of the payload of the six loaded blocks (context rows, output
    weights, output bias, token rows, scale, shift). -/
def out2_6 (x0 : Vec F S1024x512 .bf16) (x1 : Vec F S512x512 .bf16) (x2 : Vec F S1x512 .f32) (x3 : Vec F S1024x512 .f32)
    (x4 : Vec F S1x512 .f32) (x5 : Vec F S1x512 .f32) : Vec F S1024x512 .f32 :=
  View.canon [⟨r2_x, k2_pay1 (View.ld x0 r2_x) (View.ld x1 r2_w) (View.ld x2 r2_b) (View.ld x3 r2_x) (View.ld x4 r2_b) (View.ld x5 r2_b)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

end Cert.Kernel.Hand

end
-- ==== Proof.K.Body2.lean ====
/-
  Region 2's body at a grid point: from staging buffers holding the point's blocks it runs to the end without a fault,
  leaves the input buffers as they were and the output buffer at the stored payload; hence the pipeline's body obligation.
-/
import proofs.«140616_j7722351198230_2_alg».proof.Proof.K.Data2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output's one store covers its buffer. -/
theorem cover2_6 (p0 : Vec F S1024x512 .f32) (y : S1024x512.Idx) :
    ∃ pc ∈ ([⟨r2_x, p0⟩] : List (View.Piece (Elt F) S1024x512 .f32)), y ∈ pc.1.set :=
  View.cover_of_tiled [⟨r2_x, p0⟩] S1024x512.size (by rfl) y

set_option maxHeartbeats 4000000 in
/-- The kernel body on whole staging memrefs, the inputs' at contents `x` and the output's at anything, runs to the
    continuation holding the inputs' as they were and the output's at `out2_6` of the inputs'. -/
theorem sound_kernel2 (c : Dev nD) (E : Set ℕ) (i : grid2.Coords) (a0 : Memref sig .tc .vmem S1024x512 .bf16) (ha0 : a0.IsWhole) (a1 : Memref sig .tc .vmem S512x512 .bf16) (ha1 : a1.IsWhole) (a2 : Memref sig .tc .vmem S1x512 .f32) (ha2 : a2.IsWhole) (a3 : Memref sig .tc .vmem S1024x512 .f32) (ha3 : a3.IsWhole) (a4 : Memref sig .tc .vmem S1x512 .f32) (ha4 : a4.IsWhole) (a5 : Memref sig .tc .vmem S1x512 .f32) (ha5 : a5.IsWhole) (a6 : Memref sig .tc .vmem S1024x512 .f32) (ha6 : a6.IsWhole)
    (x0 : Vec F S1024x512 .bf16) (x1 : Vec F S512x512 .bf16) (x2 : Vec F S1x512 .f32) (x3 : Vec F S1024x512 .f32) (x4 : Vec F S1x512 .f32) (x5 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out2_6 x0 x1 x2 x3 x4 x5)) -∗ K ⟨⟩))
      ⊢ wp frame (wpE (defs₀ (F := F)) Variants.none c none) E (cc2__out_kernel i a0 ha0 a1 ha1 a2 ha2 a3 ha3 a4 ha4 a5 ha5 a6 ha6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
/-- Input window 4's current staging buffer holds its block at every point, fetched there or not. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
/-- Input window 5's current staging buffer holds its block at every point, fetched there or not. -/
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Shares1.lean ====
/-
  Region 1's three input windows read one array, the projected rows. At the region's entry the core's unscoped
  buffers hold that array whole; it is divided among the three readers along the share (left half; left and right
  halves of the right half), and the output's array is handed over whole. At the exit the three parts are put back
  together and the output's array returns at its final contents.
-/
import proofs.«140616_j7722351198230_2_alg».proof.Proof.K.Data1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind pipeline 1's arrays: the projected rows and the attention output. -/
theorem image_arrRef1 : Finset.univ.image (Pipeline.arrRef spec1) = {main_v5, main_v6} := by decide

/-- A buffer held whole is three readers' parts of it: the left half, and the two halves of the right half. -/
theorem pointsTo_three {ℓ : Loc nD τ sig} (f : Buf (Elt F) ℓ) :
    (ℓ ↦{fullShare} f : sProp 𝕄)
      ⊣⊢ iprop((ℓ ↦{fullShare.left} f) ∗ (ℓ ↦{fullShare.right.left} f) ∗ (ℓ ↦{fullShare.right.right} f)) := by
  have h1 : (ℓ ↦{fullShare} f : sProp 𝕄) ⊣⊢ iprop((ℓ ↦{fullShare.left} f) ∗ ℓ ↦{fullShare.right} f) :=
    pointsTo_share (PosShare.mem_left_op_right fullShare)
  have h2 : (ℓ ↦{fullShare.right} f : sProp 𝕄) ⊣⊢ iprop((ℓ ↦{fullShare.right.left} f) ∗ ℓ ↦{fullShare.right.right} f) :=
    pointsTo_share (PosShare.mem_left_op_right fullShare.right)
  exact ⟨h1.1.trans (sep_mono .rfl h2.1), (sep_mono .rfl h2.2).trans h1.2⟩

/-- Window w's array in the pipeline's form is the whole buffer behind it. -/
theorem arr_eq1 (c : Dev nD) (w : Fin 4) (G : Buf (Elt F) ((cfg1.win w).arr.view.loc (c : Thread nD τ))) :
    ((cfg1.win w).arr.view.loc (c : Thread nD τ) ↦[(cfg1.win w).arr.view.set]{(dat1 V c).share w} G : sProp 𝕄)
      = ((c : Thread nD τ).loc (Pipeline.arrRef spec1 w) ↦{(dat1 V c).share w} G) := by
  rw [(arr_whole1 w).set_eq_univ]

/-- The shares the four windows hold their arrays at. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- ENTRY: the core's unscoped buffers at contents `V c` are pipeline 1's arrays at the entry contents — the
    projected rows divided into the three readers' parts, the attention output whole — beside the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  unfold Pipeline.arrBufs Dat.arrays
  rw [bigSep_W1, show Finset.image (Pipeline.arrRef (cfgs 1).spec) Finset.univ = {main_v5, main_v6} from image_arrRef1,
    bigSep_insert (by decide), bigSep_singleton, arr_eq1, arr_eq1, arr_eq1, arr_eq1, share1_0, share1_1, share1_2, share1_3]
  refine (sep_mono (pointsTo_three _).1 .rfl).trans ?_
  iintro ⟨⟨H0, H1, H2⟩, H3⟩
  isplitl [H0]; · iexact H0
  isplitl [H1]; · iexact H1
  isplitl [H2]; · iexact H2
  iexact H3

/-- EXIT: the arrays at what the pipeline leaves — the three readers' parts of the projected rows, unchanged, and
    the attention output at its final contents — and the unscoped rest are the core's unscoped buffers at any
    valuation `V'` that has the attention output at those final contents and agrees with `V c` elsewhere. -/
theorem exit1 (c : Dev nD) (V' : (b : Ref sig .tc) → Buf (Elt F) ((c : Thread nD τ).loc b))
    (h6 : V' main_v6 = (dat1 V c).arrAt 3 cfg1.N) (hrest : ∀ b, b ≠ main_v6 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine sep_mono ?_ (Entails.of_eq ?_)
  · unfold Pipeline.arrBufs Dat.arrays
    rw [bigSep_W1, show Finset.image (Pipeline.arrRef (cfgs 1).spec) Finset.univ = {main_v5, main_v6} from image_arrRef1,
      bigSep_insert (by decide), bigSep_singleton, arr_eq1, arr_eq1, arr_eq1, arr_eq1, share1_0, share1_1, share1_2, share1_3]
    beta_reduce
    rw [(dat1 V c).arrAt_in 0 rfl, (dat1 V c).arrAt_in 1 rfl, (dat1 V c).arrAt_in 2 rfl, h6, hrest main_v5 (by decide)]
    refine BIBase.Entails.trans ?_ (sep_mono (pointsTo_three _).2 .rfl)
    iintro ⟨H0, H1, H2, H3⟩
    isplitl [H0 H1 H2]
    · isplitl [H0]; · iexact H0
      isplitl [H1]; · iexact H1
      iexact H2
    iexact H3
  · unfold Pipeline.unscopedRest
    refine bigSep_congr fun b hb => ?_
    have hmem : main_v6 ∈ Finset.univ.image (Pipeline.arrRef spec1) := by rw [image_arrRef1]; decide
    have hne : b ≠ main_v6 := fun e => (Finset.mem_sdiff.mp hb).2 (by rw [e]; exact hmem)
    rw [hrest b hne]

end Cert.Kernel.Hand

end
-- ==== Proof.K.Run.lean ====
/-
  The whole program's run: its seven items — four stretches of host operations and the three kernel regions between
  them — are chained over one thread state per core, "every unscoped buffer holds the contents `W j`", where `W j` is
  computed from the launch memory: a host stretch applies its operations, a region replaces its output array by what
  its grid points wrote. Every weakly fair execution terminates without a fault, and at the end every unscoped buffer
  holds the last contents `W7`.
-/
import proofs.«140616_j7722351198230_2_alg».proof.Proof.K.Body0
import proofs.«140616_j7722351198230_2_alg».proof.Proof.K.Body1
import proofs.«140616_j7722351198230_2_alg».proof.Proof.K.Body2
import proofs.«140616_j7722351198230_2_alg».proof.Proof.K.Shares1
import proofs.«140616_j7722351198230_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev T1 : (c : Dev nD) → (b : Ref sig .tc) → Buf (Elt F) ((c : Thread nD τ).loc b) := fun c b => W1 m c b
/-- What region 0's grid points leave in its output array. -/
def X0 (c : Dev nD) : Buf (Elt F) ((c : Thread nD τ).loc main_v4) := (dat0 (T1 m) c).arrAt 3 cfg0.N
/-- After region 0. -/
def W2 (c : Dev nD) : Valuation τ sig (Elt F) := Function.update (W1 m c) main_v4 (X0 m c)
abbrev T2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev T3 : (c : Dev nD) → (b : Ref sig .tc) → Buf (Elt F) ((c : Thread nD τ).loc b) := fun c b => W3 m c b
/-- What region 1's grid points leave in its output array. -/
def X1 (c : Dev nD) : Buf (Elt F) ((c : Thread nD τ).loc main_v6) := (dat1 (T3 m) c).arrAt 3 cfg1.N
/-- After region 1. -/
def W4 (c : Dev nD) : Valuation τ sig (Elt F) := Function.update (W3 m c) main_v6 (X1 m c)
abbrev T4 : (c : Dev nD) → (b : Ref sig .tc) → Buf (Elt F) ((c : Thread nD τ).loc b) := fun c b => W4 m c b
/-- After the third host stretch (region 2's entry). -/
abbrev W5 : Dev nD → Valuation τ sig (Elt F) := fun c => StableHlo.after hostOps2 (W4 m c)
abbrev T5 : (c : Dev nD) → (b : Ref sig .tc) → Buf (Elt F) ((c : Thread nD τ).loc b) := fun c b => W5 m c b
/-- What region 2's grid points leave in its output array. -/
def X2 (c : Dev nD) : Buf (Elt F) ((c : Thread nD τ).loc main_v13) := (dat2 (T5 m) c).arrAt 6 cfg2.N
/-- After region 2. -/
def W6 (c : Dev nD) : Valuation τ sig (Elt F) := Function.update (W5 m c) main_v13 (X2 m c)
abbrev T6 : (c : Dev nD) → (b : Ref sig .tc) → Buf (Elt F) ((c : Thread nD τ).loc b) := fun c b => W6 m c b
/-- After the last host stretch: the final contents. -/
abbrev W7 : Dev nD → Valuation τ sig (Elt F) := fun c => StableHlo.after hostOps3 (W6 m c)

theorem W2_v4 (c : Dev nD) : W2 m c main_v4 = X0 m c := by unfold W2; exact Function.update_self ..
theorem W2_of_ne (c : Dev nD) (b : Ref sig .tc) (hb : b ≠ main_v4) : W2 m c b = W1 m c b := by
  unfold W2; exact Function.update_of_ne (StableHlo.devRef_ne_of_ne hb) ..
theorem W4_v6 (c : Dev nD) : T4 m c main_v6 = (dat1 (T3 m) c).arrAt 3 cfg1.N := by
  show W4 m c main_v6 = _; unfold W4; exact Function.update_self ..
theorem W4_of_ne (c : Dev nD) (b : Ref sig .tc) (hb : b ≠ main_v6) : T4 m c b = T3 m c b := by
  show W4 m c b = W3 m c b; unfold W4; exact Function.update_of_ne (StableHlo.devRef_ne_of_ne hb) ..
theorem W6_v13 (c : Dev nD) : W6 m c main_v13 = X2 m c := by unfold W6; exact Function.update_self ..
theorem W6_of_ne (c : Dev nD) (b : Ref sig .tc) (hb : b ≠ main_v13) : W6 m c b = W5 m c b := by
  unfold W6; exact Function.update_of_ne (StableHlo.devRef_ne_of_ne hb) ..

/-- At region 0's exit each of its arrays holds what the pipeline leaves — an input as entered, the output its
    write-backs — and every other buffer what it held at entry. -/
theorem hF0 (c : Dev nD) (w : Fin cfg0.W) : (dat0 (T1 m) c).arrAt w cfg0.N = T2 m c (Pipeline.arrRef spec0 w) := by
  match w with
  | ⟨0, _⟩ => exact (((dat0 (T1 m) c).arrAt_in 0 rfl _).trans (A_eq0 (T1 m) c 0)).trans (W2_of_ne m c main_v0 (by decide)).symm
  | ⟨1, _⟩ => exact (((dat0 (T1 m) c).arrAt_in 1 rfl _).trans (A_eq0 (T1 m) c 1)).trans (W2_of_ne m c main_v2 (by decide)).symm
  | ⟨2, _⟩ => exact (((dat0 (T1 m) c).arrAt_in 2 rfl _).trans (A_eq0 (T1 m) c 2)).trans (W2_of_ne m c main_v3 (by decide)).symm
  | ⟨3, _⟩ => exact (W2_v4 m c).symm
theorem hrest0 (c : Dev nD) : ∀ b, b ∉ Finset.univ.image (Pipeline.arrRef spec0) → T2 m c b = T1 m c b :=
  fun b hb => W2_of_ne m c b fun e => hb (Finset.mem_image.mpr ⟨3, Finset.mem_univ _, e.symm⟩)

theorem hF2 (c : Dev nD) (w : Fin cfg2.W) : (dat2 (T5 m) c).arrAt w cfg2.N = T6 m c (Pipeline.arrRef spec2 w) := by
  match w with
  | ⟨0, _⟩ => exact (((dat2 (T5 m) c).arrAt_in 0 rfl _).trans (A_eq2 (T5 m) c 0)).trans (W6_of_ne m c main_v7 (by decide)).symm
  | ⟨1, _⟩ => exact (((dat2 (T5 m) c).arrAt_in 1 rfl _).trans (A_eq2 (T5 m) c 1)).trans (W6_of_ne m c main_v9 (by decide)).symm
  | ⟨2, _⟩ => exact (((dat2 (T5 m) c).arrAt_in 2 rfl _).trans (A_eq2 (T5 m) c 2)).trans (W6_of_ne m c main_v10 (by decide)).symm
  | ⟨3, _⟩ => exact (((dat2 (T5 m) c).arrAt_in 3 rfl _).trans (A_eq2 (T5 m) c 3)).trans (W6_of_ne m c main_v0 (by decide)).symm
  | ⟨4, _⟩ => exact (((dat2 (T5 m) c).arrAt_in 4 rfl _).trans (A_eq2 (T5 m) c 4)).trans (W6_of_ne m c main_v11 (by decide)).symm
  | ⟨5, _⟩ => exact (((dat2 (T5 m) c).arrAt_in 5 rfl _).trans (A_eq2 (T5 m) c 5)).trans (W6_of_ne m c main_v12 (by decide)).symm
  | ⟨6, _⟩ => exact (W6_v13 m c).symm
theorem hrest2 (c : Dev nD) : ∀ b, b ∉ Finset.univ.image (Pipeline.arrRef spec2) → T6 m c b = T5 m c b :=
  fun b hb => W6_of_ne m c b fun e => hb (Finset.mem_image.mpr ⟨6, Finset.mem_univ _, e.symm⟩)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m c) ∗ ∃ r, prngReg c r)

/-! ## The regions as segments -/

-- the library's lemmas are stated over the pinned configuration, which unifies with the printed one only when unification may
-- unfold plain definitions in a metavariable's type
set_option backward.isDefEq.respectTransparency.types false in
/-- Region 0 over the thread state: entered from every unscoped buffer at `W1`, left at `W2`. Its arrays are split out
    of the unscoped buffers and put back at the exit contents; the generator register goes into the kernel's invariant
    and comes out; nothing is owed; the kernel has no semaphore of its own. -/
def reg0 : Pipeline.RegionSeg (pcfgs (F := F)) adm (pdats m) () defs₀ 𝒱₀ L lv 0 where
  win := winFacts0.to₀
  block_pos := block_pos0
  stage_whole := stage_whole0
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) winFacts0 arr_whole0 c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      winFacts0 arr_whole0 c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 1 over the thread state: entered from every unscoped buffer at `W3`, left at `W4`. Its arrays are split out
    of the unscoped buffers and put back at the exit contents; the generator register goes into the kernel's invariant
    and comes out; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := entry1 (T3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (T3 m c))
        ⊢ (unscopedBufs (Ix := Unit) (Name := ℕ) (U := UR sig nD τ) (Lvl := ℕ) c (T4 m c) : sProp 𝕄) :=
      exit1 (T3 m) c (T4 m c) (W4_v6 m c) (fun b hb => W4_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 2 over the thread state: entered from every unscoped buffer at `W5`, left at `W6`. Its arrays are split out
    of the unscoped buffers and put back at the exit contents; the generator register goes into the kernel's invariant
    and comes out; nothing is owed; the kernel has no semaphore of its own. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) winFacts2 arr_whole2 c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      winFacts2 arr_whole2 c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program IS the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores terminates,
    nothing faulting, and every final state has every unscoped buffer at the last contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.K.Frame.lean ====
/-
  The frame: no item of the program writes an argument array, so each argument's buffer holds its launch contents
  at the end of the run.
-/
import proofs.«140616_j7722351198230_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no region's output holds its launch contents at the end. -/
theorem W7_arg (c : Dev nD) (r : Ref sig .tc) (h0 : r ∉ hostOps0_W) (h1 : r ≠ main_v4) (h2 : r ∉ hostOps1_W) (h3 : r ≠ main_v6)
    (h4 : r ∉ hostOps2_W) (h5 : r ≠ main_v13) (h6 : r ∉ hostOps3_W) : W7 m c r = m ((c : Thread nD τ).loc r) :=
  (StableHlo.after_of_writes_sub hostOps3 _ hostOps3_writes h6).trans <| (W6_of_ne m c r h5).trans <|
    (StableHlo.after_of_writes_sub hostOps2 _ hostOps2_writes h4).trans <| (W4_of_ne m c r h3).trans <|
    (StableHlo.after_of_writes_sub hostOps1 _ hostOps1_writes h2).trans <| (W2_of_ne m c r h1).trans <|
    StableHlo.after_of_writes_sub hostOps0 _ hostOps0_writes h0

theorem W7_main_arg (c : Dev nD) (r : Ref sig .tc)
    (hr : r = main_arg0 ∨ r = main_arg1 ∨ r = main_arg2 ∨ r = main_arg3 ∨ r = main_arg4 ∨ r = main_arg5 ∨ r = main_arg6) :
    W7 m c r = m ((c : Thread nD τ).loc r) := by
  rcases hr with rfl | rfl | rfl | rfl | rfl | rfl | rfl <;>
    exact W7_arg m c _ (by decide) (by decide) (by decide) (by decide) (by decide) (by decide) (by decide)

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg m c main_arg0 (by simp)),
     (h c _ (mem_uc main_arg1 (by decide))).trans (W7_main_arg m c main_arg1 (by simp)),
     (h c _ (mem_uc main_arg2 (by decide))).trans (W7_main_arg m c main_arg2 (by simp)),
     (h c _ (mem_uc main_arg3 (by decide))).trans (W7_main_arg m c main_arg3 (by simp)),
     (h c _ (mem_uc main_arg4 (by decide))).trans (W7_main_arg m c main_arg4 (by simp)),
     (h c _ (mem_uc main_arg5 (by decide))).trans (W7_main_arg m c main_arg5 (by simp)),
     (h c _ (mem_uc main_arg6 (by decide))).trans (W7_main_arg m c main_arg6 (by simp))⟩) (run m ρ)

end Cert.Kernel.Hand

end
-- ==== Proof.KI.Data0.lean ====
/-
  Region 0 (the projection x2 · wct + bc2, eight row blocks of 1024 rows): what each window's staging buffer holds
  after the body at a grid point, as a function of the blocks the point reads, and the pipeline's proof data built
  from it. `V` is what the core's buffers hold when the region is entered.
-/
import proofs.«140616_j7722351198230_2_alg».proof.Proof.Gen.KernelIdeal.Launch
import proofs.«140616_j7722351198230_2_alg».proof.Proof.Gen.KernelIdeal.Skeleton
import proofs.«140616_j7722351198230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_x : Rect S1024x512 := Rect.unit (s := S1024x512) ![0, 0] S1024x512.size inb_S1024x512_S1024x512_0_0
abbrev r0_w : Rect S512x1536 := Rect.unit (s := S512x1536) ![0, 0] S512x1536.size inb_S512x1536_S512x1536_0_0
abbrev r0_b : Rect S1x1536 := Rect.unit (s := S1x1536) ![0, 0] S1x1536.size inb_S1x1536_S1x1536_0_0
abbrev r0_o : Rect S1024x1536 := Rect.unit (s := S1024x1536) ![0, 0] S1024x1536.size inb_S1024x1536_S1024x1536_0_0

/-- The output block after the body: its one store, of the payload of the three loaded blocks. -/
def out0_3 (x0 : Vec F S1024x512 .f32) (x1 : Vec F S512x1536 .bf16) (x2 : Vec F S1x1536 .f32) : Vec F S1024x1536 .bf16 :=
  View.canon [⟨r0_o, k0_pay1 (View.ld x0 r0_x) (View.ld x1 r0_w) (View.ld x2 r0_b)⟩]

/-- The proof data of pipeline 0 on core `c`: the arrays as the region finds them; after the body each input's buffer
    at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.Body0.lean ====
/-
  Region 0's body at a grid point: from staging buffers holding the point's blocks it runs to the end without a fault,
  leaves the input buffers as they were and the output buffer at the stored payload; hence the pipeline's body obligation.
-/
import proofs.«140616_j7722351198230_2_alg».proof.Proof.KI.Data0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output's one store covers its buffer. -/
theorem cover0_3 (p0 : Vec F S1024x1536 .bf16) (y : S1024x1536.Idx) :
    ∃ pc ∈ ([⟨r0_o, p0⟩] : List (View.Piece (Elt F) S1024x1536 .bf16)), y ∈ pc.1.set :=
  View.cover_of_tiled [⟨r0_o, p0⟩] S1024x1536.size (by rfl) y

set_option maxHeartbeats 4000000 in
/-- The kernel body on whole staging memrefs, the inputs' at contents `x` and the output's at anything, runs to the
    continuation holding the inputs' as they were and the output's at `out0_3` of the inputs'. -/
theorem sound_kernel0 (c : Dev nD) (E : Set ℕ) (i : grid0.Coords) (a0 : Memref sig .tc .vmem S1024x512 .f32) (ha0 : a0.IsWhole) (a1 : Memref sig .tc .vmem S512x1536 .bf16) (ha1 : a1.IsWhole) (a2 : Memref sig .tc .vmem S1x1536 .f32) (ha2 : a2.IsWhole) (a3 : Memref sig .tc .vmem S1024x1536 .bf16) (ha3 : a3.IsWhole)
    (x0 : Vec F S1024x512 .f32) (x1 : Vec F S512x1536 .bf16) (x2 : Vec F S1x1536 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2)) -∗ K ⟨⟩))
      ⊢ wp frame (wpE (defs₀ (F := F)) Variants.none c none) E (cc0__proj_kernel i a0 ha0 a1 ha1 a2 ha2 a3 ha3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Data1.lean ====
/-
  Region 1 (attention, one grid point per batch, head pair and query tile): what each window's staging buffer holds
  after the body at a grid point, as a function of the blocks the point reads, and the pipeline's proof data built
  from it. The three input windows read one array (the projected rows), so each holds it at a part of the full share.
  `V` is what the core's buffers hold when the region is entered.
-/
import proofs.«140616_j7722351198230_2_alg».proof.Proof.Gen.KernelIdeal.Launch
import proofs.«140616_j7722351198230_2_alg».proof.Proof.Gen.KernelIdeal.Skeleton
import proofs.«140616_j7722351198230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0

/-- The output block after the body: its one store, of the payload of the three loaded blocks (queries, keys, values). -/
def out1_3 (x0 : Vec F S1x512x128 .bf16) (x1 : Vec F S1x2048x128 .bf16) (x2 : Vec F S1x2048x128 .bf16) : Vec F S1x512x128 .bf16 :=
  View.canon [⟨r1_q, k1_pay1 (k1_pay5 (View.ld x0 r1_q) (View.ld x1 r1_k) (View.ld x2 r1_k)) (k1_pay6 (View.ld x2 r1_k))
    (k1_pay7 (View.ld x0 r1_q) (View.ld x1 r1_k)) (k1_pay8 (View.ld x0 r1_q) (View.ld x1 r1_k))⟩]

/-- The parts of the full share the three readers of the projected rows hold; the output's array is held whole. -/
def q1 : Fin cfg1.W → PosShare TreeShare
  | ⟨0, _⟩ => fullShare.left
  | ⟨1, _⟩ => fullShare.right.left
  | ⟨2, _⟩ => fullShare.right.right
  | ⟨3, _⟩ => fullShare

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.Body1.lean ====
/-
  Region 1's body at a grid point: from staging buffers holding the point's blocks it runs to the end without a fault,
  leaves the input buffers as they were and the output buffer at the stored payload; hence the pipeline's body obligation.
-/
import proofs.«140616_j7722351198230_2_alg».proof.Proof.KI.Data1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output's one store covers its buffer. -/
theorem cover1_3 (p0 : Vec F S1x512x128 .bf16) (y : S1x512x128.Idx) :
    ∃ pc ∈ ([⟨r1_q, p0⟩] : List (View.Piece (Elt F) S1x512x128 .bf16)), y ∈ pc.1.set :=
  View.cover_of_tiled [⟨r1_q, p0⟩] S1x512x128.size (by rfl) y

set_option maxHeartbeats 4000000 in
/-- The kernel body on whole staging memrefs, the inputs' at contents `x` and the output's at anything, runs to the
    continuation holding the inputs' as they were and the output's at `out1_3` of the inputs'. -/
theorem sound_kernel1 (c : Dev nD) (E : Set ℕ) (i : grid1.Coords) (a0 : Memref sig .tc .vmem S1x512x128 .bf16) (ha0 : a0.IsWhole) (a1 : Memref sig .tc .vmem S1x2048x128 .bf16) (ha1 : a1.IsWhole) (a2 : Memref sig .tc .vmem S1x2048x128 .bf16) (ha2 : a2.IsWhole) (a3 : Memref sig .tc .vmem S1x512x128 .bf16) (ha3 : a3.IsWhole)
    (x0 : Vec F S1x512x128 .bf16) (x1 : Vec F S1x2048x128 .bf16) (x2 : Vec F S1x2048x128 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Data2.lean ====
/-
  Region 2 (output projection, residual and row normalisation, eight row blocks of 1024 rows): what each window's
  staging buffer holds after the body at a grid point, as a function of the blocks the point reads, and the pipeline's
  proof data built from it. `V` is what the core's buffers hold when the region is entered.
-/
import proofs.«140616_j7722351198230_2_alg».proof.Proof.Gen.KernelIdeal.Launch
import proofs.«140616_j7722351198230_2_alg».proof.Proof.Gen.KernelIdeal.Skeleton
import proofs.«140616_j7722351198230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_x : Rect S1024x512 := Rect.unit (s := S1024x512) ![0, 0] S1024x512.size inb_S1024x512_S1024x512_0_0
abbrev r2_w : Rect S512x512 := Rect.unit (s := S512x512) ![0, 0] S512x512.size inb_S512x512_S512x512_0_0
abbrev r2_b : Rect S1x512 := Rect.unit (s := S1x512) ![0, 0] S1x512.size inb_S1x512_S1x512_0_0

/-- The output block after the body: its one store, of the payload of the six loaded blocks (context rows, output
    weights, output bias, token rows, scale, shift). -/
def out2_6 (x0 : Vec F S1024x512 .bf16) (x1 : Vec F S512x512 .bf16) (x2 : Vec F S1x512 .f32) (x3 : Vec F S1024x512 .f32)
    (x4 : Vec F S1x512 .f32) (x5 : Vec F S1x512 .f32) : Vec F S1024x512 .f32 :=
  View.canon [⟨r2_x, k2_pay1 (View.ld x0 r2_x) (View.ld x1 r2_w) (View.ld x2 r2_b) (View.ld x3 r2_x) (View.ld x4 r2_b) (View.ld x5 r2_b)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

end Cert.KernelIdeal.Hand

end
-- ==== Proof.KI.Body2.lean ====
/-
  Region 2's body at a grid point: from staging buffers holding the point's blocks it runs to the end without a fault,
  leaves the input buffers as they were and the output buffer at the stored payload; hence the pipeline's body obligation.
-/
import proofs.«140616_j7722351198230_2_alg».proof.Proof.KI.Data2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output's one store covers its buffer. -/
theorem cover2_6 (p0 : Vec F S1024x512 .f32) (y : S1024x512.Idx) :
    ∃ pc ∈ ([⟨r2_x, p0⟩] : List (View.Piece (Elt F) S1024x512 .f32)), y ∈ pc.1.set :=
  View.cover_of_tiled [⟨r2_x, p0⟩] S1024x512.size (by rfl) y

set_option maxHeartbeats 4000000 in
/-- The kernel body on whole staging memrefs, the inputs' at contents `x` and the output's at anything, runs to the
    continuation holding the inputs' as they were and the output's at `out2_6` of the inputs'. -/
theorem sound_kernel2 (c : Dev nD) (E : Set ℕ) (i : grid2.Coords) (a0 : Memref sig .tc .vmem S1024x512 .bf16) (ha0 : a0.IsWhole) (a1 : Memref sig .tc .vmem S512x512 .bf16) (ha1 : a1.IsWhole) (a2 : Memref sig .tc .vmem S1x512 .f32) (ha2 : a2.IsWhole) (a3 : Memref sig .tc .vmem S1024x512 .f32) (ha3 : a3.IsWhole) (a4 : Memref sig .tc .vmem S1x512 .f32) (ha4 : a4.IsWhole) (a5 : Memref sig .tc .vmem S1x512 .f32) (ha5 : a5.IsWhole) (a6 : Memref sig .tc .vmem S1024x512 .f32) (ha6 : a6.IsWhole)
    (x0 : Vec F S1024x512 .bf16) (x1 : Vec F S512x512 .bf16) (x2 : Vec F S1x512 .f32) (x3 : Vec F S1024x512 .f32) (x4 : Vec F S1x512 .f32) (x5 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out2_6 x0 x1 x2 x3 x4 x5)) -∗ K ⟨⟩))
      ⊢ wp frame (wpE (defs₀ (F := F)) Variants.none c none) E (cc2__out_kernel i a0 ha0 a1 ha1 a2 ha2 a3 ha3 a4 ha4 a5 ha5 a6 ha6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
/-- Input window 4's current staging buffer holds its block at every point, fetched there or not. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
/-- Input window 5's current staging buffer holds its block at every point, fetched there or not. -/
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Shares1.lean ====
/-
  Region 1's three input windows read one array, the projected rows. At the region's entry the core's unscoped
  buffers hold that array whole; it is divided among the three readers along the share (left half; left and right
  halves of the right half), and the output's array is handed over whole. At the exit the three parts are put back
  together and the output's array returns at its final contents.
-/
import proofs.«140616_j7722351198230_2_alg».proof.Proof.KI.Data1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind pipeline 1's arrays: the projected rows and the attention output. -/
theorem image_arrRef1 : Finset.univ.image (Pipeline.arrRef spec1) = {main_v5, main_v6} := by decide

/-- A buffer held whole is three readers' parts of it: the left half, and the two halves of the right half. -/
theorem pointsTo_three {ℓ : Loc nD τ sig} (f : Buf (Elt F) ℓ) :
    (ℓ ↦{fullShare} f : sProp 𝕄)
      ⊣⊢ iprop((ℓ ↦{fullShare.left} f) ∗ (ℓ ↦{fullShare.right.left} f) ∗ (ℓ ↦{fullShare.right.right} f)) := by
  have h1 : (ℓ ↦{fullShare} f : sProp 𝕄) ⊣⊢ iprop((ℓ ↦{fullShare.left} f) ∗ ℓ ↦{fullShare.right} f) :=
    pointsTo_share (PosShare.mem_left_op_right fullShare)
  have h2 : (ℓ ↦{fullShare.right} f : sProp 𝕄) ⊣⊢ iprop((ℓ ↦{fullShare.right.left} f) ∗ ℓ ↦{fullShare.right.right} f) :=
    pointsTo_share (PosShare.mem_left_op_right fullShare.right)
  exact ⟨h1.1.trans (sep_mono .rfl h2.1), (sep_mono .rfl h2.2).trans h1.2⟩

/-- Window w's array in the pipeline's form is the whole buffer behind it. -/
theorem arr_eq1 (c : Dev nD) (w : Fin 4) (G : Buf (Elt F) ((cfg1.win w).arr.view.loc (c : Thread nD τ))) :
    ((cfg1.win w).arr.view.loc (c : Thread nD τ) ↦[(cfg1.win w).arr.view.set]{(dat1 V c).share w} G : sProp 𝕄)
      = ((c : Thread nD τ).loc (Pipeline.arrRef spec1 w) ↦{(dat1 V c).share w} G) := by
  rw [(arr_whole1 w).set_eq_univ]

/-- The shares the four windows hold their arrays at. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- ENTRY: the core's unscoped buffers at contents `V c` are pipeline 1's arrays at the entry contents — the
    projected rows divided into the three readers' parts, the attention output whole — beside the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  unfold Pipeline.arrBufs Dat.arrays
  rw [bigSep_W1, show Finset.image (Pipeline.arrRef (cfgs 1).spec) Finset.univ = {main_v5, main_v6} from image_arrRef1,
    bigSep_insert (by decide), bigSep_singleton, arr_eq1, arr_eq1, arr_eq1, arr_eq1, share1_0, share1_1, share1_2, share1_3]
  refine (sep_mono (pointsTo_three _).1 .rfl).trans ?_
  iintro ⟨⟨H0, H1, H2⟩, H3⟩
  isplitl [H0]; · iexact H0
  isplitl [H1]; · iexact H1
  isplitl [H2]; · iexact H2
  iexact H3

/-- EXIT: the arrays at what the pipeline leaves — the three readers' parts of the projected rows, unchanged, and
    the attention output at its final contents — and the unscoped rest are the core's unscoped buffers at any
    valuation `V'` that has the attention output at those final contents and agrees with `V c` elsewhere. -/
theorem exit1 (c : Dev nD) (V' : (b : Ref sig .tc) → Buf (Elt F) ((c : Thread nD τ).loc b))
    (h6 : V' main_v6 = (dat1 V c).arrAt 3 cfg1.N) (hrest : ∀ b, b ≠ main_v6 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine sep_mono ?_ (Entails.of_eq ?_)
  · unfold Pipeline.arrBufs Dat.arrays
    rw [bigSep_W1, show Finset.image (Pipeline.arrRef (cfgs 1).spec) Finset.univ = {main_v5, main_v6} from image_arrRef1,
      bigSep_insert (by decide), bigSep_singleton, arr_eq1, arr_eq1, arr_eq1, arr_eq1, share1_0, share1_1, share1_2, share1_3]
    beta_reduce
    rw [(dat1 V c).arrAt_in 0 rfl, (dat1 V c).arrAt_in 1 rfl, (dat1 V c).arrAt_in 2 rfl, h6, hrest main_v5 (by decide)]
    refine BIBase.Entails.trans ?_ (sep_mono (pointsTo_three _).2 .rfl)
    iintro ⟨H0, H1, H2, H3⟩
    isplitl [H0 H1 H2]
    · isplitl [H0]; · iexact H0
      isplitl [H1]; · iexact H1
      iexact H2
    iexact H3
  · unfold Pipeline.unscopedRest
    refine bigSep_congr fun b hb => ?_
    have hmem : main_v6 ∈ Finset.univ.image (Pipeline.arrRef spec1) := by rw [image_arrRef1]; decide
    have hne : b ≠ main_v6 := fun e => (Finset.mem_sdiff.mp hb).2 (by rw [e]; exact hmem)
    rw [hrest b hne]

end Cert.KernelIdeal.Hand

end
-- ==== Proof.KI.Run.lean ====
/-
  The whole program's run: its seven items — four stretches of host operations and the three kernel regions between
  them — are chained over one thread state per core, "every unscoped buffer holds the contents `W j`", where `W j` is
  computed from the launch memory: a host stretch applies its operations, a region replaces its output array by what
  its grid points wrote. Every weakly fair execution terminates without a fault, and at the end every unscoped buffer
  holds the last contents `W7`.
-/
import proofs.«140616_j7722351198230_2_alg».proof.Proof.KI.Body0
import proofs.«140616_j7722351198230_2_alg».proof.Proof.KI.Body1
import proofs.«140616_j7722351198230_2_alg».proof.Proof.KI.Body2
import proofs.«140616_j7722351198230_2_alg».proof.Proof.KI.Shares1
import proofs.«140616_j7722351198230_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev T1 : (c : Dev nD) → (b : Ref sig .tc) → Buf (Elt F) ((c : Thread nD τ).loc b) := fun c b => W1 m c b
/-- What region 0's grid points leave in its output array. -/
def X0 (c : Dev nD) : Buf (Elt F) ((c : Thread nD τ).loc main_v4) := (dat0 (T1 m) c).arrAt 3 cfg0.N
/-- After region 0. -/
def W2 (c : Dev nD) : Valuation τ sig (Elt F) := Function.update (W1 m c) main_v4 (X0 m c)
abbrev T2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev T3 : (c : Dev nD) → (b : Ref sig .tc) → Buf (Elt F) ((c : Thread nD τ).loc b) := fun c b => W3 m c b
/-- What region 1's grid points leave in its output array. -/
def X1 (c : Dev nD) : Buf (Elt F) ((c : Thread nD τ).loc main_v6) := (dat1 (T3 m) c).arrAt 3 cfg1.N
/-- After region 1. -/
def W4 (c : Dev nD) : Valuation τ sig (Elt F) := Function.update (W3 m c) main_v6 (X1 m c)
abbrev T4 : (c : Dev nD) → (b : Ref sig .tc) → Buf (Elt F) ((c : Thread nD τ).loc b) := fun c b => W4 m c b
/-- After the third host stretch (region 2's entry). -/
abbrev W5 : Dev nD → Valuation τ sig (Elt F) := fun c => StableHlo.after hostOps2 (W4 m c)
abbrev T5 : (c : Dev nD) → (b : Ref sig .tc) → Buf (Elt F) ((c : Thread nD τ).loc b) := fun c b => W5 m c b
/-- What region 2's grid points leave in its output array. -/
def X2 (c : Dev nD) : Buf (Elt F) ((c : Thread nD τ).loc main_v13) := (dat2 (T5 m) c).arrAt 6 cfg2.N
/-- After region 2. -/
def W6 (c : Dev nD) : Valuation τ sig (Elt F) := Function.update (W5 m c) main_v13 (X2 m c)
abbrev T6 : (c : Dev nD) → (b : Ref sig .tc) → Buf (Elt F) ((c : Thread nD τ).loc b) := fun c b => W6 m c b
/-- After the last host stretch: the final contents. -/
abbrev W7 : Dev nD → Valuation τ sig (Elt F) := fun c => StableHlo.after hostOps3 (W6 m c)

theorem W2_v4 (c : Dev nD) : W2 m c main_v4 = X0 m c := by unfold W2; exact Function.update_self ..
theorem W2_of_ne (c : Dev nD) (b : Ref sig .tc) (hb : b ≠ main_v4) : W2 m c b = W1 m c b := by
  unfold W2; exact Function.update_of_ne (StableHlo.devRef_ne_of_ne hb) ..
theorem W4_v6 (c : Dev nD) : T4 m c main_v6 = (dat1 (T3 m) c).arrAt 3 cfg1.N := by
  show W4 m c main_v6 = _; unfold W4; exact Function.update_self ..
theorem W4_of_ne (c : Dev nD) (b : Ref sig .tc) (hb : b ≠ main_v6) : T4 m c b = T3 m c b := by
  show W4 m c b = W3 m c b; unfold W4; exact Function.update_of_ne (StableHlo.devRef_ne_of_ne hb) ..
theorem W6_v13 (c : Dev nD) : W6 m c main_v13 = X2 m c := by unfold W6; exact Function.update_self ..
theorem W6_of_ne (c : Dev nD) (b : Ref sig .tc) (hb : b ≠ main_v13) : W6 m c b = W5 m c b := by
  unfold W6; exact Function.update_of_ne (StableHlo.devRef_ne_of_ne hb) ..

/-- At region 0's exit each of its arrays holds what the pipeline leaves — an input as entered, the output its
    write-backs — and every other buffer what it held at entry. -/
theorem hF0 (c : Dev nD) (w : Fin cfg0.W) : (dat0 (T1 m) c).arrAt w cfg0.N = T2 m c (Pipeline.arrRef spec0 w) := by
  match w with
  | ⟨0, _⟩ => exact (((dat0 (T1 m) c).arrAt_in 0 rfl _).trans (A_eq0 (T1 m) c 0)).trans (W2_of_ne m c main_v0 (by decide)).symm
  | ⟨1, _⟩ => exact (((dat0 (T1 m) c).arrAt_in 1 rfl _).trans (A_eq0 (T1 m) c 1)).trans (W2_of_ne m c main_v2 (by decide)).symm
  | ⟨2, _⟩ => exact (((dat0 (T1 m) c).arrAt_in 2 rfl _).trans (A_eq0 (T1 m) c 2)).trans (W2_of_ne m c main_v3 (by decide)).symm
  | ⟨3, _⟩ => exact (W2_v4 m c).symm
theorem hrest0 (c : Dev nD) : ∀ b, b ∉ Finset.univ.image (Pipeline.arrRef spec0) → T2 m c b = T1 m c b :=
  fun b hb => W2_of_ne m c b fun e => hb (Finset.mem_image.mpr ⟨3, Finset.mem_univ _, e.symm⟩)

theorem hF2 (c : Dev nD) (w : Fin cfg2.W) : (dat2 (T5 m) c).arrAt w cfg2.N = T6 m c (Pipeline.arrRef spec2 w) := by
  match w with
  | ⟨0, _⟩ => exact (((dat2 (T5 m) c).arrAt_in 0 rfl _).trans (A_eq2 (T5 m) c 0)).trans (W6_of_ne m c main_v7 (by decide)).symm
  | ⟨1, _⟩ => exact (((dat2 (T5 m) c).arrAt_in 1 rfl _).trans (A_eq2 (T5 m) c 1)).trans (W6_of_ne m c main_v9 (by decide)).symm
  | ⟨2, _⟩ => exact (((dat2 (T5 m) c).arrAt_in 2 rfl _).trans (A_eq2 (T5 m) c 2)).trans (W6_of_ne m c main_v10 (by decide)).symm
  | ⟨3, _⟩ => exact (((dat2 (T5 m) c).arrAt_in 3 rfl _).trans (A_eq2 (T5 m) c 3)).trans (W6_of_ne m c main_v0 (by decide)).symm
  | ⟨4, _⟩ => exact (((dat2 (T5 m) c).arrAt_in 4 rfl _).trans (A_eq2 (T5 m) c 4)).trans (W6_of_ne m c main_v11 (by decide)).symm
  | ⟨5, _⟩ => exact (((dat2 (T5 m) c).arrAt_in 5 rfl _).trans (A_eq2 (T5 m) c 5)).trans (W6_of_ne m c main_v12 (by decide)).symm
  | ⟨6, _⟩ => exact (W6_v13 m c).symm
theorem hrest2 (c : Dev nD) : ∀ b, b ∉ Finset.univ.image (Pipeline.arrRef spec2) → T6 m c b = T5 m c b :=
  fun b hb => W6_of_ne m c b fun e => hb (Finset.mem_image.mpr ⟨6, Finset.mem_univ _, e.symm⟩)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m c) ∗ ∃ r, prngReg c r)

/-! ## The regions as segments -/

-- the library's lemmas are stated over the pinned configuration, which unifies with the printed one only when unification may
-- unfold plain definitions in a metavariable's type
set_option backward.isDefEq.respectTransparency.types false in
/-- Region 0 over the thread state: entered from every unscoped buffer at `W1`, left at `W2`. Its arrays are split out
    of the unscoped buffers and put back at the exit contents; the generator register goes into the kernel's invariant
    and comes out; nothing is owed; the kernel has no semaphore of its own. -/
def reg0 : Pipeline.RegionSeg (pcfgs (F := F)) adm (pdats m) () defs₀ 𝒱₀ L lv 0 where
  win := winFacts0.to₀
  block_pos := block_pos0
  stage_whole := stage_whole0
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) winFacts0 arr_whole0 c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      winFacts0 arr_whole0 c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 1 over the thread state: entered from every unscoped buffer at `W3`, left at `W4`. Its arrays are split out
    of the unscoped buffers and put back at the exit contents; the generator register goes into the kernel's invariant
    and comes out; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := entry1 (T3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (T3 m c))
        ⊢ (unscopedBufs (Ix := Unit) (Name := ℕ) (U := UR sig nD τ) (Lvl := ℕ) c (T4 m c) : sProp 𝕄) :=
      exit1 (T3 m) c (T4 m c) (W4_v6 m c) (fun b hb => W4_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when unification may
-- unfold plain definitions in a metavariable's type
set_option backward.isDefEq.respectTransparency.types false in
/-- Region 2 over the thread state: entered from every unscoped buffer at `W5`, left at `W6`. Its arrays are split out
    of the unscoped buffers and put back at the exit contents; the generator register goes into the kernel's invariant
    and comes out; nothing is owed; the kernel has no semaphore of its own. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) winFacts2 arr_whole2 c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      winFacts2 arr_whole2 c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program IS the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores terminates,
    nothing faulting, and every final state has every unscoped buffer at the last contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.KI.Frame.lean ====
/-
  The frame: no item of the program writes an argument array, so each argument's buffer holds its launch contents
  at the end of the run.
-/
import proofs.«140616_j7722351198230_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no region's output holds its launch contents at the end. -/
theorem W7_arg (c : Dev nD) (r : Ref sig .tc) (h0 : r ∉ hostOps0_W) (h1 : r ≠ main_v4) (h2 : r ∉ hostOps1_W) (h3 : r ≠ main_v6)
    (h4 : r ∉ hostOps2_W) (h5 : r ≠ main_v13) (h6 : r ∉ hostOps3_W) : W7 m c r = m ((c : Thread nD τ).loc r) :=
  (StableHlo.after_of_writes_sub hostOps3 _ hostOps3_writes h6).trans <| (W6_of_ne m c r h5).trans <|
    (StableHlo.after_of_writes_sub hostOps2 _ hostOps2_writes h4).trans <| (W4_of_ne m c r h3).trans <|
    (StableHlo.after_of_writes_sub hostOps1 _ hostOps1_writes h2).trans <| (W2_of_ne m c r h1).trans <|
    StableHlo.after_of_writes_sub hostOps0 _ hostOps0_writes h0

theorem W7_main_arg (c : Dev nD) (r : Ref sig .tc)
    (hr : r = main_arg0 ∨ r = main_arg1 ∨ r = main_arg2 ∨ r = main_arg3 ∨ r = main_arg4 ∨ r = main_arg5 ∨ r = main_arg6) :
    W7 m c r = m ((c : Thread nD τ).loc r) := by
  rcases hr with rfl | rfl | rfl | rfl | rfl | rfl | rfl <;>
    exact W7_arg m c _ (by decide) (by decide) (by decide) (by decide) (by decide) (by decide) (by decide)

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg m c main_arg0 (by simp)),
     (h c _ (mem_uc main_arg1 (by decide))).trans (W7_main_arg m c main_arg1 (by simp)),
     (h c _ (mem_uc main_arg2 (by decide))).trans (W7_main_arg m c main_arg2 (by simp)),
     (h c _ (mem_uc main_arg3 (by decide))).trans (W7_main_arg m c main_arg3 (by simp)),
     (h c _ (mem_uc main_arg4 (by decide))).trans (W7_main_arg m c main_arg4 (by simp)),
     (h c _ (mem_uc main_arg5 (by decide))).trans (W7_main_arg m c main_arg5 (by simp)),
     (h c _ (mem_uc main_arg6 (by decide))).trans (W7_main_arg m c main_arg6 (by simp))⟩) (run m ρ)

end Cert.KernelIdeal.Hand

end
-- ==== Proof.Val.ChainHost.lean ====
/-
  The host operations between the kernel regions, read at an index, at the ideal values: the reshapes between
  [4,2048,·] and [8192,·] (token (b, s) is row b·2048 + s), the weight transposes (with a format change that is the
  identity on extended reals), and the bias / scale / shift vectors viewed as one-row matrices.
-/
import proofs.«140616_j7722351198230_2_alg».proof.Proof.KI.Run
import Idealize.ShloMosaic.Lib.ValueIdx
import Idealize.ShloMosaic.Lib.Pipeline.Value
import Idealize.ShloMosaic.Lib.StableHlo.Run

set_option maxRecDepth 16384

noncomputable section

namespace Cert.KernelIdeal.Chain

open Idealize.ShloMosaic Idealize.ShloMosaic.TcCoe Idealize.ShloMosaic.StableHlo ValueIdx
open Idealize.SL.Sem
open Cert.KernelIdeal Cert.KernelIdeal.Gen Cert.KernelIdeal.Hand

variable (m : (ℓ : Loc nD τ sig) → Buf (Elt Ideal) ℓ)

/-- Row b·2048 + s of the flattened token matrix. -/
def row (b : Fin 4) (s : Fin 2048) : Fin 8192 := ⟨b.val * 2048 + s.val, by have := b.isLt; have := s.isLt; omega⟩

/-! ## The argument arrays are never written -/

theorem W1_arg (c : Dev nD) (r : Ref sig .tc) (h : r ∉ hostOps0_W) : W1 m c r = m ((c : Thread nD τ).loc r) :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- A buffer no item before region 2 writes holds its launch contents there. -/
theorem W4_arg (c : Dev nD) (r : Ref sig .tc) (h0 : r ∉ hostOps0_W) (h1 : r ≠ main_v4) (h2 : r ∉ hostOps1_W) (h3 : r ≠ main_v6) :
    W4 m c r = m ((c : Thread nD τ).loc r) :=
  (W4_of_ne m c r h3).trans <| (W3_of m c r h2).trans <| (W2_of_ne m c r h1).trans (W1_arg m c r h0)

/-! ## The first stretch -/

theorem W1_v0 (c : Dev nD) (b : Fin 4) (s : Fin 2048) (d : Fin 512) :
    (W1 m c main_v0 : S8192x512.Idx → EReal) (ix2 (row b s) d)
      = (m ((c : Thread nD τ).loc main_arg0) : S4x2048x512.Idx → EReal) (ix3 b s d) := by
  have e : (W1 m c main_v0 : S8192x512.Idx → EReal)
      = shapeCast S8192x512 (m ((c : Thread nD τ).loc main_arg0) : S4x2048x512.Idx → EReal) shapeCasts_S4x2048x512_S8192x512 := by
    dsimp only [W1, hostOps0]; after_results; rfl
  rw [e]
  refine shapeCast_apply _ _ _ _ ?_
  show (S4x2048x512.rowMajor (ix3 b s d)).val = (S8192x512.rowMajor (ix2 (row b s) d)).val
  rw [Shape.rowMajor_val_three, Shape.rowMajor_val_two]
  show (b.val * 2048 + s.val) * 512 + d.val = (b.val * 2048 + s.val) * 512 + d.val
  rfl

theorem W1_v2 (c : Dev nD) (d : Fin 512) (p : Fin 1536) :
    (W1 m c main_v2 : S512x1536.Idx → EReal) (ix2 d p)
      = (m ((c : Thread nD τ).loc main_arg1) : S1536x512.Idx → EReal) (ix2 p d) := by
  have e : (W1 m c main_v2 : S512x1536.Idx → EReal)
      = truncf (F := Ideal) .bf16 (transpose S512x1536 [1, 0] (m ((c : Thread nD τ).loc main_arg1) : FVec Ideal S1536x512 .f32) transposes_S1536x512_S512x1536_1_0) bitsLt_bf16_f32 := by
    dsimp only [W1, hostOps0]; after_results
  rw [e, truncf_apply]
  refine transpose_apply _ _ _ _ _ ?_
  intro a
  match a with
  | ⟨0, _⟩ => rfl
  | ⟨1, _⟩ => rfl

theorem W1_v3 (c : Dev nD) (p : Fin 1536) :
    (W1 m c main_v3 : S1x1536.Idx → EReal) (ix2 0 p)
      = (m ((c : Thread nD τ).loc main_arg2) : S1536.Idx → EReal) (ix1 p) := by
  have e : (W1 m c main_v3 : S1x1536.Idx → EReal)
      = shapeCast S1x1536 (m ((c : Thread nD τ).loc main_arg2) : S1536.Idx → EReal) shapeCasts_S1536_S1x1536 := by
    dsimp only [W1, hostOps0]; after_results; rfl
  rw [e]
  refine shapeCast_apply _ _ _ _ ?_
  show (S1536.rowMajor (ix1 p)).val = (S1x1536.rowMajor (ix2 0 p)).val
  rw [Shape.rowMajor_val_one, Shape.rowMajor_val_two]
  show p.val = 0 * 1536 + p.val
  omega

/-! ## The second stretch -/

theorem W3_v5 (c : Dev nD) (b : Fin 4) (s : Fin 2048) (p : Fin 1536) :
    (W3 m c main_v5 : S4x2048x1536.Idx → EReal) (ix3 b s p) = (X0 m c : S8192x1536.Idx → EReal) (ix2 (row b s) p) := by
  have e : (W3 m c main_v5 : S4x2048x1536.Idx → EReal)
      = shapeCast S4x2048x1536 (W2 m c main_v4 : S8192x1536.Idx → EReal) shapeCasts_S8192x1536_S4x2048x1536 := by
    dsimp only [W3, hostOps1]; after_results; rfl
  rw [e, W2_v4]
  refine shapeCast_apply _ _ _ _ ?_
  show (S8192x1536.rowMajor (ix2 (row b s) p)).val = (S4x2048x1536.rowMajor (ix3 b s p)).val
  rw [Shape.rowMajor_val_three, Shape.rowMajor_val_two]
  show (b.val * 2048 + s.val) * 1536 + p.val = (b.val * 2048 + s.val) * 1536 + p.val
  rfl

/-! ## The third stretch -/

theorem W5_v7 (c : Dev nD) (b : Fin 4) (s : Fin 2048) (f : Fin 512) :
    (W5 m c main_v7 : S8192x512.Idx → EReal) (ix2 (row b s) f) = (X1 m c : S4x2048x512.Idx → EReal) (ix3 b s f) := by
  have e : (W5 m c main_v7 : S8192x512.Idx → EReal)
      = shapeCast S8192x512 (W4 m c main_v6 : S4x2048x512.Idx → EReal) shapeCasts_S4x2048x512_S8192x512 := by
    dsimp only [W5, hostOps2]; after_results; rfl
  rw [e, show W4 m c main_v6 = X1 m c from W4_v6 m c]
  refine shapeCast_apply _ _ _ _ ?_
  show (S4x2048x512.rowMajor (ix3 b s f)).val = (S8192x512.rowMajor (ix2 (row b s) f)).val
  rw [Shape.rowMajor_val_three, Shape.rowMajor_val_two]
  show (b.val * 2048 + s.val) * 512 + f.val = (b.val * 2048 + s.val) * 512 + f.val
  rfl

theorem W5_v9 (c : Dev nD) (f j : Fin 512) :
    (W5 m c main_v9 : S512x512.Idx → EReal) (ix2 f j)
      = (m ((c : Thread nD τ).loc main_arg3) : S512x512.Idx → EReal) (ix2 j f) := by
  have e : (W5 m c main_v9 : S512x512.Idx → EReal)
      = truncf (F := Ideal) .bf16 (transpose S512x512 [1, 0] (W4 m c main_arg3 : FVec Ideal S512x512 .f32) transposes_S512x512_S512x512_1_0) bitsLt_bf16_f32 := by
    dsimp only [W5, hostOps2]; after_results
  rw [e, truncf_apply, W4_arg m c main_arg3 (by decide) (by decide) (by decide) (by decide)]
  refine transpose_apply _ _ _ _ _ ?_
  intro a
  match a with
  | ⟨0, _⟩ => rfl
  | ⟨1, _⟩ => rfl

theorem W5_v10 (c : Dev nD) (j : Fin 512) :
    (W5 m c main_v10 : S1x512.Idx → EReal) (ix2 0 j) = (m ((c : Thread nD τ).loc main_arg4) : S512.Idx → EReal) (ix1 j) := by
  have e : (W5 m c main_v10 : S1x512.Idx → EReal)
      = shapeCast S1x512 (W4 m c main_arg4 : S512.Idx → EReal) shapeCasts_S512_S1x512 := by
    dsimp only [W5, hostOps2]; after_results; rfl
  rw [e, W4_arg m c main_arg4 (by decide) (by decide) (by decide) (by decide)]
  refine shapeCast_apply _ _ _ _ ?_
  show (S512.rowMajor (ix1 j)).val = (S1x512.rowMajor (ix2 0 j)).val
  rw [Shape.rowMajor_val_one, Shape.rowMajor_val_two]
  show j.val = 0 * 512 + j.val
  omega

theorem W5_v11 (c : Dev nD) (j : Fin 512) :
    (W5 m c main_v11 : S1x512.Idx → EReal) (ix2 0 j) = (m ((c : Thread nD τ).loc main_arg5) : S512.Idx → EReal) (ix1 j) := by
  have e : (W5 m c main_v11 : S1x512.Idx → EReal)
      = shapeCast S1x512 (W4 m c main_arg5 : S512.Idx → EReal) shapeCasts_S512_S1x512 := by
    dsimp only [W5, hostOps2]; after_results; rfl
  rw [e, W4_arg m c main_arg5 (by decide) (by decide) (by decide) (by decide)]
  refine shapeCast_apply _ _ _ _ ?_
  show (S512.rowMajor (ix1 j)).val = (S1x512.rowMajor (ix2 0 j)).val
  rw [Shape.rowMajor_val_one, Shape.rowMajor_val_two]
  show j.val = 0 * 512 + j.val
  omega

theorem W5_v12 (c : Dev nD) (j : Fin 512) :
    (W5 m c main_v12 : S1x512.Idx → EReal) (ix2 0 j) = (m ((c : Thread nD τ).loc main_arg6) : S512.Idx → EReal) (ix1 j) := by
  have e : (W5 m c main_v12 : S1x512.Idx → EReal)
      = shapeCast S1x512 (W4 m c main_arg6 : S512.Idx → EReal) shapeCasts_S512_S1x512 := by
    dsimp only [W5, hostOps2]; after_results; rfl
  rw [e, W4_arg m c main_arg6 (by decide) (by decide) (by decide) (by decide)]
  refine shapeCast_apply _ _ _ _ ?_
  show (S512.rowMajor (ix1 j)).val = (S1x512.rowMajor (ix2 0 j)).val
  rw [Shape.rowMajor_val_one, Shape.rowMajor_val_two]
  show j.val = 0 * 512 + j.val
  omega

/-- The flattened token rows reach region 2 as the first stretch wrote them. -/
theorem W5_v0 (c : Dev nD) : W5 m c main_v0 = W1 m c main_v0 :=
  (W5_of m c main_v0 (by decide)).trans <| (W4_of_ne m c main_v0 (by decide)).trans <|
    (W3_of m c main_v0 (by decide)).trans (W2_of_ne m c main_v0 (by decide))

/-! ## The last stretch -/

theorem W7_v14 (c : Dev nD) (b : Fin 4) (s : Fin 2048) (j : Fin 512) :
    (W7 m c main_v14 : S4x2048x512.Idx → EReal) (ix3 b s j) = (X2 m c : S8192x512.Idx → EReal) (ix2 (row b s) j) := by
  have e : (W7 m c main_v14 : S4x2048x512.Idx → EReal)
      = shapeCast S4x2048x512 (W6 m c main_v13 : S8192x512.Idx → EReal) shapeCasts_S8192x512_S4x2048x512 := by
    dsimp only [W7, hostOps3]; after_results; rfl
  rw [e, W6_v13]
  refine shapeCast_apply _ _ _ _ ?_
  show (S8192x512.rowMajor (ix2 (row b s) j)).val = (S4x2048x512.rowMajor (ix3 b s j)).val
  rw [Shape.rowMajor_val_three, Shape.rowMajor_val_two]
  show (b.val * 2048 + s.val) * 512 + j.val = (b.val * 2048 + s.val) * 512 + j.val
  rfl

end Cert.KernelIdeal.Chain

end
-- ==== Proof.Spec.lean ====
/-
  The mathematics both programs compute, as one function of the seven argument arrays over the extended reals.

  A token row x (512 numbers) is projected to 1536 numbers, x · Wcᵀ + bc: columns 0–511 are the queries, 512–1023 the
  keys, 1024–1535 the values, each split into 8 heads of 64. Within one batch (2048 tokens), head h of token s
  attends to every token k with the weight softmax_k(⟨q_s, k_k⟩ · 1/8), the softmax taken with the row maximum
  subtracted, and the context is the weighted sum of the value rows. The 8 heads' contexts, side by side (512
  numbers), are projected again, c · Woᵀ + bo, added to the token row, and the sum is normalised over its 512 entries:
  (v − mean v) · (var v + ε)^(−1/2) · γ + β.
-/
import Idealize.ShloMosaic.PureOps.Ideal

noncomputable section

namespace Cert.Spec

open Idealize.ShloMosaic

/-- The score scale, the f32 word of 1/8. -/
def scale : EReal := Ideal.ofBits .f32 0x3E000000#32
/-- The f32 word of −∞, the start of a running maximum. -/
def negInf : EReal := Ideal.ofBits .f32 0xFF800000#32
/-- The f32 word of 512, the length of a normalised row. -/
def n512 : EReal := Ideal.ofBits .f32 0x44000000#32
/-- The f32 word nearest 1e-5, the normaliser's ε. -/
def eps : EReal := Ideal.ofBits .f32 0x3727C5AC#32

/-- Entry p of the projected row x · Wcᵀ + bc. -/
def projRow (x : Fin 512 → EReal) (Wc : Fin 1536 → Fin 512 → EReal) (bc : Fin 1536 → EReal) (p : Fin 1536) : EReal :=
  (∑ d : Fin 512, x d * Wc p d) + bc p

/-- Column part·512 + h·64 + e of a projected row: part 0 the queries, 1 the keys, 2 the values; head h; lane e. -/
def col (part : Fin 3) (h : Fin 8) (e : Fin 64) : Fin 1536 :=
  ⟨part.val * 512 + h.val * 64 + e.val, by have := part.isLt; have := h.isLt; have := e.isLt; omega⟩

/-- The scaled score of query row q against key row k. -/
def score (Q K : Fin 2048 → Fin 64 → EReal) (q k : Fin 2048) : EReal := (∑ e : Fin 64, Q q e * K k e) * scale

/-- The maximum of a row of scores, started from −∞. -/
def rowMax (s : Fin 2048 → EReal) : EReal := Finset.univ.fold max negInf s

/-- The shifted exponential of score (q, k): exp (s_qk − max_k' s_qk'). -/
def expo (Q K : Fin 2048 → Fin 64 → EReal) (q k : Fin 2048) : EReal :=
  Ideal.exp (score Q K q k - rowMax (score Q K q))

/-- The softmax weight of key k for query q. -/
def weight (Q K : Fin 2048 → Fin 64 → EReal) (q k : Fin 2048) : EReal :=
  Ideal.div (expo Q K q k) (∑ k' : Fin 2048, expo Q K q k')

/-- One head's context: the softmax-weighted sum of the value rows. -/
def ctx (Q K Vv : Fin 2048 → Fin 64 → EReal) (q : Fin 2048) (d : Fin 64) : EReal :=
  ∑ k : Fin 2048, weight Q K q k * Vv k d

/-- One batch's attention output at token s, head h, lane d, from the batch's projected rows P. -/
def attnHead (P : Fin 2048 → Fin 1536 → EReal) (s : Fin 2048) (h : Fin 8) (d : Fin 64) : EReal :=
  ctx (fun q e => P q (col 0 h e)) (fun k e => P k (col 1 h e)) (fun k e => P k (col 2 h e)) s d

/-- The same at concatenated column f = h·64 + d. -/
def attnBatch (P : Fin 2048 → Fin 1536 → EReal) (s : Fin 2048) (f : Fin 512) : EReal :=
  attnHead P s ⟨f.val / 64, by have := f.isLt; omega⟩ ⟨f.val % 64, by omega⟩

/-- The mean of 512 numbers: their sum divided by 512. -/
def mean (v : Fin 512 → EReal) : EReal := Ideal.div (∑ j : Fin 512, v j) n512

/-- Entry j of the output row: the context row c projected (c · Woᵀ + bo), added to the token row x, normalised. -/
def outRow (c x : Fin 512 → EReal) (Wo : Fin 512 → Fin 512 → EReal) (bo g bt : Fin 512 → EReal) (j : Fin 512) : EReal :=
  let v : Fin 512 → EReal := fun j => x j + ((∑ f : Fin 512, c f * Wo j f) + bo j)
  let dv : Fin 512 → EReal := fun j => v j - mean v
  dv j * Ideal.rsqrt (mean (fun j => dv j * dv j) + eps) * g j + bt j

/-- The whole computation at batch b, token s, output column j. -/
def final (X : Fin 4 → Fin 2048 → Fin 512 → EReal) (Wc : Fin 1536 → Fin 512 → EReal) (bc : Fin 1536 → EReal)
    (Wo : Fin 512 → Fin 512 → EReal) (bo g bt : Fin 512 → EReal) (b : Fin 4) (s : Fin 2048) (j : Fin 512) : EReal :=
  outRow (fun f => attnBatch (fun s' p => projRow (X b s') Wc bc p) s f) (X b s) Wo bo g bt j

end Cert.Spec

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.Val.Region0Pay.lean ====
/-
  Region 0's arithmetic at one entry of a block.

  A grid point of the projection takes a block x of 1024 token rows, the whole matrix w (512 × 1536) and the bias row
  b (1 × 1536), and stores x · w + b: the product accumulated into the zero block, the bias row spread over the 1024
  rows, the two added. The changes of float format are the identity on the extended reals, the shape casts are casts
  of a shape to itself. So entry (a, q) of the stored block is (∑ c, x (a, c) · w (c, q)) + b (0, q).
-/
import proofs.«140616_j7722351198230_2_alg».proof.Proof.Gen.KernelIdeal.Skeleton
import proofs.«140616_j7722351198230_2_alg».proof.Proof.LibPlainMatmul
import Idealize.ShloMosaic.Lib.ValueIdx
import Idealize.ShloMosaic.Lib.ValueLayout
import Idealize.ShloMosaic.Lib.Pipeline.Value

noncomputable section

namespace Cert.KernelIdeal.Val0

open Cert.KernelIdeal Cert.KernelIdeal.Gen Idealize.ShloMosaic ValueIdx

/-- The kernel's contraction record is the plain [1024, 512] × [512, 1536] one. -/
theorem dot0_eq : dot_S1024x512_S512x1536_S1024x1536_1_0_0_1_n_n = DotDims.plain 1024 512 1536 := rfl

/-- Entry (a, q) of the block a grid point stores: the row a of x against column q of w, plus the bias at q. -/
theorem pay1_apply (x : Vec Ideal S1024x512 .f32) (w : Vec Ideal S512x1536 .bf16) (b : Vec Ideal S1x1536 .f32)
    (a : Fin 1024) (q : Fin 1536) :
    k0_pay1 (F := Ideal) x w b (ix2 a q) = (∑ c : Fin 512, x (ix2 a c) * w (ix2 c q)) + b (ix2 (0 : Fin 1) q) := by
  unfold k0_pay1
  rw [shapeCast_self, shapeCast_self, shapeCast_self, dot0_eq]
  have hm := Cert.Lib.matmul_plain_zero_apply (φ₁ := .bf16) (φ₂ := .bf16) none
    (truncf .bf16 (x : FVec Ideal S1024x512 .f32) bitsLt_bf16_f32 : FVec Ideal S1024x512 .bf16) (w : FVec Ideal S512x1536 .bf16) a q
  have hb := broadcastTo_1b_ab_apply b broadcasts_S1x1536_S1024x1536 a q
  exact congrArg₂ (· + ·) hm hb

end Cert.KernelIdeal.Val0

end
-- ==== Proof.Val.Region0Block.lean ====
/-
  One block of region 0 is the corresponding rows of the whole projection.

  The projection of the 8192 token rows, entry (r, p), is (∑ d, X (r, d) · W (d, p)) + B (0, p): it depends on row r of
  X only. A grid point takes rows n·1024, …, n·1024 + 1023 of X, all of W and B, and computes entry (a, q) of its block as
  (∑ d, x (a, d) · w (d, q)) + b (0, q), where x (a, d) = X (n·1024 + a, d). So entry (a, q) of the block is entry
  (n·1024 + a, q) of the whole projection: the same sum of the same products in the same order.
-/
import proofs.«140616_j7722351198230_2_alg».proof.Proof.Spec
import proofs.«140616_j7722351198230_2_alg».proof.Proof.Val.Region0Pay

noncomputable section

namespace Cert.KernelIdeal.Val0

open Cert.KernelIdeal Cert.KernelIdeal.Gen Idealize.ShloMosaic ValueIdx

/-- The projected array [8192, 1536], entry by entry, from the token rows X, the weight matrix W and the bias row B:
    entry (r, p) is the specification's projected row of token r at p. -/
def projArr (X : S8192x512.Idx → EReal) (W : S512x1536.Idx → EReal) (B : S1x1536.Idx → EReal) : S8192x1536.Idx → EReal :=
  fun i => Cert.Spec.projRow (fun d => X (ix2 (⟨(i 0).val, idx2_lt0 i⟩ : Fin 8192) d)) (fun p' d => W (ix2 d p'))
    (fun p' => B (ix2 (0 : Fin 1) p')) ⟨(i 1).val, idx2_lt1 i⟩

/-- At (r, p) it is the projected row of token r, read at p. -/
theorem projArr_apply (X : S8192x512.Idx → EReal) (W : S512x1536.Idx → EReal) (B : S1x1536.Idx → EReal)
    (r : Fin 8192) (p : Fin 1536) :
    projArr X W B (ix2 r p)
      = Cert.Spec.projRow (fun d => X (ix2 r d)) (fun p' d => W (ix2 d p')) (fun p' => B (ix2 (0 : Fin 1) p')) p := rfl

/-- Entry `j` of the block computed from rows `n·1024 …` of X is the projected array where the block puts `j`:
    row `n·1024 + j₀`, column `j₁`. -/
theorem block_entry (x : Vec Ideal S1024x512 .f32) (w : Vec Ideal S512x1536 .bf16) (b : Vec Ideal S1x1536 .f32)
    (X : S8192x512.Idx → EReal) (W : S512x1536.Idx → EReal) (B : S1x1536.Idx → EReal) (n : Nat)
    (hx : ∀ (y : S1024x512.Idx) (k : S8192x512.Idx), (k 0).val = n * 1024 + (y 0).val → (k 1).val = (y 1).val → x y = X k)
    (hw : ∀ y : S512x1536.Idx, w y = W y) (hb : ∀ y : S1x1536.Idx, b y = B y)
    (j : S1024x1536.Idx) (i : S8192x1536.Idx) (h0 : (i 0).val = n * 1024 + (j 0).val) (h1 : (i 1).val = (j 1).val) :
    k0_pay1 (F := Ideal) x w b j = projArr X W B i := by
  obtain ⟨a, q, rfl⟩ : ∃ (a : Fin 1024) (q : Fin 1536), j = ix2 a q := ⟨j 0, j 1, eq_ix2 j⟩
  rw [pay1_apply]
  unfold projArr Cert.Spec.projRow
  have hq : (⟨(i 1).val, idx2_lt1 i⟩ : Fin 1536) = q := Fin.ext h1
  rw [hq]
  refine congrArg₂ (· + ·) (Finset.sum_congr rfl fun d _ => ?_) (hb _)
  rw [hw]
  exact congrArg (· * W (ix2 d q)) (hx _ _ h0 rfl)

end Cert.KernelIdeal.Val0

end
-- ==== Proof.Val.Region0.lean ====
/-
  Region 0's value: after its eight grid points the projected array holds x2 · wct + bc2.

  Grid point t reads rows 1024·t, …, 1024·t + 1023 of the token array (block (t, 0) of blocks of 1024 × 512), the whole
  weight matrix and the whole bias row, and writes back block (t, 0), 1024 × 1536, of the output. What it writes is those
  rows of the whole projection (the block module), and the eight blocks tile the 8192 rows: row r lies in the block of
  point r / 1024. So the output array ends holding the whole projection, entry by entry.
-/
import proofs.«140616_j7722351198230_2_alg».proof.Proof.KI.Data0
import proofs.«140616_j7722351198230_2_alg».proof.Proof.Spec
import proofs.«140616_j7722351198230_2_alg».proof.Proof.Val.Region0Block
import Idealize.ShloMosaic.Lib.Pipeline.Value

set_option maxRecDepth 16384

noncomputable section

namespace Cert.KernelIdeal.Val0

open Cert.KernelIdeal Cert.KernelIdeal.Gen Cert.KernelIdeal.Hand Idealize.ShloMosaic Idealize.ShloMosaic.TcCoe ValueIdx
open Idealize.ShloMosaic.Pipeline (Dat)

variable (V : (c : Dev nD) → (b : Ref sig .tc) → Buf (Elt Ideal) ((c : Thread nD τ).loc b))

/-- The whole-buffer rectangles start at the origin. -/
theorem origin2 : (![0, 0] : Fin 2 → Nat) = fun _ => 0 := funext fun a => by fin_cases a <;> rfl

/-- The index maps over the grid: the token window and the output window are at block (t, 0) at point t; the weight
    matrix and the bias row are always at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole projection of the arrays as the region finds them. -/
theorem written_block (c : Dev nD) (t : Fin cfg0.N) :
    (dat0 (F := Ideal) V c).flushed 3 t
      = ((cfg0.win 3).blk t).view.read (Elt Ideal) (projArr (V c main_v0) (V c main_v2) (V c main_v3)) := by
  show (cfg0.win 3).cut (grid0.coords t) ((dat0 (F := Ideal) V c).after 3 t) = _
  rw [after0_3]
  unfold out0_3
  rw [View.canon_unit_zero origin2]
  simp only [View.ld_unit_zero (S := S1024x512) origin2, View.ld_unit_zero (S := S512x1536) origin2,
    View.ld_unit_zero (S := S1x1536) origin2]
  obtain ⟨e00, e01, e10, e11, e20, e21, e30, e31⟩ := block_index t
  funext j
  refine block_entry (iblk0 V c 0 t) (iblk0 V c 1 t) (iblk0 V c 2 t) (V c main_v0) (V c main_v2) (V c main_v3) t.val
    (fun y k hk0 hk1 => ?_) (fun y => ?_) (fun y => ?_) j (((cfg0.win 3).blk t).view.emb j) ?_ ?_
  · -- the token block's entry (y₀, y₁) is the array's entry (1024·t + y₀, y₁)
    show V c main_v0 (((cfg0.win 0).blk t).view.emb y) = V c main_v0 k
    refine congrArg _ (funext fun a => Fin.ext ?_)
    match a with
    | ⟨0, _⟩ => show win0_0.index t (0 : Fin 2) * 1024 + 1 * (y 0).val = (k 0).val; rw [e00, hk0]; omega
    | ⟨1, _⟩ => show win0_0.index t (1 : Fin 2) * 512 + 1 * (y 1).val = (k 1).val; rw [e01, hk1]; omega
  · -- the weight block is the whole matrix
    show V c main_v2 (((cfg0.win 1).blk t).view.emb y) = V c main_v2 y
    refine congrArg _ (funext fun a => Fin.ext ?_)
    match a with
    | ⟨0, _⟩ => show win0_1.index t (0 : Fin 2) * 512 + 1 * (y 0).val = (y 0).val; rw [e10]; omega
    | ⟨1, _⟩ => show win0_1.index t (1 : Fin 2) * 1536 + 1 * (y 1).val = (y 1).val; rw [e11]; omega
  · -- the bias block is the whole row
    show V c main_v3 (((cfg0.win 2).blk t).view.emb y) = V c main_v3 y
    refine congrArg _ (funext fun a => Fin.ext ?_)
    match a with
    | ⟨0, _⟩ => show win0_2.index t (0 : Fin 2) * 1 + 1 * (y 0).val = (y 0).val; rw [e20]; omega
    | ⟨1, _⟩ => show win0_2.index t (1 : Fin 2) * 1536 + 1 * (y 1).val = (y 1).val; rw [e21]; omega
  · show win0_3.index t (0 : Fin 2) * 1024 + 1 * (j 0).val = t.val * 1024 + (j 0).val; rw [e30]; omega
  · show win0_3.index t (1 : Fin 2) * 1536 + 1 * (j 1).val = (j 1).val; rw [e31]; omega

/-- An entry of the output array is in point t's block iff each coordinate is in the block's range on its axis. -/
theorem mem_block (t : Fin cfg0.N) (i : S8192x1536.Idx) :
    i ∈ ((cfg0.win 3).blk t).view.set ↔ ∀ a : Fin 2, win0_3.index t a * S1024x1536.size a ≤ (i a).val
      ∧ (i a).val < win0_3.index t a * S1024x1536.size a + S1024x1536.size a := by
  show i ∈ ((View.whole main_v4).slice (win0_3.rect t)).set ↔ _
  rw [View.set_slice_whole, Rect.mem_set_unit]
  exact Iff.rfl

/-- The eight blocks tile the array: row r is in the block of point r / 1024. -/
theorem tiled (i : S8192x1536.Idx) :
    ∃ t : Fin cfg0.N, (cfg0.win 3).flush t = true ∧ i ∈ ((cfg0.win 3).blk t).view.set := by
  have hi0 : (i 0).val < 8192 := idx2_lt0 i
  have hi1 : (i 1).val < 1536 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨_, _, _, _, _, _, e30, e31⟩ := block_index t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    rw [e30, ht]; omega
  | ⟨1, _⟩ =>
    show win0_3.index t (1 : Fin 2) * 1536 ≤ (i 1).val ∧ (i 1).val < win0_3.index t (1 : Fin 2) * 1536 + 1536
    rw [e31]; omega

/-- The output array after the eight points is the whole projection. -/
theorem final0_arr (c : Dev nD) :
    (dat0 (F := Ideal) V c).arrAt 3 cfg0.N = projArr (V c main_v0) (V c main_v2) (V c main_v3) :=
  (dat0 (F := Ideal) V c).arrAt_eq_of_cover 3 (projArr (V c main_v0) (V c main_v2) (V c main_v3))
    (fun t _ => written_block V c t) tiled

/-- After the eight grid points the output array [8192, 1536] holds at (r, p) the sum over d of x2 (r, d) · wct (d, p),
    plus bc2 (0, p): the specification's projected row of token r at p. -/
theorem final0 (c : Dev nD) (r : Fin 8192) (p : Fin 1536) :
    (dat0 (F := Ideal) V c).arrAt 3 cfg0.N (ix2 r p)
      = Cert.Spec.projRow (fun d => V c main_v0 (ix2 r d)) (fun p' d => V c main_v2 (ix2 d p'))
          (fun p' => V c main_v3 (ix2 0 p')) p :=
  (congrFun (final0_arr V c) (ix2 r p)).trans (projArr_apply (V c main_v0) (V c main_v2) (V c main_v3) r p)

end Cert.KernelIdeal.Val0

end
-- ==== Proof.Val.Region1Head.lean ====
/-
  One attention head on matrices: a [512, 64] block of query rows A, a [2048, 64] block of key rows B and a
  [2048, 64] block of value rows W. The scores A · Bᵀ · 1/8, each row's maximum subtracted, the exponentials, each row
  divided by its sum, and the product with W. Read at row r and lane d this is the specification's context of the
  query row A r against the keys B and values W: every step is one operation read at an index.
-/
import proofs.«140616_j7722351198230_2_alg».proof.Proof.Gen.KernelIdeal.Skeleton
import proofs.«140616_j7722351198230_2_alg».proof.Proof.Spec
import proofs.«140616_j7722351198230_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val1

open Cert.KernelIdeal Cert.KernelIdeal.Gen Idealize.ShloMosaic Idealize.ShloMosaic.ValueIdx

/-- The scaled scores of the query rows A against the key rows B: A · Bᵀ into the zero block, times 1/8. -/
def scoreT (A : FVec Ideal S512x64 .bf16) (B : FVec Ideal S2048x64 .bf16) : FVec Ideal S512x2048 .f32 :=
  mulf (matmul dot_S512x64_S64x2048_S512x2048_1_0_0_1_n_n none A
      (transpose S64x2048 [1, 0] B Facts₀.transposes_S2048x64_p1_0_S64x2048) (constant S512x2048 .f32 0x00000000#32))
    (broadcast S512x2048 (Scalar.ofBits .f32 0x3E000000#32))

/-- The shifted exponentials: each score less its row's maximum, exponentiated. -/
def expT (A : FVec Ideal S512x64 .bf16) (B : FVec Ideal S2048x64 .bf16) : FVec Ideal S512x2048 .f32 :=
  exp (subf (scoreT A B) (broadcastTo S512x2048 (shapeCast S512x1
    (multiReduction .maximumf [1] S512 (scoreT A B) 0xFF800000#32 Facts₀.reduces_S512x2048_S512 (.inl rfl) rfl)
    Facts₀.shapeCasts_S512_S512x1) Facts₀.broadcasts_S512x1_S512x2048))

/-- The rows' sums of exponentials, as a column. -/
def sumT (E : FVec Ideal S512x2048 .f32) : FVec Ideal S512x1 .f32 :=
  shapeCast S512x1 (multiReduction .add [1] S512 E 0x00000000#32 Facts₀.reduces_S512x2048_S512 (.inl rfl) rfl)
    Facts₀.shapeCasts_S512_S512x1

/-- The context: the exponentials E divided by their row sums s, times the value rows W. -/
def ctxT (E : FVec Ideal S512x2048 .f32) (s : FVec Ideal S512x1 .f32) (W : FVec Ideal S2048x64 .bf16) : FVec Ideal S512x64 .bf16 :=
  truncf .bf16 (matmul dot_S512x2048_S2048x64_S512x64_1_0_0_1_n_n none
    (truncf .bf16 (divf E (broadcastTo S512x2048 s Facts₀.broadcasts_S512x1_S512x2048)) Facts₀.bitsLt_bf16_f32) W
    (constant S512x64 .f32 0x00000000#32)) Facts₀.bitsLt_bf16_f32

theorem dot_qk_eq : dot_S512x64_S64x2048_S512x2048_1_0_0_1_n_n = DotDims.plain 512 64 2048 := rfl
theorem dot_pv_eq : dot_S512x2048_S2048x64_S512x64_1_0_0_1_n_n = DotDims.plain 512 2048 64 := rfl

/-- A length-512 vector as a [512, 1] column reads, at (r, u), the vector at r. -/
theorem col_apply {α : Type} (x : S512.Idx → α) (r : Fin 512) (u : Fin 1) :
    shapeCast S512x1 x Facts₀.shapeCasts_S512_S512x1 (ix2 r u) = x (ix1 r) :=
  shapeCast_apply x _ _ _ (by
    have hu : u.val = 0 := by omega
    rw [Shape.rowMajor_val_one, Shape.rowMajor_val_two]
    show r.val = r.val * 1 + u.val
    omega)

/-- A [512, 1] column broadcast along the rows reads, at (r, c), the column at (r, 0). -/
theorem bcast_apply {α : Type} (y : S512x1.Idx → α) (r : Fin 512) (c : Fin 2048) :
    broadcastTo S512x2048 y Facts₀.broadcasts_S512x1_S512x2048 (ix2 r c) = y (ix2 r (0 : Fin 1)) :=
  broadcastTo_apply y _ _ _ (fun a => by
    match a with
    | ⟨0, _⟩ => rfl
    | ⟨1, _⟩ => rfl)

/-- The index a reduction over the columns inserts column c at, from row r, is (r, c). -/
theorem lift_eq (r : Fin 512) (c : Fin 2048) :
    (Facts₀.reduces_S512x2048_S512).lift (ix1 r) c = ix2 r c := by
  funext a
  match a with
  | ⟨0, _⟩ => rfl
  | ⟨1, _⟩ => rfl

/-- A row's maximum from −∞ is the fold of max over its 2048 entries. -/
theorem rowMaxT_apply (X : FVec Ideal S512x2048 .f32) (hφ : FKind.Formats .f32)
    (hacc : (0xFF800000#32 : BitVec 32) = FKind.maximumf.neutral .f32 hφ) (r : Fin 512) :
    multiReduction .maximumf [1] S512 X 0xFF800000#32 Facts₀.reduces_S512x2048_S512 hφ hacc (ix1 r)
      = Cert.Spec.rowMax (fun c : Fin 2048 => X (ix2 r c)) := by
  refine (Ideal.multiReduction_maximumf_single X 0xFF800000#32 Facts₀.reduces_S512x2048_S512 hφ hacc (ix1 r)).trans ?_
  show Finset.univ.fold max Cert.Spec.negInf (X ∘ (Facts₀.reduces_S512x2048_S512).lift (ix1 r)) = _
  unfold Cert.Spec.rowMax
  congr 1
  funext c
  exact congrArg X (lift_eq r c)

/-- A row's sum from the zero word is the sum of its 2048 entries. -/
theorem rowSumT_apply (X : FVec Ideal S512x2048 .f32) (hφ : FKind.Formats .f32)
    (hacc : (0x00000000#32 : BitVec 32) = FKind.add.neutral .f32 hφ) (r : Fin 512) :
    multiReduction .add [1] S512 X 0x00000000#32 Facts₀.reduces_S512x2048_S512 hφ hacc (ix1 r)
      = ∑ c : Fin 2048, X (ix2 r c) := by
  refine (Ideal.multiReduction_add_single X 0x00000000#32 Facts₀.reduces_S512x2048_S512 hφ hacc (ix1 r)).trans ?_
  show ∑ c : Fin 2048, X ((Facts₀.reduces_S512x2048_S512).lift (ix1 r) c) = _
  exact Finset.sum_congr rfl fun c _ => by rw [lift_eq]

variable (A : FVec Ideal S512x64 .bf16) (B W : FVec Ideal S2048x64 .bf16)

/-- Score (r, c) is the specification's score of query row A r against key row B c. -/
theorem scoreT_apply (r : Fin 512) (c q0 : Fin 2048) :
    scoreT A B (ix2 r c) = Cert.Spec.score (fun _ e => A (ix2 r e)) (fun k e => B (ix2 k e)) q0 c := by
  unfold scoreT Cert.Spec.score
  rw [mulf_apply, broadcast_apply, dot_qk_eq, Cert.Lib.matmul_plain_zero_apply]
  show (∑ e : Fin 64, A (ix2 r e) * transpose S64x2048 [1, 0] B _ (ix2 e c)) * Cert.Spec.scale = (∑ e : Fin 64, A (ix2 r e) * B (ix2 c e)) * Cert.Spec.scale
  congr 1
  exact Finset.sum_congr rfl fun e _ => by rw [transpose_ix2_apply]

/-- Exponential (r, c) is the specification's shifted exponential. -/
theorem expT_apply (r : Fin 512) (c q0 : Fin 2048) :
    expT A B (ix2 r c) = Cert.Spec.expo (fun _ e => A (ix2 r e)) (fun k e => B (ix2 k e)) q0 c := by
  unfold expT Cert.Spec.expo
  show Ideal.exp (scoreT A B (ix2 r c) - broadcastTo S512x2048 _ Facts₀.broadcasts_S512x1_S512x2048 (ix2 r c)) = _
  rw [bcast_apply, col_apply]
  refine congrArg Ideal.exp (congrArg₂ (· - ·) (scoreT_apply A B r c q0) ?_)
  refine (rowMaxT_apply (scoreT A B) _ _ r).trans ?_
  exact congrArg Cert.Spec.rowMax (funext fun c' => scoreT_apply A B r c' q0)

/-- The column of row sums at (r, 0) is the sum of the row's exponentials. -/
theorem sumT_apply (E : FVec Ideal S512x2048 .f32) (r : Fin 512) (u : Fin 1) :
    sumT E (ix2 r u) = ∑ c : Fin 2048, E (ix2 r c) := by
  unfold sumT
  exact (col_apply _ r u).trans (rowSumT_apply E _ _ r)

/-- The context at (r, d): the row's exponentials, each divided by the row's sum, against column d of the values. -/
theorem ctxT_apply (E : FVec Ideal S512x2048 .f32) (s : FVec Ideal S512x1 .f32) (r : Fin 512) (d : Fin 64) :
    ctxT E s W (ix2 r d) = ∑ c : Fin 2048, Ideal.div (E (ix2 r c)) (s (ix2 r (0 : Fin 1))) * W (ix2 c d) := by
  unfold ctxT
  rw [truncf_apply, dot_pv_eq, Cert.Lib.matmul_plain_zero_apply]
  refine Finset.sum_congr rfl fun c _ => ?_
  rw [truncf_apply, divf_apply, bcast_apply]

/-- ONE HEAD: the context of the head whose query, key and value blocks are A, B, W, at row r and lane d, is the
    specification's context of query row A r. -/
theorem head_apply (r : Fin 512) (d : Fin 64) (q0 : Fin 2048) :
    ctxT (expT A B) (sumT (expT A B)) W (ix2 r d)
      = Cert.Spec.ctx (fun _ e => A (ix2 r e)) (fun k e => B (ix2 k e)) (fun k e => W (ix2 k e)) q0 d := by
  rw [ctxT_apply, sumT_apply]
  unfold Cert.Spec.ctx Cert.Spec.weight
  refine Finset.sum_congr rfl fun c _ => ?_
  rw [expT_apply A B r c q0]
  refine congrArg₂ (· * ·) (congrArg (Ideal.div _) ?_) rfl
  exact Finset.sum_congr rfl fun c' _ => expT_apply A B r c' q0

end Cert.KernelIdeal.Val1

end
-- ==== Proof.LibConcatContraction.lean ====
/-
  A contraction over a concatenated axis.

  Lay two [M, d] arrays X, Y side by side along the columns, and two [d, N] arrays U, W one above the other along the
  rows. Contracting the [M, d + d] array against the [d + d, N] array over the long axis gives, at entry (a, b),

      ∑ k < d + d, [X | Y] (a, k) · [U ; W] (k, b)  =  ∑ k < d, X (a, k) · U (k, b)  +  ∑ k < d, Y (a, k) · W (k, b):

  the first d terms read the first pieces, the last d terms the second pieces. Only the commutative-monoid laws of the
  sum are used, so the identity holds over the extended reals with no finiteness assumption.
-/
import Idealize.ShloMosaic.Lib.Pipeline.Value
import Idealize.ShloMosaic.Lib.ValueIdx

noncomputable section

namespace Cert.Lib

open Idealize.ShloMosaic Idealize.ShloMosaic.ValueIdx

variable {α : Type}

/-- Two [M, d] arrays side by side along the columns: column `k < d` of the long array is the first array's column `k`. -/
theorem concat_cols_left {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = k.val) :
    concatenate ⟨2, ![M, D]⟩ 1 [⟨⟨2, ![M, d]⟩, X⟩, ⟨⟨2, ![M, d]⟩, Y⟩] h (ix2 a k') = X (ix2 a k) :=
  concatenate_pair_apply_left 1 X Y h (ix2 a k') rfl (ix2 a k) fun b => by
    match b with
    | ⟨0, _⟩ => rfl
    | ⟨1, _⟩ => exact hk.symm

/-- … and column `d + k` is the second array's column `k`. -/
theorem concat_cols_right {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = d + k.val) :
    concatenate ⟨2, ![M, D]⟩ 1 [⟨⟨2, ![M, d]⟩, X⟩, ⟨⟨2, ![M, d]⟩, Y⟩] h (ix2 a k') = Y (ix2 a k) :=
  concatenate_pair_apply_right 1 X Y h (ix2 a k') rfl rfl (ix2 a k)
    (fun b hb => by
      match b, hb with
      | ⟨0, _⟩, _ => rfl
      | ⟨1, _⟩, hb => exact absurd rfl hb)
    (by show k.val + d = k'.val; omega)

/-- Two [d, N] arrays one above the other along the rows: row `k < d` of the tall array is the first array's row `k`. -/
theorem concat_rows_left {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = k.val) :
    concatenate ⟨2, ![D, N]⟩ 0 [⟨⟨2, ![d, N]⟩, U⟩, ⟨⟨2, ![d, N]⟩, W⟩] h (ix2 k' b) = U (ix2 k b) :=
  concatenate_pair_apply_left 0 U W h (ix2 k' b) rfl (ix2 k b) fun ax => by
    match ax with
    | ⟨0, _⟩ => exact hk.symm
    | ⟨1, _⟩ => rfl

/-- … and row `d + k` is the second array's row `k`. -/
theorem concat_rows_right {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = d + k.val) :
    concatenate ⟨2, ![D, N]⟩ 0 [⟨⟨2, ![d, N]⟩, U⟩, ⟨⟨2, ![d, N]⟩, W⟩] h (ix2 k' b) = W (ix2 k b) :=
  concatenate_pair_apply_right 0 U W h (ix2 k' b) rfl rfl (ix2 k b)
    (fun ax hax => by
      match ax, hax with
      | ⟨0, _⟩, hax => exact absurd rfl hax
      | ⟨1, _⟩, _ => rfl)
    (by show k.val + d = k'.val; omega)

/-- The contraction of `[X | Y]` against `[U ; W]` over the long axis is the contraction of `X` against `U` plus that of
    `Y` against `W`, entry by entry, in any commutative additive monoid with a product. -/
theorem sum_concat_contraction {β : Type} [AddCommMonoid β] [Mul β] {M d D N : Nat} (hD : D = d + d)
    (X Y : (⟨2, ![M, d]⟩ : Shape).Idx → β) (U W : (⟨2, ![d, N]⟩ : Shape).Idx → β)
    (hx : Shape.Concatenates [⟨2, ![M, d]⟩, ⟨2, ![M, d]⟩] ⟨2, ![M, D]⟩ 1)
    (hw : Shape.Concatenates [⟨2, ![d, N]⟩, ⟨2, ![d, N]⟩] ⟨2, ![D, N]⟩ 0) (a : Fin M) (b : Fin N) :
    ∑ k : Fin D, concatenate ⟨2, ![M, D]⟩ 1 [⟨⟨2, ![M, d]⟩, X⟩, ⟨⟨2, ![M, d]⟩, Y⟩] hx (ix2 a k)
        * concatenate ⟨2, ![D, N]⟩ 0 [⟨⟨2, ![d, N]⟩, U⟩, ⟨⟨2, ![d, N]⟩, W⟩] hw (ix2 k b)
      = ∑ k : Fin d, X (ix2 a k) * U (ix2 k b) + ∑ k : Fin d, Y (ix2 a k) * W (ix2 k b) := by
  subst hD
  rw [Fin.sum_univ_add]
  congr 1
  · refine Finset.sum_congr rfl fun k _ => ?_
    rw [concat_cols_left X Y hx a k (Fin.castAdd d k) rfl, concat_rows_left U W hw b k (Fin.castAdd d k) rfl]
  · refine Finset.sum_congr rfl fun k _ => ?_
    rw [concat_cols_right X Y hx a k (Fin.natAdd d k) rfl, concat_rows_right U W hw b k (Fin.natAdd d k) rfl]

end Cert.Lib

end
-- ==== Proof.Val.Region1Pay.lean ====
/-
  The stored block of the attention region as two heads side by side. The query block q is [1, 512, 128] and the key
  and value blocks k, v are [1, 2048, 128]; lanes 0–63 of each belong to the pair's first head and lanes 64–127 to its
  second. The stored block's lanes 0–63 are the first head's context and lanes 64–127 the second's, so at row r and
  lane 64·hh + d it is the specification's context, at lane d, of the query row's lanes 64·hh … 64·hh + 63 against the
  same lanes of the key and value rows.
-/
import proofs.«140616_j7722351198230_2_alg».proof.Proof.Val.Region1Head
import proofs.«140616_j7722351198230_2_alg».proof.Proof.LibConcatContraction

noncomputable section

namespace Cert.KernelIdeal.Val1

open Cert.KernelIdeal Cert.KernelIdeal.Gen Idealize.ShloMosaic Idealize.ShloMosaic.ValueIdx

variable (q : Vec Ideal S1x512x128 .bf16) (k v : Vec Ideal S1x2048x128 .bf16)

/-- Lanes o … o + 63 of the query block's rows, as a [512, 64] matrix (o = 0 or 64). -/
def qLo : FVec Ideal S512x64 .bf16 := extractStridedSlice S512x64 ![0, 0] (k1_pay2 q) Facts₀.slices_S512x128_o0_0_S512x64
def qHi : FVec Ideal S512x64 .bf16 := extractStridedSlice S512x64 ![0, 64] (k1_pay2 q) Facts₀.slices_S512x128_o0_64_S512x64
/-- The same lanes of a key or value block's rows, as a [2048, 64] matrix. -/
def kvLo (x : Vec Ideal S1x2048x128 .bf16) : FVec Ideal S2048x64 .bf16 :=
  extractStridedSlice S2048x64 ![0, 0] (k1_pay3 x) Facts₀.slices_S2048x128_o0_0_S2048x64
def kvHi (x : Vec Ideal S1x2048x128 .bf16) : FVec Ideal S2048x64 .bf16 :=
  extractStridedSlice S2048x64 ![0, 64] (k1_pay3 x) Facts₀.slices_S2048x128_o0_64_S2048x64

/-- The first head's context is the head function of the low lanes. -/
theorem pay5_eq : k1_pay5 q k v = ctxT (expT (qLo q) (kvLo k)) (sumT (expT (qLo q) (kvLo k))) (kvLo v) := rfl
/-- The second head's value rows, exponentials and row sums are those of the high lanes. -/
theorem pay6_eq : k1_pay6 v = kvHi v := rfl
theorem pay7_eq : k1_pay7 q k = expT (qHi q) (kvHi k) := rfl
theorem pay8_eq : k1_pay8 q k = sumT (expT (qHi q) (kvHi k)) := rfl

/-- The stored block: the first head's context and the second head's, side by side, under a leading unit axis. -/
theorem pay1_eq (v24 : FVec Ideal S512x64 .bf16) (v27 : FVec Ideal S2048x64 .bf16) (v36 : FVec Ideal S512x2048 .f32)
    (v38 : FVec Ideal S512x1 .f32) :
    k1_pay1 v24 v27 v36 v38 = shapeCast S1x512x128 (concatenate S512x128 1 [⟨S512x64, v24⟩, ⟨S512x64, ctxT v36 v38 v27⟩]
      Facts₀.concatenates_S512x64_S512x64_S512x128_d1) Facts₀.shapeCasts_S512x128_S1x512x128 := rfl

/-- The low lanes of the query block read at (r, e): the block at (0, r, e). -/
theorem qLo_apply (r : Fin 512) (e : Fin 64) (l : Fin 128) (hl : l.val = e.val) : qLo q (ix2 r e) = q (ix3 (0 : Fin 1) r l) := by
  unfold qLo k1_pay2
  rw [slice2_axis1_apply 0 _ _ r e l (by omega), shapeCast_1ab_ab_apply]
theorem qHi_apply (r : Fin 512) (e : Fin 64) (l : Fin 128) (hl : l.val = 64 + e.val) : qHi q (ix2 r e) = q (ix3 (0 : Fin 1) r l) := by
  unfold qHi k1_pay2
  rw [slice2_axis1_apply 64 _ _ r e l hl, shapeCast_1ab_ab_apply]
theorem kvLo_apply (x : Vec Ideal S1x2048x128 .bf16) (r : Fin 2048) (e : Fin 64) (l : Fin 128) (hl : l.val = e.val) :
    kvLo x (ix2 r e) = x (ix3 (0 : Fin 1) r l) := by
  unfold kvLo k1_pay3
  rw [slice2_axis1_apply 0 _ _ r e l (by omega), shapeCast_1ab_ab_apply]
theorem kvHi_apply (x : Vec Ideal S1x2048x128 .bf16) (r : Fin 2048) (e : Fin 64) (l : Fin 128) (hl : l.val = 64 + e.val) :
    kvHi x (ix2 r e) = x (ix3 (0 : Fin 1) r l) := by
  unfold kvHi k1_pay3
  rw [slice2_axis1_apply 64 _ _ r e l hl, shapeCast_1ab_ab_apply]

/-- Lane 64·hh + e of a 128-lane block. -/
def lane (hh : Fin 2) (e : Fin 64) : Fin 128 := ⟨64 * hh.val + e.val, by have := hh.isLt; have := e.isLt; omega⟩

/-- The whole payload, named. -/
def pay : FVec Ideal S1x512x128 .bf16 := k1_pay1 (k1_pay5 q k v) (k1_pay6 v) (k1_pay7 q k) (k1_pay8 q k)

/-- THE STORED BLOCK AT (u, r, 64·hh + d): the context, at lane d, of head hh of the pair. -/
theorem pay_apply (u : Fin 1) (r : Fin 512) (hh : Fin 2) (d : Fin 64) (l : Fin 128) (hl : l.val = 64 * hh.val + d.val) (q0 : Fin 2048) :
    pay q k v (ix3 u r l)
      = Cert.Spec.ctx (fun _ e => q (ix3 (0 : Fin 1) r (lane hh e))) (fun k' e => k (ix3 (0 : Fin 1) k' (lane hh e)))
          (fun k' e => v (ix3 (0 : Fin 1) k' (lane hh e))) q0 d := by
  unfold pay
  rw [pay1_eq, shapeCast_ab_1ab_apply]
  match hh, hl with
  | ⟨0, _⟩, hl =>
    rw [Cert.Lib.concat_cols_left _ _ _ r d l (by simpa using hl), pay5_eq, head_apply _ _ _ r d q0]
    congr 1
    · funext _ e; exact qLo_apply q r e _ (by simp [lane])
    · funext k' e; exact kvLo_apply k k' e _ (by simp [lane])
    · funext k' e; exact kvLo_apply v k' e _ (by simp [lane])
  | ⟨1, _⟩, hl =>
    rw [Cert.Lib.concat_cols_right _ _ _ r d l (by simpa using hl), pay6_eq, pay7_eq, pay8_eq, head_apply _ _ _ r d q0]
    congr 1
    · funext _ e; exact qHi_apply q r e _ (by simp [lane])
    · funext k' e; exact kvHi_apply k k' e _ (by simp [lane])
    · funext k' e; exact kvHi_apply v k' e _ (by simp [lane])

end Cert.KernelIdeal.Val1

end
-- ==== Proof.Val.Region1Attn.lean ====
/-
  The stored block of the attention region in terms of one batch's projected rows P (2048 rows of 1536 numbers:
  queries in columns 0–511, keys in 512–1023, values in 1024–1535, each 8 heads of 64 lanes).

  At the grid point with query tile si and head pair h2 the query block holds rows si·512 … si·512 + 511 of P at
  columns h2·128 … h2·128 + 127, the key block all 2048 rows at columns (4 + h2)·128 …, the value block all rows at
  columns (8 + h2)·128 …. Lane l of a block belongs to head 2·h2 + l / 64 at head lane l mod 64, and column
  part·512 + head·64 + lane of P is block column (4·part + h2)·128 + l: so the stored block at row r and lane l is the
  specification's attention output of the batch at token si·512 + r and column h2·128 + l.
-/
import proofs.«140616_j7722351198230_2_alg».proof.Proof.Val.Region1Pay

noncomputable section

namespace Cert.KernelIdeal.Val1

open Cert.KernelIdeal Cert.KernelIdeal.Gen Idealize.ShloMosaic Idealize.ShloMosaic.ValueIdx

variable (q : Vec Ideal S1x512x128 .bf16) (k v : Vec Ideal S1x2048x128 .bf16)

/-- A head's context at query row s reads the query rows at s only. -/
theorem ctx_row (Q K W : Fin 2048 → Fin 64 → EReal) (s : Fin 2048) (d : Fin 64) :
    Cert.Spec.ctx Q K W s d = Cert.Spec.ctx (fun _ => Q s) K W s d := rfl

/-- THE STORED BLOCK AS THE BATCH'S ATTENTION: if the three loaded blocks are the stated rows and columns of P, the
    payload at (u, r, l) is the attention output at token s = si·512 + r and column f = h2·128 + l. -/
theorem pay_attn (P : Fin 2048 → Fin 1536 → EReal) (si h2 : Nat)
    (hq : ∀ (r : Fin 512) (l : Fin 128) (s : Fin 2048) (p : Fin 1536), s.val = si * 512 + r.val → p.val = h2 * 128 + l.val →
      q (ix3 (0 : Fin 1) r l) = P s p)
    (hk : ∀ (k' : Fin 2048) (l : Fin 128) (p : Fin 1536), p.val = (4 + h2) * 128 + l.val → k (ix3 (0 : Fin 1) k' l) = P k' p)
    (hv : ∀ (k' : Fin 2048) (l : Fin 128) (p : Fin 1536), p.val = (8 + h2) * 128 + l.val → v (ix3 (0 : Fin 1) k' l) = P k' p)
    (u : Fin 1) (r : Fin 512) (l : Fin 128) (s : Fin 2048) (f : Fin 512)
    (hs : s.val = si * 512 + r.val) (hf : f.val = h2 * 128 + l.val) :
    pay q k v (ix3 u r l) = Cert.Spec.attnBatch P s f := by
  have hl128 : l.val < 128 := l.isLt
  have hf512 : f.val < 512 := f.isLt
  have hl : l.val = 64 * (⟨l.val / 64, by omega⟩ : Fin 2).val + (⟨l.val % 64, by omega⟩ : Fin 64).val := by
    show l.val = 64 * (l.val / 64) + l.val % 64
    omega
  rw [pay_apply q k v u r ⟨l.val / 64, by omega⟩ ⟨l.val % 64, by omega⟩ l hl s]
  unfold Cert.Spec.attnBatch Cert.Spec.attnHead
  rw [ctx_row (fun q' e => P q' _)]
  have hd : (⟨l.val % 64, by omega⟩ : Fin 64) = ⟨f.val % 64, by omega⟩ := Fin.ext (by
    show l.val % 64 = f.val % 64
    omega)
  rw [hd]
  congr 1
  · funext _ e
    have he : e.val < 64 := e.isLt
    refine hq r _ s _ hs ?_
    show 0 * 512 + f.val / 64 * 64 + e.val = h2 * 128 + (64 * (l.val / 64) + e.val)
    omega
  · funext k' e
    have he : e.val < 64 := e.isLt
    refine hk k' _ _ ?_
    show 1 * 512 + f.val / 64 * 64 + e.val = (4 + h2) * 128 + (64 * (l.val / 64) + e.val)
    omega
  · funext k' e
    have he : e.val < 64 := e.isLt
    refine hv k' _ _ ?_
    show 2 * 512 + f.val / 64 * 64 + e.val = (8 + h2) * 128 + (64 * (l.val / 64) + e.val)
    omega

end Cert.KernelIdeal.Val1

end
-- ==== Proof.Val.Region1Grid.lean ====
/-
  Region 1's grid: which rows and columns of the projected array a grid point reads, which block of the attention
  output it writes, and that the 64 written blocks tile the output.

  A grid point has coordinates (b, h2, si): batch b, head pair h2, query tile si. It reads from the projected array
  [4, 2048, 1536] the query block (b, si, h2) of blocks of 1 × 512 × 128 — rows si·512 …, columns h2·128 … —, the key
  block (b, 0, 4 + h2) and the value block (b, 0, 8 + h2) of blocks of 1 × 2048 × 128 — all 2048 rows, columns
  (4 + h2)·128 … and (8 + h2)·128 … —, and writes block (b, si, h2), 1 × 512 × 128, of the output [4, 2048, 512]. Entry
  (b', s', f') of the output lies in the block of the point (b', f' / 128, s' / 512). So if what a point computes from
  its three blocks is, entry by entry, one function of the whole projected array read at the entry's place in the output,
  the output array ends holding that function.
-/
import proofs.«140616_j7722351198230_2_alg».proof.Proof.KI.Data1
import Idealize.ShloMosaic.Lib.Pipeline.Value
import Idealize.ShloMosaic.Lib.ValueIdx

set_option maxRecDepth 16384

noncomputable section

namespace Cert.KernelIdeal.Val1Grid

open Cert.KernelIdeal Cert.KernelIdeal.Gen Cert.KernelIdeal.Hand Idealize.ShloMosaic Idealize.ShloMosaic.TcCoe ValueIdx
open Idealize.ShloMosaic.Pipeline (Dat)

variable {F : FTy → Type} [FloatOps F]
variable (V : (c : Dev nD) → (b : Ref sig .tc) → Buf (Elt F) ((c : Thread nD τ).loc b))

/-- The batch of grid point t. -/
def batchOf (t : Fin cfg1.N) : Fin 4 := grid1.coords t 0
/-- The head pair of grid point t. -/
def pairOf (t : Fin cfg1.N) : Fin 4 := grid1.coords t 1
/-- The query tile of grid point t. -/
def tileOf (t : Fin cfg1.N) : Fin 4 := grid1.coords t 2

/-- The whole-buffer rectangles start at the origin. -/
theorem origin3 : (![0, 0, 0] : Fin 3 → Nat) = fun _ => 0 := funext fun a => by fin_cases a <;> rfl

/-- The four index maps over the 64 points: queries and output at block (b, si, h2), keys at (b, 0, 4 + h2), values at
    (b, 0, 8 + h2). -/
theorem block_index : ∀ t : Fin cfg1.N,
    win1_0.index t (0 : Fin 3) = (batchOf t).val ∧ win1_0.index t (1 : Fin 3) = (tileOf t).val
      ∧ win1_0.index t (2 : Fin 3) = (pairOf t).val
    ∧ win1_1.index t (0 : Fin 3) = (batchOf t).val ∧ win1_1.index t (1 : Fin 3) = 0
      ∧ win1_1.index t (2 : Fin 3) = 4 + (pairOf t).val
    ∧ win1_2.index t (0 : Fin 3) = (batchOf t).val ∧ win1_2.index t (1 : Fin 3) = 0
      ∧ win1_2.index t (2 : Fin 3) = 8 + (pairOf t).val
    ∧ win1_3.index t (0 : Fin 3) = (batchOf t).val ∧ win1_3.index t (1 : Fin 3) = (tileOf t).val
      ∧ win1_3.index t (2 : Fin 3) = (pairOf t).val :=
  (by decide +kernel : ∀ t : Fin grid1.N, _)

/-- Every output block (b, si, h2) is some point's. -/
theorem block_onto : ∀ (b si h2 : Fin 4), ∃ t : Fin cfg1.N, win1_3.index t = ![b.val, si.val, h2.val] :=
  (by decide +kernel : ∀ (b si h2 : Fin 4), ∃ t : Fin grid1.N, win1_3.index t = ![b.val, si.val, h2.val])

/-- The query block of point t: entry (0, r, l) is the projected array at batch b, row si·512 + r, column h2·128 + l. -/
theorem query_block (c : Dev nD) (t : Fin cfg1.N) (r : Fin 512) (l : Fin 128) (s : Fin 2048) (p : Fin 1536)
    (hs : s.val = (tileOf t).val * 512 + r.val) (hp : p.val = (pairOf t).val * 128 + l.val) :
    (iblk1 V c 0 t : Vec F S1x512x128 .bf16) (ix3 (0 : Fin 1) r l) = V c main_v5 (ix3 (batchOf t) s p) := by
  obtain ⟨e00, e01, e02, -⟩ := block_index t
  show V c main_v5 (((cfg1.win 0).blk t).view.emb (ix3 (0 : Fin 1) r l)) = V c main_v5 (ix3 (batchOf t) s p)
  refine congrArg _ (funext fun a => Fin.ext ?_)
  match a with
  | ⟨0, _⟩ => show win1_0.index t (0 : Fin 3) * 1 + 1 * 0 = (batchOf t).val; rw [e00]; omega
  | ⟨1, _⟩ => show win1_0.index t (1 : Fin 3) * 512 + 1 * r.val = s.val; rw [e01, hs]; omega
  | ⟨2, _⟩ => show win1_0.index t (2 : Fin 3) * 128 + 1 * l.val = p.val; rw [e02, hp]; omega

/-- The key block of point t: entry (0, k, l) is the projected array at batch b, row k, column (4 + h2)·128 + l. -/
theorem key_block (c : Dev nD) (t : Fin cfg1.N) (k : Fin 2048) (l : Fin 128) (p : Fin 1536)
    (hp : p.val = (4 + (pairOf t).val) * 128 + l.val) :
    (iblk1 V c 1 t : Vec F S1x2048x128 .bf16) (ix3 (0 : Fin 1) k l) = V c main_v5 (ix3 (batchOf t) k p) := by
  obtain ⟨-, -, -, e10, e11, e12, -⟩ := block_index t
  show V c main_v5 (((cfg1.win 1).blk t).view.emb (ix3 (0 : Fin 1) k l)) = V c main_v5 (ix3 (batchOf t) k p)
  refine congrArg _ (funext fun a => Fin.ext ?_)
  match a with
  | ⟨0, _⟩ => show win1_1.index t (0 : Fin 3) * 1 + 1 * 0 = (batchOf t).val; rw [e10]; omega
  | ⟨1, _⟩ => show win1_1.index t (1 : Fin 3) * 2048 + 1 * k.val = k.val; rw [e11]; omega
  | ⟨2, _⟩ => show win1_1.index t (2 : Fin 3) * 128 + 1 * l.val = p.val; rw [e12, hp]; omega

/-- The value block of point t: entry (0, k, l) is the projected array at batch b, row k, column (8 + h2)·128 + l. -/
theorem value_block (c : Dev nD) (t : Fin cfg1.N) (k : Fin 2048) (l : Fin 128) (p : Fin 1536)
    (hp : p.val = (8 + (pairOf t).val) * 128 + l.val) :
    (iblk1 V c 2 t : Vec F S1x2048x128 .bf16) (ix3 (0 : Fin 1) k l) = V c main_v5 (ix3 (batchOf t) k p) := by
  obtain ⟨-, -, -, -, -, -, e20, e21, e22, -⟩ := block_index t
  show V c main_v5 (((cfg1.win 2).blk t).view.emb (ix3 (0 : Fin 1) k l)) = V c main_v5 (ix3 (batchOf t) k p)
  refine congrArg _ (funext fun a => Fin.ext ?_)
  match a with
  | ⟨0, _⟩ => show win1_2.index t (0 : Fin 3) * 1 + 1 * 0 = (batchOf t).val; rw [e20]; omega
  | ⟨1, _⟩ => show win1_2.index t (1 : Fin 3) * 2048 + 1 * k.val = k.val; rw [e21]; omega
  | ⟨2, _⟩ => show win1_2.index t (2 : Fin 3) * 128 + 1 * l.val = p.val; rw [e22, hp]; omega

/-- An entry of the output array is in point t's block iff each coordinate is in the block's range on its axis. -/
theorem mem_block (t : Fin cfg1.N) (i : S4x2048x512.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v6).slice (win1_3.rect t)).set ↔ _
  rw [View.set_slice_whole, Rect.mem_set_unit]
  exact Iff.rfl

/-- The 64 blocks tile the output: entry (b', s', f') is in the block of the point (b', f' / 128, s' / 512). -/
theorem tiled (i : S4x2048x512.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 512 := (i 2).isLt
  obtain ⟨t, ht⟩ := block_onto ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_block]
  intro a
  match a with
  | ⟨0, _⟩ =>
    show win1_3.index t (0 : Fin 3) * 1 ≤ (i 0).val ∧ (i 0).val < win1_3.index t (0 : Fin 3) * 1 + 1
    rw [q0]; omega
  | ⟨1, _⟩ =>
    show win1_3.index t (1 : Fin 3) * 512 ≤ (i 1).val ∧ (i 1).val < win1_3.index t (1 : Fin 3) * 512 + 512
    rw [q1]; omega
  | ⟨2, _⟩ =>
    show win1_3.index t (2 : Fin 3) * 128 ≤ (i 2).val ∧ (i 2).val < win1_3.index t (2 : Fin 3) * 128 + 128
    rw [q2]; omega

/-- Where point t's output block puts its entry (0, r, l): batch b, row si·512 + r, column h2·128 + l. -/
theorem out_block_emb (t : Fin cfg1.N) (r : Fin 512) (l : Fin 128) (s : Fin 2048) (f : Fin 512)
    (hs : s.val = (tileOf t).val * 512 + r.val) (hf : f.val = (pairOf t).val * 128 + l.val) :
    ((cfg1.win 3).blk t).view.emb (ix3 (0 : Fin 1) r l) = (ix3 (batchOf t) s f : S4x2048x512.Idx) := by
  obtain ⟨-, -, -, -, -, -, -, -, -, e30, e31, e32⟩ := block_index t
  funext a
  apply Fin.ext
  match a with
  | ⟨0, _⟩ => show win1_3.index t (0 : Fin 3) * 1 + 1 * 0 = (batchOf t).val; rw [e30]; omega
  | ⟨1, _⟩ => show win1_3.index t (1 : Fin 3) * 512 + 1 * r.val = s.val; rw [e31, hs]; omega
  | ⟨2, _⟩ => show win1_3.index t (2 : Fin 3) * 128 + 1 * l.val = f.val; rw [e32, hf]; omega

/-- If what every point stores is, entry by entry, the array G read where the point's block puts the entry, the output
    array ends holding G. -/
theorem final1_of_stored (c : Dev nD) (G : Vec F S4x2048x512 .bf16)
    (hstored : ∀ (t : Fin cfg1.N) (r : Fin 512) (l : Fin 128) (s : Fin 2048) (f : Fin 512),
      s.val = (tileOf t).val * 512 + r.val → f.val = (pairOf t).val * 128 + l.val →
      out1_3 (iblk1 V c 0 t) (iblk1 V c 1 t) (iblk1 V c 2 t) (ix3 (0 : Fin 1) r l) = G (ix3 (batchOf t) s f)) :
    (dat1 V c).arrAt 3 cfg1.N = G := by
  refine (dat1 V c).arrAt_eq_of_cover 3 G (fun t _ => ?_) tiled
  show (cfg1.win 3).cut (grid1.coords t) ((dat1 V c).after 3 t) = _
  rw [after1_3]
  funext j
  obtain ⟨u, r, l, rfl⟩ : ∃ (u : Fin 1) (r : Fin 512) (l : Fin 128), (j : S1x512x128.Idx) = ix3 u r l :=
    ⟨j 0, j 1, j 2, eq_ix3 (n0 := 1) (n1 := 512) (n2 := 128) j⟩
  obtain rfl : u = 0 := Subsingleton.elim _ _
  have hi1 : (tileOf t).val * 512 + r.val < 2048 := by have := (tileOf t).isLt; have := r.isLt; omega
  have hi2 : (pairOf t).val * 128 + l.val < 512 := by have := (pairOf t).isLt; have := l.isLt; omega
  refine (hstored t r l ⟨_, hi1⟩ ⟨_, hi2⟩ rfl rfl).trans ?_
  show G _ = G (((cfg1.win 3).blk t).view.emb (ix3 (0 : Fin 1) r l))
  exact congrArg G (out_block_emb t r l ⟨_, hi1⟩ ⟨_, hi2⟩ rfl rfl).symm

/-- The same with the point's arithmetic as a hypothesis over ANY three blocks that are the parts of the projected array a
    point (b, h2, si) reads: if the payload of such blocks, at (0, r, l), is G at (b, si·512 + r, h2·128 + l), the output
    array ends holding G. -/
theorem final1_of_payload (c : Dev nD) (G : Vec F S4x2048x512 .bf16)
    (hpay : ∀ (b h2 si : Fin 4) (q : Vec F S1x512x128 .bf16) (k v : Vec F S1x2048x128 .bf16),
      (∀ (r : Fin 512) (l : Fin 128) (s : Fin 2048) (p : Fin 1536), s.val = si.val * 512 + r.val →
        p.val = h2.val * 128 + l.val → q (ix3 (0 : Fin 1) r l) = V c main_v5 (ix3 b s p)) →
      (∀ (k' : Fin 2048) (l : Fin 128) (p : Fin 1536), p.val = (4 + h2.val) * 128 + l.val →
        k (ix3 (0 : Fin 1) k' l) = V c main_v5 (ix3 b k' p)) →
      (∀ (k' : Fin 2048) (l : Fin 128) (p : Fin 1536), p.val = (8 + h2.val) * 128 + l.val →
        v (ix3 (0 : Fin 1) k' l) = V c main_v5 (ix3 b k' p)) →
      ∀ (r : Fin 512) (l : Fin 128) (s : Fin 2048) (f : Fin 512), s.val = si.val * 512 + r.val →
        f.val = h2.val * 128 + l.val →
        k1_pay1 (k1_pay5 q k v) (k1_pay6 v) (k1_pay7 q k) (k1_pay8 q k) (ix3 (0 : Fin 1) r l) = G (ix3 b s f)) :
    (dat1 V c).arrAt 3 cfg1.N = G := by
  refine final1_of_stored V c G fun t r l s f hs hf => ?_
  unfold out1_3
  rw [View.canon_unit_zero origin3]
  simp only [View.ld_unit_zero (S := S1x512x128) origin3, View.ld_unit_zero (S := S1x2048x128) origin3]
  exact hpay (batchOf t) (pairOf t) (tileOf t) (iblk1 V c 0 t) (iblk1 V c 1 t) (iblk1 V c 2 t)
    (fun r l s p hs hp => query_block V c t r l s p hs hp)
    (fun k' l p hp => key_block V c t k' l p hp)
    (fun k' l p hp => value_block V c t k' l p hp) r l s f hs hf

end Cert.KernelIdeal.Val1Grid

end
-- ==== Proof.Val.Region1.lean ====
/-
  The attention region's output array after its 64 grid points. Point (batch b, head pair h2, query tile si) stores
  the two-head payload of its query, key and value blocks into rows si·512 … si·512 + 511 and columns
  h2·128 … h2·128 + 127 of batch b; the blocks are the stated rows and columns of the batch's projected rows, so the
  stored entry at token s and column f is the specification's attention output there, and the 64 blocks tile the array.
-/
import proofs.«140616_j7722351198230_2_alg».proof.Proof.KI.Data1
import proofs.«140616_j7722351198230_2_alg».proof.Proof.Spec
import proofs.«140616_j7722351198230_2_alg».proof.Proof.Val.Region1Attn
import proofs.«140616_j7722351198230_2_alg».proof.Proof.Val.Region1Grid

set_option maxRecDepth 16384

noncomputable section

namespace Cert.KernelIdeal.Val1

open Cert.KernelIdeal Cert.KernelIdeal.Gen Cert.KernelIdeal.Hand Idealize.ShloMosaic Idealize.ShloMosaic.TcCoe
open Idealize.ShloMosaic.ValueIdx

variable (V : (c : Dev nD) → (b : Ref sig .tc) → Buf (Elt Ideal) ((c : Thread nD τ).loc b))

/-- Every batch's attention output as one array: entry (b, s, f) is batch b's output at token s, column f, from the
    batch's projected rows as the region finds them. -/
def attnArr (c : Dev nD) : Vec Ideal S4x2048x512 .bf16 :=
  fun i => Cert.Spec.attnBatch (fun s' p => V c main_v5 (ix3 (i 0) s' p)) (i 1) (i 2)

/-- The output array after the region is that array. -/
theorem arr1 (c : Dev nD) : (dat1 (F := Ideal) V c).arrAt 3 cfg1.N = attnArr V c :=
  Val1Grid.final1_of_payload (F := Ideal) V c (attnArr V c) (fun b h2 si q k v hq hk hv r l s f hs hf =>
    pay_attn q k v (fun s' p => V c main_v5 (ix3 b s' p)) si.val h2.val hq hk hv 0 r l s f hs hf)

/-- THE REGION'S VALUE: the output array at (b, s, f) is batch b's attention output at token s and column f. -/
theorem final1 (V : (c : Dev nD) → (b : Ref sig .tc) → Buf (Elt Ideal) ((c : Thread nD τ).loc b)) (c : Dev nD)
    (b : Fin 4) (s : Fin 2048) (f : Fin 512) :
    (dat1 (F := Ideal) V c).arrAt 3 cfg1.N (ix3 b s f)
      = Cert.Spec.attnBatch (fun s' p => V c main_v5 (ix3 b s' p)) s f := by
  rw [arr1]
  rfl

end Cert.KernelIdeal.Val1

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Val.Region2Pay.lean ====
/-
  Region 2's arithmetic, entry by entry. One grid point holds 1024 token rows. For row p the body forms
  v = x + (c · Woᵀ + bo) (the context row projected, the output bias, the token row added), takes the row's mean
  (the sum of its 512 entries divided by the word of 512), centres the row, takes the mean of the squared centred row,
  adds ε, takes the reciprocal square root, and scales and shifts lane by lane. The row statistics travel as a vector
  [1024], recast as a column [1024, 1] and spread back over the lanes; read at an entry they are the statistic of that
  entry's row. Every step below is stated over an arbitrary block so that it applies to whatever the step before left.
-/
import proofs.«140616_j7722351198230_2_alg».proof.Proof.Gen.KernelIdeal.Skeleton
import proofs.«140616_j7722351198230_2_alg».proof.Proof.LibPlainMatmul
import proofs.«140616_j7722351198230_2_alg».proof.Proof.Spec
import proofs.«140616_j7722351198230_2_alg».proof.Proof.LibColumnLayout

noncomputable section

namespace Cert.KernelIdeal.Val2

open Cert.KernelIdeal Cert.KernelIdeal.Gen Idealize.ShloMosaic Idealize.ShloMosaic.ValueIdx Cert.Lib

/-- The reduced index (p) with lane k put back on axis 1 is the entry (p, k). -/
theorem lift_row (p : Fin 1024) (k : Fin 512) :
    reduces_S1024x512_S1024.lift (ix1 p) k = (ix2 p k : S1024x512.Idx) := by
  funext a
  match a with
  | ⟨0, _⟩ => exact Fin.ext rfl
  | ⟨1, _⟩ => exact Fin.ext rfl

/-- A lane sum of a block, at row p: the sum of the row's 512 entries. -/
theorem rowSum_apply (v : FVec Ideal S1024x512 .f32) (p : Fin 1024) :
    multiReduction (F := Ideal) .add [1] S1024 v 0x00000000#32 reduces_S1024x512_S1024 (.inl rfl) rfl (ix1 p)
      = ∑ k : Fin 512, v (ix2 p k) :=
  (Ideal.multiReduction_add_single v 0x00000000#32 reduces_S1024x512_S1024 (.inl rfl) rfl (ix1 p)).trans
    (Finset.sum_congr rfl fun k _ => congrArg v (lift_row p k))

/-- The column of row means: the lane sums as a column, divided by the word of 512. -/
def meanCol (v : FVec Ideal S1024x512 .f32) : FVec Ideal S1024x1 .f32 :=
  divf (shapeCast S1024x1 (multiReduction (F := Ideal) .add [1] S1024 v 0x00000000#32 reduces_S1024x512_S1024 (.inl rfl) rfl)
      shapeCasts_S1024_S1024x1)
    (broadcast S1024x1 (Scalar.ofBits (F := Ideal) .f32 0x44000000#32))

theorem meanCol_apply (v : FVec Ideal S1024x512 .f32) (p : Fin 1024) (u : Fin 1) :
    meanCol v (ix2 p u) = Cert.Spec.mean (fun j => v (ix2 p j)) := by
  unfold meanCol Cert.Spec.mean Cert.Spec.n512
  rw [divf_apply, shapeCast_a_a1_apply, rowSum_apply]
  rfl

/-- The token row plus the projected context row plus the output bias, at (p, q). -/
def resid (x0 : Vec Ideal S1024x512 .bf16) (x1 : Vec Ideal S512x512 .bf16) (x2 : Vec Ideal S1x512 .f32)
    (x3 : Vec Ideal S1024x512 .f32) : FVec Ideal S1024x512 .f32 :=
  addf (shapeCast S1024x512 x3 shapeCasts_S1024x512_S1024x512)
    (addf (matmul dot_S1024x512_S512x512_S1024x512_1_0_0_1_n_n none
        (shapeCast S1024x512 x0 shapeCasts_S1024x512_S1024x512 : FVec Ideal S1024x512 .bf16)
        (shapeCast S512x512 x1 shapeCasts_S512x512_S512x512 : FVec Ideal S512x512 .bf16)
        (constant (F := Ideal) S1024x512 .f32 0x00000000#32))
      (broadcastTo S1024x512 (shapeCast S1x512 x2 shapeCasts_S1x512_S1x512) broadcasts_S1x512_S1024x512))

theorem dot_plain : dot_S1024x512_S512x512_S1024x512_1_0_0_1_n_n = DotDims.plain 1024 512 512 := rfl

theorem resid_apply (x0 : Vec Ideal S1024x512 .bf16) (x1 : Vec Ideal S512x512 .bf16) (x2 : Vec Ideal S1x512 .f32)
    (x3 : Vec Ideal S1024x512 .f32) (p : Fin 1024) (q : Fin 512) :
    resid x0 x1 x2 x3 (ix2 p q)
      = x3 (ix2 p q) + ((∑ f : Fin 512, x0 (ix2 p f) * x1 (ix2 f q)) + x2 (ix2 (0 : Fin 1) q)) := by
  unfold resid
  rw [addf_apply, addf_apply, shapeCast_self, shapeCast_self, shapeCast_self, shapeCast_self, dot_plain]
  rw [broadcastTo_1b_ab_apply]
  exact congrArg (fun s => x3 (ix2 p q) + (s + x2 (ix2 (0 : Fin 1) q)))
    (Cert.Lib.matmul_plain_zero_apply none x0 x1 p q)

/-- The normalisation of a block: centre each row by its mean, scale by the reciprocal root of the centred row's mean
    square plus ε, then the lane scale and the lane shift. -/
def norm (v : FVec Ideal S1024x512 .f32) (x4 x5 : Vec Ideal S1x512 .f32) : FVec Ideal S1024x512 .f32 :=
  have v17 : FVec Ideal S1024x512 .f32 := subf v (broadcastTo S1024x512 (meanCol v) broadcasts_S1024x1_S1024x512)
  addf (mulf (mulf v17
        (broadcastTo S1024x512
          (rsqrt (addf (meanCol (mulf v17 v17)) (broadcast S1024x1 (Scalar.ofBits (F := Ideal) .f32 0x3727C5AC#32))))
          broadcasts_S1024x1_S1024x512))
      (broadcastTo S1024x512 (shapeCast S1x512 x4 shapeCasts_S1x512_S1x512) broadcasts_S1x512_S1024x512))
    (broadcastTo S1024x512 (shapeCast S1x512 x5 shapeCasts_S1x512_S1x512) broadcasts_S1x512_S1024x512)

/-- The centred block at (p, q): the entry less its row's mean. -/
theorem centre_apply (v : FVec Ideal S1024x512 .f32) (p : Fin 1024) (q : Fin 512) :
    subf v (broadcastTo S1024x512 (meanCol v) broadcasts_S1024x1_S1024x512) (ix2 p q)
      = v (ix2 p q) - Cert.Spec.mean (fun j => v (ix2 p j)) := by
  rw [subf_apply, broadcastTo_a1_ab_apply, meanCol_apply]

theorem norm_apply (v : FVec Ideal S1024x512 .f32) (x4 x5 : Vec Ideal S1x512 .f32) (p : Fin 1024) (q : Fin 512) :
    norm v x4 x5 (ix2 p q)
      = (v (ix2 p q) - Cert.Spec.mean (fun j => v (ix2 p j)))
          * Ideal.rsqrt (Cert.Spec.mean (fun j => (v (ix2 p j) - Cert.Spec.mean (fun j => v (ix2 p j)))
              * (v (ix2 p j) - Cert.Spec.mean (fun j => v (ix2 p j)))) + Cert.Spec.eps)
          * x4 (ix2 (0 : Fin 1) q) + x5 (ix2 (0 : Fin 1) q) := by
  unfold norm
  rw [addf_apply, mulf_apply, mulf_apply, centre_apply, broadcastTo_a1_ab_apply, broadcastTo_1b_ab_apply,
    broadcastTo_1b_ab_apply, shapeCast_self, shapeCast_self]
  unfold Cert.Spec.eps
  refine congrArg (fun s => (v (ix2 p q) - Cert.Spec.mean (fun j => v (ix2 p j))) * s * x4 (ix2 (0 : Fin 1) q)
    + x5 (ix2 (0 : Fin 1) q)) ?_
  show Ideal.rsqrt (meanCol (mulf _ _) (ix2 p (0 : Fin 1)) + Ideal.ofBits .f32 0x3727C5AC#32) = _
  rw [meanCol_apply]
  simp only [mulf_apply, centre_apply]

/-- The body's payload is the normalisation of the residual block. -/
theorem pay_eq (x0 : Vec Ideal S1024x512 .bf16) (x1 : Vec Ideal S512x512 .bf16) (x2 : Vec Ideal S1x512 .f32)
    (x3 : Vec Ideal S1024x512 .f32) (x4 x5 : Vec Ideal S1x512 .f32) :
    k2_pay1 (F := Ideal) x0 x1 x2 x3 x4 x5 = norm (resid x0 x1 x2 x3) x4 x5 := rfl

/-- The payload at entry (p, q) is the output row of the specification, of row p of the context and token blocks,
    the output weights read transposed, and the three lane vectors, at lane q. -/
theorem pay_apply (x0 : Vec Ideal S1024x512 .bf16) (x1 : Vec Ideal S512x512 .bf16) (x2 : Vec Ideal S1x512 .f32)
    (x3 : Vec Ideal S1024x512 .f32) (x4 x5 : Vec Ideal S1x512 .f32) (p : Fin 1024) (q : Fin 512) :
    k2_pay1 (F := Ideal) x0 x1 x2 x3 x4 x5 (ix2 p q)
      = Cert.Spec.outRow (fun f => x0 (ix2 p f)) (fun j => x3 (ix2 p j)) (fun j f => x1 (ix2 f j))
          (fun j => x2 (ix2 (0 : Fin 1) j)) (fun j => x4 (ix2 (0 : Fin 1) j)) (fun j => x5 (ix2 (0 : Fin 1) j)) q := by
  rw [pay_eq, norm_apply]
  simp only [resid_apply]
  rfl

end Cert.KernelIdeal.Val2

end
-- ==== Proof.Val.Region2.lean ====
/-
  Region 2 as one function of the arrays it finds. The grid has eight points; point t reads rows 1024·t … 1024·t + 1023 of
  the context rows and of the token rows, the whole output weight matrix and the three lane vectors, and writes the same
  rows of the output. So entry (r, j) of the output array after the region is the output row of the specification, of
  row r of the context and token arrays, at lane j: the block of point r / 1024 covers it.
-/
import proofs.«140616_j7722351198230_2_alg».proof.Proof.KI.Data2
import proofs.«140616_j7722351198230_2_alg».proof.Proof.Spec
import proofs.«140616_j7722351198230_2_alg».proof.Proof.Val.Region2Pay
import Idealize.ShloMosaic.Lib.Pipeline.Value

noncomputable section

namespace Cert.KernelIdeal.Val2

open Cert.KernelIdeal Cert.KernelIdeal.Gen Cert.KernelIdeal.Hand Idealize.ShloMosaic Idealize.ShloMosaic.TcCoe
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array of region 2: at (r, j), the output row of row r of the context and token arrays, at lane j. -/
def rowsOut (c : Dev nD) : S8192x512.Idx → EReal := fun i =>
  Cert.Spec.outRow (fun f => V c main_v7 (ix2 (i 0) f)) (fun j' => V c main_v0 (ix2 (i 0) j'))
    (fun j' f => V c main_v9 (ix2 f j')) (fun j' => V c main_v10 (ix2 (0 : Fin 1) j'))
    (fun j' => V c main_v11 (ix2 (0 : Fin 1) j')) (fun j' => V c main_v12 (ix2 (0 : Fin 1) j')) (i 1)

/-- The printed index maps over the eight points: the row-blocked windows (context rows, token rows, output) are at
    block (t, 0), the whole-array windows (output weights, bias, scale, shift) at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The context block of point t at (p, f) is the context array at row 1024·t + p. -/
theorem ctxBlk_apply (c : Dev nD) (t : Fin cfg2.N) (p : Fin 1024) (f : Fin 512) (r : Fin 8192)
    (hr : r.val = t.val * 1024 + p.val) :
    (iblk2 V c 0 t : Vec Ideal S1024x512 .bf16) (ix2 p f) = V c main_v7 (ix2 r f) := by
  obtain ⟨e0, e1, -⟩ := idx_facts t
  unfold iblk2
  rw [View.read_apply]
  show V c main_v7 _ = V c main_v7 _
  congr 1
  funext a
  apply Fin.ext
  match a with
  | ⟨0, _⟩ => show win2_0.index t (0 : Fin 2) * 1024 + 1 * p.val = r.val; omega
  | ⟨1, _⟩ => show win2_0.index t (1 : Fin 2) * 512 + 1 * f.val = f.val; omega

/-- The token block of point t at (p, f) is the token array at row 1024·t + p. -/
theorem tokBlk_apply (c : Dev nD) (t : Fin cfg2.N) (p : Fin 1024) (f : Fin 512) (r : Fin 8192)
    (hr : r.val = t.val * 1024 + p.val) :
    (iblk2 V c 3 t : Vec Ideal S1024x512 .f32) (ix2 p f) = V c main_v0 (ix2 r f) := by
  obtain ⟨-, -, -, -, -, -, e0, e1, -⟩ := idx_facts t
  unfold iblk2
  rw [View.read_apply]
  show V c main_v0 _ = V c main_v0 _
  congr 1
  funext a
  apply Fin.ext
  match a with
  | ⟨0, _⟩ => show win2_3.index t (0 : Fin 2) * 1024 + 1 * p.val = r.val; omega
  | ⟨1, _⟩ => show win2_3.index t (1 : Fin 2) * 512 + 1 * f.val = f.val; omega

/-- The output weights' block at any point is the whole matrix. -/
theorem wBlk_apply (c : Dev nD) (t : Fin cfg2.N) (f j : Fin 512) :
    (iblk2 V c 1 t : Vec Ideal S512x512 .bf16) (ix2 f j) = V c main_v9 (ix2 f j) := by
  obtain ⟨-, -, e0, e1, -⟩ := idx_facts t
  unfold iblk2
  rw [View.read_apply]
  show V c main_v9 _ = V c main_v9 _
  congr 1
  funext a
  apply Fin.ext
  match a with
  | ⟨0, _⟩ => show win2_1.index t (0 : Fin 2) * 512 + 1 * f.val = f.val; omega
  | ⟨1, _⟩ => show win2_1.index t (1 : Fin 2) * 512 + 1 * j.val = j.val; omega

/-- The output bias's block at any point is the whole row. -/
theorem boBlk_apply (c : Dev nD) (t : Fin cfg2.N) (u : Fin 1) (j : Fin 512) :
    (iblk2 V c 2 t : Vec Ideal S1x512 .f32) (ix2 u j) = V c main_v10 (ix2 u j) := by
  obtain ⟨-, -, -, -, e0, e1, -⟩ := idx_facts t
  unfold iblk2
  rw [View.read_apply]
  show V c main_v10 _ = V c main_v10 _
  congr 1
  funext a
  apply Fin.ext
  match a with
  | ⟨0, _⟩ => show win2_2.index t (0 : Fin 2) * 1 + 1 * u.val = u.val; omega
  | ⟨1, _⟩ => show win2_2.index t (1 : Fin 2) * 512 + 1 * j.val = j.val; omega

/-- The lane scale's block at any point is the whole row. -/
theorem gBlk_apply (c : Dev nD) (t : Fin cfg2.N) (u : Fin 1) (j : Fin 512) :
    (iblk2 V c 4 t : Vec Ideal S1x512 .f32) (ix2 u j) = V c main_v11 (ix2 u j) := by
  obtain ⟨-, -, -, -, -, -, -, -, e0, e1, -⟩ := idx_facts t
  unfold iblk2
  rw [View.read_apply]
  show V c main_v11 _ = V c main_v11 _
  congr 1
  funext a
  apply Fin.ext
  match a with
  | ⟨0, _⟩ => show win2_4.index t (0 : Fin 2) * 1 + 1 * u.val = u.val; omega
  | ⟨1, _⟩ => show win2_4.index t (1 : Fin 2) * 512 + 1 * j.val = j.val; omega

/-- The lane shift's block at any point is the whole row. -/
theorem btBlk_apply (c : Dev nD) (t : Fin cfg2.N) (u : Fin 1) (j : Fin 512) :
    (iblk2 V c 5 t : Vec Ideal S1x512 .f32) (ix2 u j) = V c main_v12 (ix2 u j) := by
  obtain ⟨-, -, -, -, -, -, -, -, -, -, e0, e1, -⟩ := idx_facts t
  unfold iblk2
  rw [View.read_apply]
  show V c main_v12 _ = V c main_v12 _
  congr 1
  funext a
  apply Fin.ext
  match a with
  | ⟨0, _⟩ => show win2_5.index t (0 : Fin 2) * 1 + 1 * u.val = u.val; omega
  | ⟨1, _⟩ => show win2_5.index t (1 : Fin 2) * 512 + 1 * j.val = j.val; omega

/-- Block t of `rowsOut`, entry by entry: the output row of row p of the point's context and token blocks, with the
    point's copies of the weights and lane vectors, is `rowsOut` at row 1024·t + p. -/
theorem rowsOut_blk (c : Dev nD) (t : Fin cfg2.N) (p : Fin 1024) (q : Fin 512) (i : S8192x512.Idx)
    (h0 : (i 0).val = t.val * 1024 + p.val) (h1 : (i 1).val = q.val) :
    Cert.Spec.outRow (fun f => (iblk2 V c 0 t : Vec Ideal S1024x512 .bf16) (ix2 p f))
        (fun j => (iblk2 V c 3 t : Vec Ideal S1024x512 .f32) (ix2 p j))
        (fun j f => (iblk2 V c 1 t : Vec Ideal S512x512 .bf16) (ix2 f j))
        (fun j => (iblk2 V c 2 t : Vec Ideal S1x512 .f32) (ix2 (0 : Fin 1) j))
        (fun j => (iblk2 V c 4 t : Vec Ideal S1x512 .f32) (ix2 (0 : Fin 1) j))
        (fun j => (iblk2 V c 5 t : Vec Ideal S1x512 .f32) (ix2 (0 : Fin 1) j)) q
      = rowsOut V c i := by
  have a0 : (fun f => (iblk2 V c 0 t : Vec Ideal S1024x512 .bf16) (ix2 p f)) = fun f => V c main_v7 (ix2 (i 0) f) :=
    funext fun f => ctxBlk_apply V c t p f (i 0) h0
  have a3 : (fun j => (iblk2 V c 3 t : Vec Ideal S1024x512 .f32) (ix2 p j)) = fun j => V c main_v0 (ix2 (i 0) j) :=
    funext fun j => tokBlk_apply V c t p j (i 0) h0
  have a1 : (fun j f => (iblk2 V c 1 t : Vec Ideal S512x512 .bf16) (ix2 f j)) = fun j f => V c main_v9 (ix2 f j) :=
    funext fun j => funext fun f => wBlk_apply V c t f j
  have a2 : (fun j => (iblk2 V c 2 t : Vec Ideal S1x512 .f32) (ix2 (0 : Fin 1) j)) = fun j => V c main_v10 (ix2 (0 : Fin 1) j) :=
    funext fun j => boBlk_apply V c t 0 j
  have a4 : (fun j => (iblk2 V c 4 t : Vec Ideal S1x512 .f32) (ix2 (0 : Fin 1) j)) = fun j => V c main_v11 (ix2 (0 : Fin 1) j) :=
    funext fun j => gBlk_apply V c t 0 j
  have a5 : (fun j => (iblk2 V c 5 t : Vec Ideal S1x512 .f32) (ix2 (0 : Fin 1) j)) = fun j => V c main_v12 (ix2 (0 : Fin 1) j) :=
    funext fun j => btBlk_apply V c t 0 j
  rw [a0, a3, a1, a2, a4, a5]
  unfold rowsOut
  exact congrArg _ (Fin.ext h1.symm)

/-- What point t writes back is block t of `rowsOut`. -/
theorem flushed_eq (c : Dev nD) (t : Fin cfg2.N) :
    (dat2 (F := Ideal) V c).flushed 6 t = ((cfg2.win 6).blk t).view.read (Elt Ideal) (rowsOut V c) := by
  show (cfg2.win 6).cut (grid2.coords t) ((dat2 (F := Ideal) V c).after 6 t) = _
  rw [after2_6]
  unfold out2_6
  rw [View.canon_unit_zero hz]
  simp only [View.ld_unit_zero (S := S1024x512) hz, View.ld_unit_zero (S := S512x512) hz, View.ld_unit_zero (S := S1x512) hz]
  funext y
  have hy0 : (y 0).val < 1024 := (y 0).isLt
  have hy1 : (y 1).val < 512 := (y 1).isLt
  obtain ⟨-, -, -, -, -, -, -, -, -, -, -, -, e0, e1⟩ := idx_facts t
  have hx : (win2 6).xinj (grid2.coords t) y = ix2 (⟨(y 0).val, hy0⟩ : Fin 1024) (⟨(y 1).val, hy1⟩ : Fin 512) :=
    funext fun a => match a with | ⟨0, _⟩ => rfl | ⟨1, _⟩ => rfl
  refine (congrArg (k2_pay1 (F := Ideal) (iblk2 V c 0 t) (iblk2 V c 1 t) (iblk2 V c 2 t) (iblk2 V c 3 t) (iblk2 V c 4 t)
    (iblk2 V c 5 t)) hx).trans ?_
  refine (pay_apply (iblk2 V c 0 t) (iblk2 V c 1 t) (iblk2 V c 2 t) (iblk2 V c 3 t) (iblk2 V c 4 t) (iblk2 V c 5 t)
    ⟨(y 0).val, hy0⟩ ⟨(y 1).val, hy1⟩).trans ?_
  have h0 : ((((View.whole main_v13).slice ((win2 6).rect t)).emb y) 0).val = t.val * 1024 + (y 0).val := by
    show win2_6.index t (0 : Fin 2) * 1024 + 1 * (y 0).val = _; omega
  have h1 : ((((View.whole main_v13).slice ((win2 6).rect t)).emb y) 1).val = (y 1).val := by
    show win2_6.index t (1 : Fin 2) * 512 + 1 * (y 1).val = _; omega
  exact rowsOut_blk V c t ⟨(y 0).val, hy0⟩ ⟨(y 1).val, hy1⟩ _ h0 h1

/-- An index of the output array is in point t's block iff each coordinate is in the block's range on its axis. -/
theorem mem_blk (t : Fin cfg2.N) (i : S8192x512.Idx) :
    i ∈ ((cfg2.win 6).blk t).view.set ↔ ∀ a : Fin 2, win2_6.index t a * S1024x512.size a ≤ (i a).val
      ∧ (i a).val < win2_6.index t a * S1024x512.size a + S1024x512.size a := by
  show i ∈ ((View.whole main_v13).slice (win2_6.rect t)).set ↔ _
  rw [View.set_slice_whole, Rect.mem_set_unit]
  exact Iff.rfl

/-- Every entry of the output array is in some point's block: row r is in the block of point r / 1024. -/
theorem cover (i : S8192x512.Idx) :
    ∃ t : Fin cfg2.N, (cfg2.win 6).flush t = true ∧ i ∈ ((cfg2.win 6).blk t).view.set := by
  have hi0 : (i 0).val < 8192 := (i 0).isLt
  have hi1 : (i 1).val < 512 := (i 1).isLt
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, -, -, -, -, -, -, -, e0, e1⟩ := idx_facts t
  refine ⟨t, flush2_6 t, ?_⟩
  rw [mem_blk]
  intro a
  match a with
  | ⟨0, _⟩ =>
    show win2_6.index t (0 : Fin 2) * 1024 ≤ (i 0).val ∧ (i 0).val < win2_6.index t (0 : Fin 2) * 1024 + 1024
    omega
  | ⟨1, _⟩ =>
    show win2_6.index t (1 : Fin 2) * 512 ≤ (i 1).val ∧ (i 1).val < win2_6.index t (1 : Fin 2) * 512 + 512
    omega

/-- The output array after region 2 is `rowsOut`. -/
theorem arr_eq (c : Dev nD) : (dat2 (F := Ideal) V c).arrAt 6 cfg2.N = rowsOut V c :=
  (dat2 (F := Ideal) V c).arrAt_eq_of_cover 6 (rowsOut V c) (fun t _ => flushed_eq V c t) cover

/-- Entry (r, j) of the output array after region 2: the output row of the specification, of row r of the context
    array and of the token array, at lane j. -/
theorem final2 (c : Dev nD) (r : Fin 8192) (j : Fin 512) :
    (dat2 (F := Ideal) V c).arrAt 6 cfg2.N (ix2 r j)
      = Cert.Spec.outRow (fun f => V c main_v7 (ix2 r f)) (fun j' => V c main_v0 (ix2 r j')) (fun j' f => V c main_v9 (ix2 f j'))
          (fun j' => V c main_v10 (ix2 0 j')) (fun j' => V c main_v11 (ix2 0 j')) (fun j' => V c main_v12 (ix2 0 j')) j := by
  rw [arr_eq]
  rfl

end Cert.KernelIdeal.Val2

end
-- ==== Proof.Val.ChainFinal.lean ====
/-
  The kernel program's result at the ideal values: following the three regions and the host reshapes between them, the
  result array [4,2048,512] holds at (b, s, j) the function `Cert.Spec.final` of the seven argument arrays.
-/
import proofs.«140616_j7722351198230_2_alg».proof.Proof.Val.ChainHost
import proofs.«140616_j7722351198230_2_alg».proof.Proof.Val.Region0
import proofs.«140616_j7722351198230_2_alg».proof.Proof.Val.Region1
import proofs.«140616_j7722351198230_2_alg».proof.Proof.Val.Region2
import proofs.«140616_j7722351198230_2_alg».proof.Proof.Spec

set_option maxRecDepth 16384

noncomputable section

namespace Cert.KernelIdeal.Chain

open Idealize.ShloMosaic Idealize.ShloMosaic.TcCoe ValueIdx
open Idealize.SL.Sem
open Cert.KernelIdeal Cert.KernelIdeal.Gen Cert.KernelIdeal.Hand

variable (m : (ℓ : Loc nD τ sig) → Buf (Elt Ideal) ℓ)

/-- Region 0's output row b·2048 + s is the projection of token (b, s). -/
theorem proj_row (c : Dev nD) (b : Fin 4) (s : Fin 2048) (p : Fin 1536) :
    (X0 m c : S8192x1536.Idx → EReal) (ix2 (row b s) p)
      = Cert.Spec.projRow (fun d => (m ((c : Thread nD τ).loc main_arg0) : S4x2048x512.Idx → EReal) (ix3 b s d))
          (fun p' d => (m ((c : Thread nD τ).loc main_arg1) : S1536x512.Idx → EReal) (ix2 p' d))
          (fun p' => (m ((c : Thread nD τ).loc main_arg2) : S1536.Idx → EReal) (ix1 p')) p := by
  unfold X0
  rw [Cert.KernelIdeal.Val0.final0 (T1 m) c (row b s) p]
  have h0 : (fun d : Fin 512 => T1 m c main_v0 (ix2 (row b s) d))
      = fun d => (m ((c : Thread nD τ).loc main_arg0) : S4x2048x512.Idx → EReal) (ix3 b s d) := funext fun d => W1_v0 m c b s d
  have h1 : (fun (p' : Fin 1536) (d : Fin 512) => T1 m c main_v2 (ix2 d p'))
      = fun p' d => (m ((c : Thread nD τ).loc main_arg1) : S1536x512.Idx → EReal) (ix2 p' d) :=
    funext fun p' => funext fun d => W1_v2 m c d p'
  have h2 : (fun p' : Fin 1536 => T1 m c main_v3 (ix2 0 p'))
      = fun p' => (m ((c : Thread nD τ).loc main_arg2) : S1536.Idx → EReal) (ix1 p') := funext fun p' => W1_v3 m c p'
  rw [h0, h1, h2]

/-- Region 1's output at token (b, s) is the attention over batch b's projected rows. -/
theorem attn_row (c : Dev nD) (b : Fin 4) (s : Fin 2048) (f : Fin 512) :
    (X1 m c : S4x2048x512.Idx → EReal) (ix3 b s f)
      = Cert.Spec.attnBatch (fun s' p => Cert.Spec.projRow
          (fun d => (m ((c : Thread nD τ).loc main_arg0) : S4x2048x512.Idx → EReal) (ix3 b s' d))
          (fun p' d => (m ((c : Thread nD τ).loc main_arg1) : S1536x512.Idx → EReal) (ix2 p' d))
          (fun p' => (m ((c : Thread nD τ).loc main_arg2) : S1536.Idx → EReal) (ix1 p')) p) s f := by
  unfold X1
  rw [Cert.KernelIdeal.Val1.final1 (T3 m) c b s f]
  have h : (fun (s' : Fin 2048) (p : Fin 1536) => T3 m c main_v5 (ix3 b s' p))
      = fun s' p => Cert.Spec.projRow
          (fun d => (m ((c : Thread nD τ).loc main_arg0) : S4x2048x512.Idx → EReal) (ix3 b s' d))
          (fun p' d => (m ((c : Thread nD τ).loc main_arg1) : S1536x512.Idx → EReal) (ix2 p' d))
          (fun p' => (m ((c : Thread nD τ).loc main_arg2) : S1536.Idx → EReal) (ix1 p')) p :=
    funext fun s' => funext fun p => (W3_v5 m c b s' p).trans (proj_row m c b s' p)
  rw [h]

/-- The program's result at (b, s, j). -/
theorem kernel_final (c : Dev nD) (b : Fin 4) (s : Fin 2048) (j : Fin 512) :
    (W7 m c main_v14 : S4x2048x512.Idx → EReal) (ix3 b s j)
      = Cert.Spec.final (fun b s d => (m ((c : Thread nD τ).loc main_arg0) : S4x2048x512.Idx → EReal) (ix3 b s d))
          (fun p d => (m ((c : Thread nD τ).loc main_arg1) : S1536x512.Idx → EReal) (ix2 p d))
          (fun p => (m ((c : Thread nD τ).loc main_arg2) : S1536.Idx → EReal) (ix1 p))
          (fun j f => (m ((c : Thread nD τ).loc main_arg3) : S512x512.Idx → EReal) (ix2 j f))
          (fun j => (m ((c : Thread nD τ).loc main_arg4) : S512.Idx → EReal) (ix1 j))
          (fun j => (m ((c : Thread nD τ).loc main_arg5) : S512.Idx → EReal) (ix1 j))
          (fun j => (m ((c : Thread nD τ).loc main_arg6) : S512.Idx → EReal) (ix1 j)) b s j := by
  rw [W7_v14]
  unfold X2
  rw [Cert.KernelIdeal.Val2.final2 (T5 m) c (row b s) j]
  have h0 : (fun f : Fin 512 => T5 m c main_v7 (ix2 (row b s) f))
      = fun f => Cert.Spec.attnBatch (fun s' p => Cert.Spec.projRow
          (fun d => (m ((c : Thread nD τ).loc main_arg0) : S4x2048x512.Idx → EReal) (ix3 b s' d))
          (fun p' d => (m ((c : Thread nD τ).loc main_arg1) : S1536x512.Idx → EReal) (ix2 p' d))
          (fun p' => (m ((c : Thread nD τ).loc main_arg2) : S1536.Idx → EReal) (ix1 p')) p) s f :=
    funext fun f => (W5_v7 m c b s f).trans (attn_row m c b s f)
  have h1 : (fun j' : Fin 512 => T5 m c main_v0 (ix2 (row b s) j'))
      = fun j' => (m ((c : Thread nD τ).loc main_arg0) : S4x2048x512.Idx → EReal) (ix3 b s j') :=
    funext fun j' => by
      show (W5 m c main_v0 : S8192x512.Idx → EReal) (ix2 (row b s) j') = _
      rw [W5_v0]; exact W1_v0 m c b s j'
  have h2 : (fun (j' f : Fin 512) => T5 m c main_v9 (ix2 f j'))
      = fun j' f => (m ((c : Thread nD τ).loc main_arg3) : S512x512.Idx → EReal) (ix2 j' f) :=
    funext fun j' => funext fun f => W5_v9 m c f j'
  have h3 : (fun j' : Fin 512 => T5 m c main_v10 (ix2 0 j'))
      = fun j' => (m ((c : Thread nD τ).loc main_arg4) : S512.Idx → EReal) (ix1 j') := funext fun j' => W5_v10 m c j'
  have h4 : (fun j' : Fin 512 => T5 m c main_v11 (ix2 0 j'))
      = fun j' => (m ((c : Thread nD τ).loc main_arg5) : S512.Idx → EReal) (ix1 j') := funext fun j' => W5_v11 m c j'
  have h5 : (fun j' : Fin 512 => T5 m c main_v12 (ix2 0 j'))
      = fun j' => (m ((c : Thread nD τ).loc main_arg6) : S512.Idx → EReal) (ix1 j') := funext fun j' => W5_v12 m c j'
  rw [h0, h1, h2, h3, h4, h5]
  rfl

end Cert.KernelIdeal.Chain

end
-- ==== Proof.Val.ReferenceProj.lean ====
import proofs.«140616_j7722351198230_2_alg».proof.Proof.Gen.ReferenceIdeal.Read
import proofs.«140616_j7722351198230_2_alg».proof.Proof.Spec

/-
  The reference's projection stage: every token row times the combined weight matrix plus the bias, and the three
  column blocks of the result (queries, keys, values) re-laid as [batch, head, token, lane].
-/

noncomputable section

namespace Cert.ReferenceIdeal.RefValue

open Cert.ReferenceIdeal Cert.ReferenceIdeal.Read Idealize.ShloMosaic Idealize.ShloMosaic.ValueIdx

/-- The projected rows of batch `b`: token `s`, column `p`. -/
abbrev P (a0 : FVec Ideal S4x2048x512 .f32) (a1 : FVec Ideal S1536x512 .f32) (a2 : FVec Ideal S1536 .f32) (b : Fin 4) :
    Fin 2048 → Fin 1536 → EReal :=
  fun s p => Cert.Spec.projRow (fun d => a0 (ix3 b s d)) (fun p d => a1 (ix2 p d)) (fun p => a2 (ix1 p)) p

/-- The projection at batch `b`, token `s`, column `p`. -/
theorem proj_apply (a0 : FVec Ideal S4x2048x512 .f32) (a1 : FVec Ideal S1536x512 .f32) (a2 : FVec Ideal S1536 .f32)
    (b : Fin 4) (s : Fin 2048) (p : Fin 1536) :
    val_main_v3 (F := Ideal) a0 a1 a2 (ix3 b s p) = P a0 a1 a2 b s p := by
  rw [val_main_v3_apply, val_main_v0_apply, val_main_v2_apply, val_main_v1_apply]
  have el : ∀ k : Fin 512, lidx_main_v0 (ix3 b s p) k = ix3 b s k := fun k => funext fun a => by
    match a with | ⟨0, _⟩ => rfl | ⟨1, _⟩ => rfl | ⟨2, _⟩ => rfl
  have er : ∀ k : Fin 512, ridx_main_v0 (ix3 b s p) k = ix2 p k := fun k => funext fun a => by
    match a with | ⟨0, _⟩ => rfl | ⟨1, _⟩ => rfl
  have eb : idx_main_v1 (idx_main_v2 (ix3 b s p)) = ix1 p := funext fun a => by
    match a with | ⟨0, _⟩ => rfl
  simp only [el, er, eb, Ideal.addf_def]
  rfl

end Cert.ReferenceIdeal.RefValue

end
-- ==== Proof.Val.ReferenceHeads.lean ====
import proofs.«140616_j7722351198230_2_alg».proof.Proof.Val.ReferenceProj
import proofs.«140616_j7722351198230_2_alg».proof.Proof.Spec

/-
  The three column blocks of the projected rows, split into 8 heads of 64 lanes and re-laid as
  [batch, head, token, lane]: entry (b, h, s, e) is column part·512 + h·64 + e of token s's projected row.
-/

noncomputable section

namespace Cert.ReferenceIdeal.RefValue

open Cert.ReferenceIdeal Cert.ReferenceIdeal.Read Idealize.ShloMosaic Idealize.ShloMosaic.ValueIdx

variable (a0 : FVec Ideal S4x2048x512 .f32) (a1 : FVec Ideal S1536x512 .f32) (a2 : FVec Ideal S1536 .f32)

/-- The queries: column block 0. -/
theorem q_apply (b : Fin 4) (h : Fin 8) (s : Fin 2048) (e : Fin 64) :
    val_main_v8 (F := Ideal) a0 a1 a2 (ix4 b h s e) = P a0 a1 a2 b s (Cert.Spec.col 0 h e) := by
  rw [val_main_v8_apply, val_main_v7_apply, val_main_v4_apply]
  have hb := b.isLt; have hh := h.isLt; have hs := s.isLt; have he := e.isLt
  have ei : idx_main_v4 (idx_main_v7 (idx_main_v8 (ix4 b h s e))) = ix3 b s (Cert.Spec.col 0 h e) := funext fun a => Fin.ext (by
    match a with
    | ⟨0, _⟩ => show (((b.val * 2048 + s.val) * 8 + h.val) * 64 + e.val) / 1048576 = b.val; omega
    | ⟨1, _⟩ => show (((b.val * 2048 + s.val) * 8 + h.val) * 64 + e.val) / 512 % 2048 = s.val; omega
    | ⟨2, _⟩ => show (((b.val * 2048 + s.val) * 8 + h.val) * 64 + e.val) % 512 = 0 * 512 + h.val * 64 + e.val; omega)
  rw [ei, proj_apply]

/-- The keys: column block 1. -/
theorem k_apply (b : Fin 4) (h : Fin 8) (s : Fin 2048) (e : Fin 64) :
    val_main_v10 (F := Ideal) a0 a1 a2 (ix4 b h s e) = P a0 a1 a2 b s (Cert.Spec.col 1 h e) := by
  rw [val_main_v10_apply, val_main_v9_apply, val_main_v5_apply]
  have hb := b.isLt; have hh := h.isLt; have hs := s.isLt; have he := e.isLt
  have ei : idx_main_v5 (idx_main_v9 (idx_main_v10 (ix4 b h s e))) = ix3 b s (Cert.Spec.col 1 h e) := funext fun a => Fin.ext (by
    match a with
    | ⟨0, _⟩ => show (((b.val * 2048 + s.val) * 8 + h.val) * 64 + e.val) / 1048576 = b.val; omega
    | ⟨1, _⟩ => show (((b.val * 2048 + s.val) * 8 + h.val) * 64 + e.val) / 512 % 2048 = s.val; omega
    | ⟨2, _⟩ => show 512 + (((b.val * 2048 + s.val) * 8 + h.val) * 64 + e.val) % 512 = 1 * 512 + h.val * 64 + e.val; omega)
  rw [ei, proj_apply]

/-- The values: column block 2. -/
theorem v_apply (b : Fin 4) (h : Fin 8) (s : Fin 2048) (e : Fin 64) :
    val_main_v12 (F := Ideal) a0 a1 a2 (ix4 b h s e) = P a0 a1 a2 b s (Cert.Spec.col 2 h e) := by
  rw [val_main_v12_apply, val_main_v11_apply, val_main_v6_apply]
  have hb := b.isLt; have hh := h.isLt; have hs := s.isLt; have he := e.isLt
  have ei : idx_main_v6 (idx_main_v11 (idx_main_v12 (ix4 b h s e))) = ix3 b s (Cert.Spec.col 2 h e) := funext fun a => Fin.ext (by
    match a with
    | ⟨0, _⟩ => show (((b.val * 2048 + s.val) * 8 + h.val) * 64 + e.val) / 1048576 = b.val; omega
    | ⟨1, _⟩ => show (((b.val * 2048 + s.val) * 8 + h.val) * 64 + e.val) / 512 % 2048 = s.val; omega
    | ⟨2, _⟩ => show 1024 + (((b.val * 2048 + s.val) * 8 + h.val) * 64 + e.val) % 512 = 2 * 512 + h.val * 64 + e.val; omega)
  rw [ei, proj_apply]

end Cert.ReferenceIdeal.RefValue

end
-- ==== Proof.LibRsqrtBlocks.lean ====
/-
  Two general facts about the extended reals, with no program in sight.

  * `Cert.Lib.mul_rsqrt_eq_div_sqrt`: at the ideal instance, a value times the reciprocal square root of `v` is the value
    divided by the square root of `v`, for EVERY extended real value and every `0 < v ≤ +∞` (at `v = +∞` both sides are
    `0`). With `Cert.Lib.mul_self_nonneg` (a square is nonnegative, infinite values included) this joins a normaliser
    written `(x − mean) · rsqrt (var + ε)` to one written `(x − mean) / sqrt (var + ε)` without any finiteness: a variance
    is a sum of squares over a positive real, so `var + ε > 0` for `ε > 0`.
  * `Cert.Lib.sum_blocks` / `Cert.Lib.sum_div_mod`: a sum over `N = a · b` consecutive indices is the double sum over `a`
    blocks of `b` (`Cert.Lib.blockEquiv a b : Fin a × Fin b ≃ Fin N`, `(i, j) ↦ i · b + j`, inverse `k ↦ (k / b, k % b)`):
    a contraction accumulated block by block over a grid axis against one whole contraction, or heads laid side by
    side against the concatenated lanes. Stated for sums in the extended reals; only commutativity and associativity
    of `+` are used.

  Imports only the ideal instance's operations.
-/
import Idealize.ShloMosaic.PureOps.Ideal

noncomputable section

open scoped BigOperators

namespace Cert.Lib

open Idealize.ShloMosaic

/-- A square is nonnegative on the extended reals: `(±∞)·(±∞) = +∞`. -/
theorem mul_self_nonneg (y : EReal) : 0 ≤ y * y := by
  induction y using EReal.rec with
  | bot => simp [EReal.bot_mul_bot]
  | top => simp [EReal.top_mul_top]
  | coe r => rw [← EReal.coe_mul]; exact_mod_cast _root_.mul_self_nonneg r

/-- Times the reciprocal square root is over the square root, for every `x` and every `0 < v ≤ +∞`. -/
theorem mul_rsqrt_eq_div_sqrt (x v : EReal) (hv : 0 < v) : x * Ideal.rsqrt v = Ideal.div x (Ideal.sqrt v) := by
  induction v using EReal.rec with
  | bot => exact absurd hv (by simp)
  | top =>
    show x * (0 : EReal) = Ideal.div x ⊤
    rw [mul_zero, Ideal.div, if_neg EReal.top_ne_zero, EReal.inv_top, mul_zero]
  | coe r =>
    have hr : 0 < r := by exact_mod_cast hv
    have hs : Real.sqrt r ≠ 0 := (Real.sqrt_pos.mpr hr).ne'
    have hs' : ((Real.sqrt r : ℝ) : EReal) ≠ 0 := by exact_mod_cast hs
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le), Ideal.div, if_neg hs', EReal.coe_inv]

/-! ## A long sum as blocks -/

/-- `a` blocks of `b` consecutive indices. -/
def blockEquiv {N : ℕ} (a b : ℕ) (hb : 0 < b) (hN : N = a * b) : Fin a × Fin b ≃ Fin N where
  toFun p := ⟨p.1.val * b + p.2.val, by
    subst hN
    calc p.1.val * b + p.2.val < p.1.val * b + b := Nat.add_lt_add_left p.2.isLt _
      _ = (p.1.val + 1) * b := (Nat.succ_mul _ _).symm
      _ ≤ a * b := Nat.mul_le_mul_right _ p.1.isLt⟩
  invFun k := (⟨k.val / b, (Nat.div_lt_iff_lt_mul hb).mpr (hN ▸ k.isLt)⟩, ⟨k.val % b, Nat.mod_lt _ hb⟩)
  left_inv p := by
    refine Prod.ext (Fin.ext ?_) (Fin.ext ?_)
    · show (p.1.val * b + p.2.val) / b = p.1.val
      rw [Nat.add_comm, Nat.add_mul_div_right _ _ hb, Nat.div_eq_of_lt p.2.isLt, Nat.zero_add]
    · show (p.1.val * b + p.2.val) % b = p.2.val
      rw [Nat.add_comm, Nat.add_mul_mod_self_right, Nat.mod_eq_of_lt p.2.isLt]
  right_inv k := Fin.ext (Nat.div_add_mod' k.val b)

/-- A sum over `a · b` consecutive indices, block by block. -/
theorem sum_blocks {N : ℕ} (a b : ℕ) (hb : 0 < b) (hN : N = a * b) (f : Fin N → EReal) :
    ∑ k, f k = ∑ i : Fin a, ∑ j : Fin b, f (blockEquiv a b hb hN (i, j)) := by
  rw [← (blockEquiv a b hb hN).sum_comp, Fintype.sum_prod_type]

/-- The same with the summand written over (block, position): `k` is in block `k / b` at position `k % b`. -/
theorem sum_div_mod {N : ℕ} (a b : ℕ) (hb : 0 < b) (hN : N = a * b) (g : Fin a → Fin b → EReal) :
    ∑ k : Fin N, g ((blockEquiv a b hb hN).symm k).1 ((blockEquiv a b hb hN).symm k).2 = ∑ i : Fin a, ∑ j : Fin b, g i j := by
  rw [sum_blocks a b hb hN]
  refine Finset.sum_congr rfl fun i _ => Finset.sum_congr rfl fun j _ => ?_
  rw [Equiv.symm_apply_apply]

end Cert.Lib

end
-- ==== Proof.Val.ReferenceConsts.lean ====
import proofs.«140616_j7722351198230_2_alg».proof.Proof.Spec
import proofs.«140616_j7722351198230_2_alg».proof.Proof.LibRsqrtBlocks

/-
  The float words the reference spells, as the extended reals they denote, and the two laws that join the
  reference's spelling to the specification's: dividing by the square root of 64 is multiplying by 1/8, and a
  variance plus ε is positive, so dividing by its square root is multiplying by its reciprocal square root.
-/

noncomputable section

namespace Cert.ReferenceIdeal.RefValue

open Idealize.ShloMosaic

/-- The word of 64. -/
theorem ofBits_64 : Ideal.ofBits .f32 0x42800000#32 = ((64 : ℝ) : EReal) := by
  simp [Ideal.ofBits, Ideal.ieee, -EReal.coe_mul]; norm_num

/-- The score scale is 1/8. -/
theorem scale_eq : Cert.Spec.scale = ((1 / 8 : ℝ) : EReal) := by
  unfold Cert.Spec.scale
  simp [Ideal.ofBits, Ideal.ieee, -EReal.coe_mul]; norm_num

/-- The word of 512. -/
theorem n512_eq : Cert.Spec.n512 = ((512 : ℝ) : EReal) := by
  unfold Cert.Spec.n512
  simp [Ideal.ofBits, Ideal.ieee, -EReal.coe_mul]; norm_num

/-- ε is positive. -/
theorem eps_pos : 0 < Cert.Spec.eps := by
  unfold Cert.Spec.eps
  simp [Ideal.ofBits, Ideal.ieee, -EReal.coe_mul]

/-- Dividing by √64 is multiplying by 1/8, on every extended real. -/
theorem div_sqrt64 (x : EReal) :
    Ideal.div x (Ideal.sqrt (Ideal.ofBits .f32 0x42800000#32)) = x * Cert.Spec.scale := by
  have h8 : Real.sqrt 64 = 8 := by
    rw [show (64 : ℝ) = 8 ^ 2 by norm_num]; exact Real.sqrt_sq (by norm_num)
  rw [ofBits_64, Ideal.sqrt_coe, if_neg (by norm_num), h8, Ideal.div_coe (by norm_num : (8 : ℝ) ≠ 0), scale_eq]

/-- The mean of nonnegative numbers is nonnegative. -/
theorem mean_nonneg (v : Fin 512 → EReal) (hv : ∀ j, 0 ≤ v j) : 0 ≤ Cert.Spec.mean v := by
  unfold Cert.Spec.mean
  rw [n512_eq, Ideal.div_coe (by norm_num : (512 : ℝ) ≠ 0)]
  refine mul_nonneg (Finset.sum_nonneg fun j _ => hv j) ?_
  exact_mod_cast (by norm_num : (0 : ℝ) ≤ 1 / 512)

/-- A mean of squares plus ε is positive. -/
theorem var_eps_pos (dv : Fin 512 → EReal) : 0 < Cert.Spec.mean (fun j => dv j * dv j) + Cert.Spec.eps :=
  lt_of_lt_of_le eps_pos (le_add_of_nonneg_left (mean_nonneg _ fun j => Cert.Lib.mul_self_nonneg (dv j)))

/-- The normaliser's quotient by the standard deviation is the product with its reciprocal. -/
theorem div_sqrt_var (x : EReal) (dv : Fin 512 → EReal) :
    Ideal.div x (Ideal.sqrt (Cert.Spec.mean (fun j => dv j * dv j) + Cert.Spec.eps))
      = x * Ideal.rsqrt (Cert.Spec.mean (fun j => dv j * dv j) + Cert.Spec.eps) :=
  (Cert.Lib.mul_rsqrt_eq_div_sqrt x _ (var_eps_pos dv)).symm

end Cert.ReferenceIdeal.RefValue

end
-- ==== Proof.Val.ReferenceScores.lean ====
import proofs.«140616_j7722351198230_2_alg».proof.Proof.Val.ReferenceHeads
import proofs.«140616_j7722351198230_2_alg».proof.Proof.Val.ReferenceConsts

/-
  The reference's scores: within batch b and head h, query row q against key row k, the 64-lane inner product
  divided by √64 — the specification's product with 1/8.
-/

noncomputable section

namespace Cert.ReferenceIdeal.RefValue

open Cert.ReferenceIdeal Cert.ReferenceIdeal.Read Idealize.ShloMosaic Idealize.ShloMosaic.ValueIdx

variable (a0 : FVec Ideal S4x2048x512 .f32) (a1 : FVec Ideal S1536x512 .f32) (a2 : FVec Ideal S1536 .f32)

/-- Head h of batch b: the queries as [token, lane]. -/
abbrev Qh (b : Fin 4) (h : Fin 8) : Fin 2048 → Fin 64 → EReal := fun q e => P a0 a1 a2 b q (Cert.Spec.col 0 h e)
/-- Head h of batch b: the keys as [token, lane]. -/
abbrev Kh (b : Fin 4) (h : Fin 8) : Fin 2048 → Fin 64 → EReal := fun k e => P a0 a1 a2 b k (Cert.Spec.col 1 h e)
/-- Head h of batch b: the values as [token, lane]. -/
abbrev Vh (b : Fin 4) (h : Fin 8) : Fin 2048 → Fin 64 → EReal := fun k e => P a0 a1 a2 b k (Cert.Spec.col 2 h e)

/-- The scaled score of query q against key k. -/
theorem score_apply (b : Fin 4) (h : Fin 8) (q k : Fin 2048) :
    val_main_v16 (F := Ideal) a0 a1 a2 (ix4 b h q k) = Cert.Spec.score (Qh a0 a1 a2 b h) (Kh a0 a1 a2 b h) q k := by
  rw [val_main_v16_apply, val_main_v13_apply, val_main_v15_apply, val_main_v14_apply, val_main_cst_apply]
  have el : ∀ e : Fin 64, lidx_main_v13 (ix4 b h q k) e = ix4 b h q e := fun e => funext fun a => by
    match a with | ⟨0, _⟩ => rfl | ⟨1, _⟩ => rfl | ⟨2, _⟩ => rfl | ⟨3, _⟩ => rfl
  have er : ∀ e : Fin 64, ridx_main_v13 (ix4 b h q k) e = ix4 b h k e := fun e => funext fun a => by
    match a with | ⟨0, _⟩ => rfl | ⟨1, _⟩ => rfl | ⟨2, _⟩ => rfl | ⟨3, _⟩ => rfl
  simp only [el, er, q_apply, k_apply, Ideal.hostDivf_def, Ideal.hostUnary_sqrt_def, Ideal.ofBits_def]
  exact div_sqrt64 _

end Cert.ReferenceIdeal.RefValue

end
-- ==== Proof.Val.ReferenceSoftmax.lean ====
import proofs.«140616_j7722351198230_2_alg».proof.Proof.Val.ReferenceScores

/-
  The reference's softmax: the row maximum (a maximum over the key axis started from −∞, then once more against
  −∞), the shifted exponentials, their row sum from zero, and the quotient.
-/

noncomputable section

namespace Cert.ReferenceIdeal.RefValue

open Cert.ReferenceIdeal Cert.ReferenceIdeal.Gen Cert.ReferenceIdeal.Read Idealize.ShloMosaic Idealize.ShloMosaic.ValueIdx

/-- A maximum over the last axis, from the initial value's element, is the fold of `max` along the row. -/
theorem reduce_max_row (y : FVec Ideal S4x8x2048x2048 .f32) (init : FVec Ideal S_ .f32) (b : Fin 4) (h : Fin 8) (q : Fin 2048) :
    Host.reduce FloatOps.maximumf y init reducesTo_S4x8x2048x2048_S4x8x2048_d3 h_S_ (ix3 b h q)
      = Finset.univ.fold max (init (Shape.Idx.first h_S_)) (fun k : Fin 2048 => y (ix4 b h q k)) := by
  have hR : S4x8x2048x2048.Reduces [3] S4x8x2048 := by decide
  rw [Host.reduce_eq_fold_single FloatOps.maximumf y init reducesTo_S4x8x2048x2048_S4x8x2048_d3 hR h_S_]
  have e : (y ∘ hR.lift (ix3 b h q)) = fun k : Fin 2048 => y (ix4 b h q k) := funext fun k => congrArg y (funext fun a => Fin.ext (by
    match a with | ⟨0, _⟩ => rfl | ⟨1, _⟩ => rfl | ⟨2, _⟩ => rfl | ⟨3, _⟩ => rfl))
  rw [e]
  rfl

variable (a0 : FVec Ideal S4x2048x512 .f32) (a1 : FVec Ideal S1536x512 .f32) (a2 : FVec Ideal S1536 .f32)

/-- The row maximum of query q's scores. -/
theorem rowmax_apply (b : Fin 4) (h : Fin 8) (q : Fin 2048) :
    val_main_v19 (F := Ideal) a0 a1 a2 (ix3 b h q)
      = Cert.Spec.rowMax (Cert.Spec.score (Qh a0 a1 a2 b h) (Kh a0 a1 a2 b h) q) := by
  rw [val_main_v19_apply, val_main_v18_apply, val_main_cst_1_apply]
  unfold val_main_v17
  rw [reduce_max_row, val_main_cst_0_apply]
  simp only [score_apply, Ideal.maximumf_def, Ideal.ofBits_def]
  exact max_eq_right ((Finset.le_fold_max _).mpr (Or.inl le_rfl))

/-- The shifted exponential of score (q, k). -/
theorem expo_apply (b : Fin 4) (h : Fin 8) (q k : Fin 2048) :
    val_main_v23 (F := Ideal) a0 a1 a2 (ix4 b h q k)
      = Cert.Spec.expo (Qh a0 a1 a2 b h) (Kh a0 a1 a2 b h) q k := by
  rw [val_main_v23_apply, val_main_v22_apply, val_main_v21_apply, val_main_v20_apply]
  have e : idx_main_v20 (idx_main_v21 (ix4 b h q k)) = ix3 b h q := funext fun a => by
    match a with | ⟨0, _⟩ => rfl | ⟨1, _⟩ => rfl | ⟨2, _⟩ => rfl
  rw [e, rowmax_apply, score_apply]
  rfl

/-- The softmax weight of key k for query q. -/
theorem weight_apply (b : Fin 4) (h : Fin 8) (q k : Fin 2048) :
    val_main_v27 (F := Ideal) a0 a1 a2 (ix4 b h q k)
      = Cert.Spec.weight (Qh a0 a1 a2 b h) (Kh a0 a1 a2 b h) q k := by
  rw [val_main_v27_apply, val_main_v26_apply, val_main_v25_apply]
  have e : idx_main_v25 (idx_main_v26 (ix4 b h q k)) = ix3 b h q := funext fun a => by
    match a with | ⟨0, _⟩ => rfl | ⟨1, _⟩ => rfl | ⟨2, _⟩ => rfl
  have e2 : ∀ k' : Fin 2048, idx_main_v24 (ix3 b h q) k' = ix4 b h q k' := fun k' => funext fun a => by
    match a with | ⟨0, _⟩ => rfl | ⟨1, _⟩ => rfl | ⟨2, _⟩ => rfl | ⟨3, _⟩ => rfl
  rw [e, val_main_v24_apply, val_main_cst_2_apply]
  simp only [e2, expo_apply, Ideal.hostDivf_def, Ideal.ofBits_def, Ideal.ofBits_zero_f32, zero_add]
  rfl

end Cert.ReferenceIdeal.RefValue

end
-- ==== Proof.Val.ReferenceContext.lean ====
import proofs.«140616_j7722351198230_2_alg».proof.Proof.Val.ReferenceSoftmax

/-
  The reference's context: within a head, the softmax-weighted sum of the value rows; then the 8 heads' contexts
  laid side by side, head h's lane d at column h·64 + d of the token's row.
-/

noncomputable section

namespace Cert.ReferenceIdeal.RefValue

open Cert.ReferenceIdeal Cert.ReferenceIdeal.Gen Cert.ReferenceIdeal.Read Idealize.ShloMosaic Idealize.ShloMosaic.ValueIdx

variable (a0 : FVec Ideal S4x2048x512 .f32) (a1 : FVec Ideal S1536x512 .f32) (a2 : FVec Ideal S1536 .f32)

/-- One head's context at query q, lane d. -/
theorem ctx_apply (b : Fin 4) (h : Fin 8) (q : Fin 2048) (d : Fin 64) :
    val_main_v28 (F := Ideal) a0 a1 a2 (ix4 b h q d)
      = Cert.Spec.ctx (Qh a0 a1 a2 b h) (Kh a0 a1 a2 b h) (Vh a0 a1 a2 b h) q d := by
  rw [val_main_v28_apply]
  have el : ∀ k : Fin 2048, lidx_main_v28 (ix4 b h q d) k = ix4 b h q k := fun k => funext fun a => by
    match a with | ⟨0, _⟩ => rfl | ⟨1, _⟩ => rfl | ⟨2, _⟩ => rfl | ⟨3, _⟩ => rfl
  have er : ∀ k : Fin 2048, ridx_main_v28 (ix4 b h q d) k = ix4 b h k d := fun k => funext fun a => by
    match a with | ⟨0, _⟩ => rfl | ⟨1, _⟩ => rfl | ⟨2, _⟩ => rfl | ⟨3, _⟩ => rfl
  simp only [el, er, weight_apply, v_apply]
  rfl

/-- The heads side by side: the attention output at batch b, token s, column f = h·64 + d. -/
theorem attn_apply (b : Fin 4) (s : Fin 2048) (f : Fin 512) :
    val_main_v30 (F := Ideal) a0 a1 a2 (ix3 b s f) = Cert.Spec.attnBatch (P a0 a1 a2 b) s f := by
  rw [val_main_v30_apply, val_main_v29_apply]
  have hb := b.isLt; have hs := s.isLt; have hf := f.isLt
  have e : idx_main_v29 (idx_main_v30 (ix3 b s f))
      = ix4 b (⟨f.val / 64, by omega⟩ : Fin 8) s (⟨f.val % 64, by omega⟩ : Fin 64) := funext fun a => Fin.ext (by
    match a with
    | ⟨0, _⟩ => show ((b.val * 2048 + s.val) * 512 + f.val) / 1048576 = b.val; omega
    | ⟨1, _⟩ => show ((b.val * 2048 + s.val) * 512 + f.val) / 64 % 8 = f.val / 64; omega
    | ⟨2, _⟩ => show ((b.val * 2048 + s.val) * 512 + f.val) / 512 % 2048 = s.val; omega
    | ⟨3, _⟩ => show ((b.val * 2048 + s.val) * 512 + f.val) % 64 = f.val % 64; omega)
  rw [e, ctx_apply]
  rfl

end Cert.ReferenceIdeal.RefValue

end
-- ==== Proof.Val.ReferenceOutput.lean ====
import proofs.«140616_j7722351198230_2_alg».proof.Proof.Val.ReferenceContext

/-
  The reference's output stage: the context row projected and biased, added to the token row; the row's mean and
  the mean of its squared deviations (each a sum from zero divided by 512); the deviations divided by the square root
  of variance + ε — the specification's product with the reciprocal square root —, scaled and shifted.
-/

noncomputable section

namespace Cert.ReferenceIdeal.RefValue

open Cert.ReferenceIdeal Cert.ReferenceIdeal.Gen Cert.ReferenceIdeal.Read Idealize.ShloMosaic Idealize.ShloMosaic.ValueIdx

variable (a0 : FVec Ideal S4x2048x512 .f32) (a1 : FVec Ideal S1536x512 .f32) (a2 : FVec Ideal S1536 .f32)
  (a3 : FVec Ideal S512x512 .f32) (a4 a5 a6 : FVec Ideal S512 .f32)

/-- The row to be normalised: the token row plus the projected context row. -/
abbrev Vrow (b : Fin 4) (s : Fin 2048) : Fin 512 → EReal :=
  fun j => a0 (ix3 b s j) + ((∑ f : Fin 512, Cert.Spec.attnBatch (P a0 a1 a2 b) s f * a3 (ix2 j f)) + a4 (ix1 j))

/-- The row's deviations from its mean. -/
abbrev Drow (b : Fin 4) (s : Fin 2048) : Fin 512 → EReal :=
  fun j => Vrow a0 a1 a2 a3 a4 b s j - Cert.Spec.mean (Vrow a0 a1 a2 a3 a4 b s)

theorem resid_apply (b : Fin 4) (s : Fin 2048) (j : Fin 512) :
    val_main_v35 (F := Ideal) a0 a1 a2 a3 a4 (ix3 b s j) = Vrow a0 a1 a2 a3 a4 b s j := by
  rw [val_main_v35_apply, val_main_v34_apply, val_main_v31_apply, val_main_v33_apply, val_main_v32_apply]
  have el : ∀ k : Fin 512, lidx_main_v31 (ix3 b s j) k = ix3 b s k := fun k => funext fun a => by
    match a with | ⟨0, _⟩ => rfl | ⟨1, _⟩ => rfl | ⟨2, _⟩ => rfl
  have er : ∀ k : Fin 512, ridx_main_v31 (ix3 b s j) k = ix2 j k := fun k => funext fun a => by
    match a with | ⟨0, _⟩ => rfl | ⟨1, _⟩ => rfl
  have eb : idx_main_v32 (idx_main_v33 (ix3 b s j)) = ix1 j := funext fun a => by
    match a with | ⟨0, _⟩ => rfl
  simp only [el, er, eb, attn_apply, Ideal.addf_def]

theorem mean_apply (b : Fin 4) (s : Fin 2048) :
    val_main_v39 (F := Ideal) a0 a1 a2 a3 a4 (ix3 b s (0 : Fin 1)) = Cert.Spec.mean (Vrow a0 a1 a2 a3 a4 b s) := by
  rw [val_main_v39_apply, val_main_v37_apply, val_main_v38_apply, val_main_cst_4_apply]
  have e : idx_main_v37 (ix3 b s (0 : Fin 1)) = ix2 b s := funext fun a => by
    match a with | ⟨0, _⟩ => rfl | ⟨1, _⟩ => rfl
  have e2 : ∀ k : Fin 512, idx_main_v36 (ix2 b s) k = ix3 b s k := fun k => funext fun a => by
    match a with | ⟨0, _⟩ => rfl | ⟨1, _⟩ => rfl | ⟨2, _⟩ => rfl
  rw [e, val_main_v36_apply, val_main_cst_3_apply]
  simp only [e2, resid_apply, Ideal.hostDivf_def, Ideal.ofBits_def, Ideal.ofBits_zero_f32, zero_add]
  rfl

theorem centred_apply (b : Fin 4) (s : Fin 2048) (j : Fin 512) :
    val_main_v41 (F := Ideal) a0 a1 a2 a3 a4 (ix3 b s j) = Drow a0 a1 a2 a3 a4 b s j := by
  rw [val_main_v41_apply, val_main_v40_apply]
  have e : idx_main_v40 (ix3 b s j) = ix3 b s (0 : Fin 1) := funext fun a => by
    match a with | ⟨0, _⟩ => rfl | ⟨1, _⟩ => rfl | ⟨2, _⟩ => rfl
  rw [e, mean_apply, resid_apply]
  rfl

theorem centred'_apply (b : Fin 4) (s : Fin 2048) (j : Fin 512) :
    val_main_v48 (F := Ideal) a0 a1 a2 a3 a4 (ix3 b s j) = Drow a0 a1 a2 a3 a4 b s j := by
  rw [val_main_v48_apply, val_main_v47_apply]
  have e : idx_main_v47 (ix3 b s j) = ix3 b s (0 : Fin 1) := funext fun a => by
    match a with | ⟨0, _⟩ => rfl | ⟨1, _⟩ => rfl | ⟨2, _⟩ => rfl
  rw [e, mean_apply, resid_apply]
  rfl

theorem var_apply (b : Fin 4) (s : Fin 2048) :
    val_main_v46 (F := Ideal) a0 a1 a2 a3 a4 (ix3 b s (0 : Fin 1))
      = Cert.Spec.mean (fun j => Drow a0 a1 a2 a3 a4 b s j * Drow a0 a1 a2 a3 a4 b s j) := by
  rw [val_main_v46_apply, val_main_v44_apply, val_main_v45_apply, val_main_cst_6_apply]
  have e : idx_main_v44 (ix3 b s (0 : Fin 1)) = ix2 b s := funext fun a => by
    match a with | ⟨0, _⟩ => rfl | ⟨1, _⟩ => rfl
  have e2 : ∀ k : Fin 512, idx_main_v43 (ix2 b s) k = ix3 b s k := fun k => funext fun a => by
    match a with | ⟨0, _⟩ => rfl | ⟨1, _⟩ => rfl | ⟨2, _⟩ => rfl
  rw [e, val_main_v43_apply, val_main_cst_5_apply]
  simp only [e2, val_main_v42_apply, centred_apply, Ideal.hostDivf_def, Ideal.mulf_def, Ideal.ofBits_def,
    Ideal.ofBits_zero_f32, zero_add]
  rfl

/-- The reference's result at batch b, token s, column j. -/
theorem out_apply (b : Fin 4) (s : Fin 2048) (j : Fin 512) :
    val_main_v59 (F := Ideal) a0 a1 a2 a3 a4 a5 a6 (ix3 b s j)
      = Cert.Spec.outRow (fun f => Cert.Spec.attnBatch (P a0 a1 a2 b) s f) (fun d => a0 (ix3 b s d))
          (fun j f => a3 (ix2 j f)) (fun j => a4 (ix1 j)) (fun j => a5 (ix1 j)) (fun j => a6 (ix1 j)) j := by
  rw [val_main_v59_apply, val_main_v56_apply, val_main_v53_apply, val_main_v52_apply, val_main_v51_apply,
    val_main_v50_apply, val_main_v49_apply, val_main_cst_7_apply, val_main_v55_apply, val_main_v54_apply,
    val_main_v58_apply, val_main_v57_apply]
  have e : idx_main_v52 (ix3 b s j) = ix3 b s (0 : Fin 1) := funext fun a => by
    match a with | ⟨0, _⟩ => rfl | ⟨1, _⟩ => rfl | ⟨2, _⟩ => rfl
  have e5 : idx_main_v54 (idx_main_v55 (ix3 b s j)) = ix1 j := funext fun a => by
    match a with | ⟨0, _⟩ => rfl
  have e6 : idx_main_v57 (idx_main_v58 (ix3 b s j)) = ix1 j := funext fun a => by
    match a with | ⟨0, _⟩ => rfl
  rw [e, e5, e6, var_apply, centred'_apply]
  simp only [Ideal.hostDivf_def, Ideal.hostUnary_sqrt_def, Ideal.addf_def, Ideal.mulf_def, Ideal.ofBits_def]
  rw [show Ideal.ofBits .f32 0x3727C5AC#32 = Cert.Spec.eps from rfl, div_sqrt_var]
  rfl

end Cert.ReferenceIdeal.RefValue

end
-- ==== Proof.SpecResult.lean ====
/-
  The result array as one function of the seven argument arrays: entry (b, s, j) is `Cert.Spec.final` at (b, s, j).
-/
import proofs.«140616_j7722351198230_2_alg».proof.Proof.Spec
import Idealize.ShloMosaic.Lib.ValueIdx

noncomputable section

namespace Cert.Spec

open Idealize.ShloMosaic ValueIdx

/-- The [4,2048,512] result from the arguments x [4,2048,512], Wc [1536,512], bc [1536], Wo [512,512], bo, γ, β [512]. -/
def result (a0 : (⟨3, ![4, 2048, 512]⟩ : Shape).Idx → EReal) (a1 : (⟨2, ![1536, 512]⟩ : Shape).Idx → EReal)
    (a2 : (⟨1, ![1536]⟩ : Shape).Idx → EReal) (a3 : (⟨2, ![512, 512]⟩ : Shape).Idx → EReal)
    (a4 a5 a6 : (⟨1, ![512]⟩ : Shape).Idx → EReal) : (⟨3, ![4, 2048, 512]⟩ : Shape).Idx → EReal :=
  fun i => final (fun b s d => a0 (ix3 b s d)) (fun p d => a1 (ix2 p d)) (fun p => a2 (ix1 p)) (fun j f => a3 (ix2 j f))
    (fun j => a4 (ix1 j)) (fun j => a5 (ix1 j)) (fun j => a6 (ix1 j)) (i 0) (i 1) (i 2)

/-- Read at an index built from its coordinates. -/
theorem result_ix3 (a0 : (⟨3, ![4, 2048, 512]⟩ : Shape).Idx → EReal) (a1 : (⟨2, ![1536, 512]⟩ : Shape).Idx → EReal)
    (a2 : (⟨1, ![1536]⟩ : Shape).Idx → EReal) (a3 : (⟨2, ![512, 512]⟩ : Shape).Idx → EReal)
    (a4 a5 a6 : (⟨1, ![512]⟩ : Shape).Idx → EReal) (b : Fin 4) (s : Fin 2048) (j : Fin 512) :
    result a0 a1 a2 a3 a4 a5 a6 (ix3 b s j)
      = final (fun b s d => a0 (ix3 b s d)) (fun p d => a1 (ix2 p d)) (fun p => a2 (ix1 p)) (fun j f => a3 (ix2 j f))
          (fun j => a4 (ix1 j)) (fun j => a5 (ix1 j)) (fun j => a6 (ix1 j)) b s j := rfl

/-- Two arrays that agree at every index built from coordinates are equal. -/
theorem ext_ix3 {α : Type} (f g : (⟨3, ![4, 2048, 512]⟩ : Shape).Idx → α)
    (h : ∀ (b : Fin 4) (s : Fin 2048) (j : Fin 512), f (ix3 b s j) = g (ix3 b s j)) : f = g := by
  funext i
  rw [eq_ix3 i]
  exact h _ _ _

end Cert.Spec

end
-- ==== Proof.Val.Reference.lean ====
import proofs.«140616_j7722351198230_2_alg».proof.Proof.Val.ReferenceOutput
import proofs.«140616_j7722351198230_2_alg».proof.Proof.SpecResult

/-
  The reference program's result, at the ideal instance, is the specification's function of the seven argument
  arrays: index by index, and as one array.
-/

noncomputable section

namespace Cert.ReferenceIdeal.RefValue

open Cert.ReferenceIdeal Cert.ReferenceIdeal.Gen Cert.ReferenceIdeal.Read Idealize.ShloMosaic Idealize.ShloMosaic.ValueIdx

/-- The reference's result at batch b, token s, column j is the specification's value there. -/
theorem ref_final (a0 : FVec Ideal S4x2048x512 .f32) (a1 : FVec Ideal S1536x512 .f32) (a2 : FVec Ideal S1536 .f32)
    (a3 : FVec Ideal S512x512 .f32) (a4 a5 a6 : FVec Ideal S512 .f32) (b : Fin 4) (s : Fin 2048) (j : Fin 512) :
    val_main_v59 (F := Ideal) a0 a1 a2 a3 a4 a5 a6 (ix3 b s j)
      = Cert.Spec.final (fun b s d => a0 (ix3 b s d)) (fun p d => a1 (ix2 p d)) (fun p => a2 (ix1 p))
          (fun j f => a3 (ix2 j f)) (fun j => a4 (ix1 j)) (fun j => a5 (ix1 j)) (fun j => a6 (ix1 j)) b s j := by
  rw [out_apply]
  rfl

/-- The same as one array. -/
theorem ref_final_fun (a0 : FVec Ideal S4x2048x512 .f32) (a1 : FVec Ideal S1536x512 .f32) (a2 : FVec Ideal S1536 .f32)
    (a3 : FVec Ideal S512x512 .f32) (a4 a5 a6 : FVec Ideal S512 .f32) :
    val_main_v59 (F := Ideal) a0 a1 a2 a3 a4 a5 a6
      = fun i => Cert.Spec.final (fun b s d => a0 (ix3 b s d)) (fun p d => a1 (ix2 p d)) (fun p => a2 (ix1 p))
          (fun j f => a3 (ix2 j f)) (fun j => a4 (ix1 j)) (fun j => a5 (ix1 j)) (fun j => a6 (ix1 j)) (i 0) (i 1) (i 2) := by
  funext i
  exact (congrArg (val_main_v59 (F := Ideal) a0 a1 a2 a3 a4 a5 a6) (eq_ix3 i)).trans
    (ref_final a0 a1 a2 a3 a4 a5 a6 (i 0) (i 1) (i 2))

/-- The reference's result array is the specification's result array. -/
theorem ref_result (a0 : FVec Ideal S4x2048x512 .f32) (a1 : FVec Ideal S1536x512 .f32) (a2 : FVec Ideal S1536 .f32)
    (a3 : FVec Ideal S512x512 .f32) (a4 a5 a6 : FVec Ideal S512 .f32) :
    val_main_v59 (F := Ideal) a0 a1 a2 a3 a4 a5 a6 = Cert.Spec.result a0 a1 a2 a3 a4 a5 a6 :=
  Cert.Spec.ext_ix3 _ _ fun b s j => (ref_final a0 a1 a2 a3 a4 a5 a6 b s j).trans
    (Cert.Spec.result_ix3 a0 a1 a2 a3 a4 a5 a6 b s j).symm

end Cert.ReferenceIdeal.RefValue

end
-- ==== Proof.lean ====
/-
  The kernel program — a fused query/key/value projection, two-heads-per-block softmax attention, and an output
  projection with residual and row normalisation, as three pipelined kernel regions between host reshapes and weight
  transposes — against its plain reference, over the extended reals.

  Frames. Each kernel body runs from staging buffers holding a grid point's blocks to the end without a fault and
  stores one whole block; the three regions and four host stretches are chained over one thread state per core
  (every unscoped buffer at known contents), so every weakly fair execution terminates and no argument array is
  written. The attention region reads one array through three windows; each holds it at a part of the full share.
  The reference is a straight line of host operations.

  Values. After its grid points a region's output array holds, index by index, one function of the region's input
  arrays: a projected row x·Wcᵀ + bc; per batch and head the softmax-weighted sum of value rows, the scores scaled by
  1/8 and shifted by their row maximum; the normalised row of x + (c·Woᵀ + bo). Composed through the reshapes
  (token (b, s) is row b·2048 + s) this is `Cert.Spec.final` of the seven arguments. The reference computes the same
  function: its division of the scores by sqrt 64 is the product with 1/8 on every extended real, its
  maximum(−∞, ·) is the identity, and its (v − μ)/sqrt(σ² + ε) is (v − μ)·(σ² + ε)^(−1/2) because σ² + ε > 0.
  No finiteness of the inputs is used. The idealisation rewrote nothing, so `preserves` is trivial.
-/
import proofs.«140616_j7722351198230_2_alg».proof.Defs
import proofs.«140616_j7722351198230_2_alg».proof.Proof.Gen.Kernel
import proofs.«140616_j7722351198230_2_alg».proof.Proof.Gen.KernelIdeal
import proofs.«140616_j7722351198230_2_alg».proof.Proof.Gen.ReferenceIdeal
import proofs.«140616_j7722351198230_2_alg».proof.Proof.Gen.Pre_finite_inputs
import proofs.«140616_j7722351198230_2_alg».proof.Proof.Gen.ReferenceIdeal.Run
import proofs.«140616_j7722351198230_2_alg».proof.Proof.K.Frame
import proofs.«140616_j7722351198230_2_alg».proof.Proof.KI.Frame
import proofs.«140616_j7722351198230_2_alg».proof.Proof.Val.ChainFinal
import proofs.«140616_j7722351198230_2_alg».proof.Proof.Val.Reference
import proofs.«140616_j7722351198230_2_alg».proof.Proof.SpecResult
import Idealize.ShloMosaic.Adequacy
import Idealize.ShloMosaic.Init

noncomputable section

namespace Cert.Proof

open Idealize.ShloMosaic Idealize.ShloMosaic.TcCoe Idealize.SL.Sem ValueIdx

/-- The kernel program's result array is `Cert.Spec.result` of its argument arrays. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.W7 m c Cert.KernelIdeal.main_v14
      = Cert.Spec.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) :=
  Cert.Spec.ext_ix3 _ _ fun b s j => Cert.KernelIdeal.Chain.kernel_final m c b s j

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at `Cert.Spec.result` of arguments that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run m ρ)
    exact ⟨(h c _ (Cert.KernelIdeal.Hand.mem_uc Cert.KernelIdeal.main_v14 (by decide))).trans (kernel_result m c),
      (h c _ (Cert.KernelIdeal.Hand.mem_uc Cert.KernelIdeal.main_arg0 (by decide))).trans (Cert.KernelIdeal.Hand.W7_main_arg m c _ (by simp)),
      (h c _ (Cert.KernelIdeal.Hand.mem_uc Cert.KernelIdeal.main_arg1 (by decide))).trans (Cert.KernelIdeal.Hand.W7_main_arg m c _ (by simp)),
      (h c _ (Cert.KernelIdeal.Hand.mem_uc Cert.KernelIdeal.main_arg2 (by decide))).trans (Cert.KernelIdeal.Hand.W7_main_arg m c _ (by simp)),
      (h c _ (Cert.KernelIdeal.Hand.mem_uc Cert.KernelIdeal.main_arg3 (by decide))).trans (Cert.KernelIdeal.Hand.W7_main_arg m c _ (by simp)),
      (h c _ (Cert.KernelIdeal.Hand.mem_uc Cert.KernelIdeal.main_arg4 (by decide))).trans (Cert.KernelIdeal.Hand.W7_main_arg m c _ (by simp)),
      (h c _ (Cert.KernelIdeal.Hand.mem_uc Cert.KernelIdeal.main_arg5 (by decide))).trans (Cert.KernelIdeal.Hand.W7_main_arg m c _ (by simp)),
      (h c _ (Cert.KernelIdeal.Hand.mem_uc Cert.KernelIdeal.main_arg6 (by decide))).trans (Cert.KernelIdeal.Hand.W7_main_arg m c _ (by simp))⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v59_eq, Cert.ReferenceIdeal.RefValue.ref_result,
      (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
